-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x2048 : Shape := ⟨2, ![4096, 2048]⟩
abbrev S8192x2048 : Shape := ⟨2, ![8192, 2048]⟩
abbrev S8192x1 : Shape := ⟨2, ![8192, 1]⟩
abbrev S256x2048 : Shape := ⟨2, ![256, 2048]⟩
abbrev S512x2048 : Shape := ⟨2, ![512, 2048]⟩
abbrev S512x1 : Shape := ⟨2, ![512, 1]⟩
abbrev S256 : Shape := ⟨1, ![256]⟩
abbrev S256x1 : Shape := ⟨2, ![256, 1]⟩
abbrev S1024x2048 : Shape := ⟨2, ![1024, 2048]⟩
abbrev S1024x1 : Shape := ⟨2, ![1024, 1]⟩
abbrev S1024x1024 : Shape := ⟨2, ![1024, 1024]⟩
abbrev S1024 : Shape := ⟨1, ![1024]⟩
abbrev S_ : Shape := ⟨0, ![]⟩

abbrev nBuf : Space → Nat
  | .hbm => 14
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S8192x2048, .bf16⟩
  | .hbm, ⟨3, _⟩ => ⟨S8192x1, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S512x2048, .bf16⟩
  | .local _ .vmem, ⟨5, _⟩ => ⟨S512x2048, .bf16⟩
  | .local _ .vmem, ⟨6, _⟩ => ⟨S512x1, .f32⟩
  | .local _ .vmem, ⟨7, _⟩ => ⟨S512x1, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond4 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  bitsLt_bf16_f32 : FTy.bits .bf16 < FTy.bits .f32
  inb_S512x2048_S256x2048_0_0 : ∀ a, (![0, 0] : Fin 2 → Nat) a + S256x2048.size a ≤ S512x2048.size a
  packedbf16_S512x2048_S256x2048_0_0 : (Rect.unit (s := S512x2048) ![0, 0] S256x2048.size inb_S512x2048_S256x2048_0_0).PackedRows (EltTy.packing .bf16)
  inb_S512x2048_S256x2048_256_0 : ∀ a, (![256, 0] : Fin 2 → Nat) a + S256x2048.size a ≤ S512x2048.size a
  packedbf16_S512x2048_S256x2048_256_0 : (Rect.unit (s := S512x2048) ![256, 0] S256x2048.size inb_S512x2048_S256x2048_256_0).PackedRows (EltTy.packing .bf16)
  inb_S512x1_S256x1_0_0 : ∀ a, (![0, 0] : Fin 2 → Nat) a + S256x1.size a ≤ S512x1.size a
  h_S256x1 : 0 < S256x1.numel
  inb_S512x1_S256x1_256_0 : ∀ a, (![256, 0] : Fin 2 → Nat) a + S256x1.size a ≤ S512x1.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  reducesTo_S8192x1_S_d0_1 : S8192x1.ReducesTo [0, 1] S_
  h_S_ : 0 < S_.numel
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .bf16 = 32 ∨ (Rect.block (s := S8192x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x2048.size a
  hwx1_1 : ∀ i : grid1.Coords, EltTy.bits .bf16 = 32 ∨ (Rect.block (s := S8192x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond4 i == 1#1) | ⟨_ + 3, h⟩ => absurd h (Nat.not_lt.2 (Nat.le_add_left _ _))

class Facts : Prop extends Facts₀ where

variable [Facts]
-- ==== ReferenceIdeal.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S8192x2048 : Shape := ⟨2, ![8192, 2048]⟩
abbrev S2048x8192 : Shape := ⟨2, ![2048, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 100
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S8192x2048, .f32⟩
  | .hbm, ⟨23, _⟩ => ⟨S2048x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192x8192, .i32⟩
  | .hbm, ⟨77, _⟩ => ⟨S8192x8192, .i32⟩
  | .hbm, ⟨78, _⟩ => ⟨S_, .i32⟩
  | .hbm, ⟨79, _⟩ => ⟨S8192x8192, .i32⟩
  | .hbm, ⟨80, _⟩ => ⟨S8192x8192, .i32⟩
  | .hbm, ⟨81, _⟩ => ⟨S8192x8192, .i1⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_c_0 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c_2 : Ref sig .tc := ⟨.hbm, 37, rfl⟩
abbrev main_call0_v9 : Ref sig .tc := ⟨.hbm, 38, rfl⟩
abbrev main_call0_v10 : Ref sig .tc := ⟨.hbm, 39, rfl⟩
abbrev main_call0_c_3 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_v19 : Ref sig .tc := ⟨.hbm, 47, rfl⟩
abbrev main_call1_v0 : Ref sig .tc := ⟨.hbm, 48, rfl⟩
abbrev main_call1_v1 : Ref sig .tc := ⟨.hbm, 49, rfl⟩
abbrev main_call1_c : Ref sig .tc := ⟨.hbm, 50, rfl⟩
abbrev main_call1_v2 : Ref sig .tc := ⟨.hbm, 51, rfl⟩
abbrev main_call1_v3 : Ref sig .tc := ⟨.hbm, 52, rfl⟩
abbrev main_call1_c_0 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c_2 : Ref sig .tc := ⟨.hbm, 60, rfl⟩
abbrev main_call1_v9 : Ref sig .tc := ⟨.hbm, 61, rfl⟩
abbrev main_call1_v10 : Ref sig .tc := ⟨.hbm, 62, rfl⟩
abbrev main_call1_c_3 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_v20 : Ref sig .tc := ⟨.hbm, 70, rfl⟩
abbrev main_v21 : Ref sig .tc := ⟨.hbm, 71, rfl⟩
abbrev main_cst_3 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_c : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_4 : Ref sig .tc := ⟨.hbm, 83, rfl⟩
abbrev main_v31 : Ref sig .tc := ⟨.hbm, 84, rfl⟩
abbrev main_v32 : Ref sig .tc := ⟨.hbm, 85, rfl⟩
abbrev main_cst_5 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_cst_6 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_cst_7 : Ref sig .tc := ⟨.hbm, 96, rfl⟩
abbrev main_v41 : Ref sig .tc := ⟨.hbm, 97, rfl⟩
abbrev main_cst_8 : Ref sig .tc := ⟨.hbm, 98, rfl⟩
abbrev main_v42 : Ref sig .tc := ⟨.hbm, 99, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  concatenates_S4096x2048_S4096x2048_S8192x2048_d0 : Shape.Concatenates [S4096x2048, S4096x2048] S8192x2048 0
  transposes_S8192x2048_S2048x8192_1_0 : S8192x2048.Transposes [1, 0] S2048x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x2048_S2048x8192_S8192x8192_1_0_0_1_n_n_wf : DotDims.WF S8192x2048 S2048x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.Kernel.Run.lean ====
import proofs.«107862_j71090298683407_2_alg».proof.Proof.Gen.Kernel.Launch
import proofs.«107862_j71090298683407_2_alg».proof.Proof.Gen.Kernel.Points
import proofs.«107862_j71090298683407_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The program's run, region by region

The program is: the normalizing region, then the accumulating region, then nine host operations. Between two items
a core holds every unscoped buffer at a known valuation:

* `W0`: the launch memory;
* `W1`: `W0` with the first region's two result arrays at what its write-backs leave;
* `W2`: `W1` with the second region's result array at what its write-backs leave (its two input windows read
  ONE array, the stacked unit rows, each holding half of the full share of it, and return it unchanged);
* `W3`: `W2` after the host operations.

The run below says: every weakly fair execution terminates, and the final memory holds every unscoped buffer at
`W3`. It is stated for ANY proof data of the two regions with the stated entry arrays, shares and invariants whose
bodies meet their obligations.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- The same read at the TensorCore's references. -/
abbrev V0 : (c : Dev nD) → (b : Ref sig .tc) → Buf (Elt F) ((c : Thread nD τ).loc b) := fun c b => W0 m c b

section Run

/-! ## The first region's proof data, as hypotheses -/

/-- The first region's proof data with what the run needs of it. -/
structure Data0 where
  dat : (c : Dev nD) → Dat τ (Elt F) Unit ℕ (UR sig nD τ) ℕ cfg0 c
  hA : ∀ c w, (dat c).A w = V0 m c (Pipeline.arrRef spec0 w)
  hq : ∀ c w, (dat c).q w = fullShare
  howed : ∀ c t, (dat c).owed t = 0
  hrec : ∀ c t, (dat c).recorded t = Set.univ
  hΦ : ∀ c t, (dat c).Φ t = Pipeline.ΦA spec0 c
  hbody : ∀ c, BodyObligation (dat c) (defs₀ (F := F)) Variants.none () Set.univ

variable {m} (D0 : Data0 m)

/-- After the first region: its arrays at what the pipeline leaves, every other buffer as launched. -/
def W1 (c : Dev nD) : Valuation τ sig (Elt F) :=
  Pipeline.withArrays spec0 c (W0 m c) fun w => (D0.dat c).arrAt w cfg0.N
theorem W1_arr (c : Dev nD) (w : Fin cfg0.W) :
    W1 D0 c (Proc.devRef .tc (Pipeline.arrRef spec0 w)) = (D0.dat c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 D0 c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 D0 c b
theorem hF0 (c : Dev nD) (w : Fin cfg0.W) : (D0.dat c).arrAt w cfg0.N = V1 D0 c (Pipeline.arrRef spec0 w) :=
  (W1_arr D0 c w).symm
theorem hrest0 (c : Dev nD) : ∀ b, b ∉ Finset.univ.image (Pipeline.arrRef spec0) → V1 D0 c b = V0 m c b :=
  fun b hb => W1_of_ne D0 c b fun w e => hb (Finset.mem_image.mpr ⟨w, Finset.mem_univ _, e⟩)

/-! ## The second region's proof data, as hypotheses -/

/-- The second region's proof data with what the run needs of it: its two input windows hold the one array of
    stacked unit rows at the two halves of the full share; its invariant takes the generator register and the scoped
    buffers it does not stage, and gives them back. -/
structure Data1 where
  dat : (c : Dev nD) → Dat τ (Elt F) Unit ℕ (UR sig nD τ) ℕ cfg1 c
  hA : ∀ c w, (dat c).A w = V1 D0 c (Pipeline.arrRef spec1 w)
  hq0 : ∀ c, (dat c).q 0 = fullShare.left
  hq1 : ∀ c, (dat c).q 1 = fullShare.right
  howed : ∀ c t, (dat c).owed t = 0
  hrec : ∀ c t, (dat c).recorded t = Set.univ
  hin : ∀ c, (iprop((∃ r, prngReg c r) ∗ Pipeline.scopedRest (Ix := Unit) (Name := ℕ) (U := UR sig nD τ) (Lvl := ℕ) spec1 c) : sProp 𝕄) ⊢ (dat c).Φ 0
  hout : ∀ c, (dat c).Φ (Fin.last cfg1.N) ⊢ (iprop((∃ r, prngReg c r) ∗ Pipeline.scopedRest (Ix := Unit) (Name := ℕ) (U := UR sig nD τ) (Lvl := ℕ) spec1 c) : sProp 𝕄)
  hbody : ∀ c, BodyObligation (dat c) (defs₀ (F := F)) Variants.none () Set.univ

variable (D1 : Data1 D0)

/-- After the second region: its result array at what the pipeline leaves, every other buffer as entered. -/
def W2 (c : Dev nD) : Valuation τ sig (Elt F) :=
  Function.update (W1 D0 c) (Proc.devRef .tc main_v1) ((D1.dat c).arrAt 2 cfg1.N)
abbrev V2 : (c : Dev nD) → (b : Ref sig .tc) → Buf (Elt F) ((c : Thread nD τ).loc b) := fun c b => W2 D0 D1 c b
/-- After the host operations. -/
abbrev W3 (c : Dev nD) : Valuation τ sig (Elt F) := StableHlo.after hostOps2 (W2 D0 D1 c)

/-! ## The thread state -/

/-- The prefetched tables' admissible contents: no pipeline has a table. -/
abbrev adm : (p : Fin 2) → (pcfgs (F := F) p).Adm := fun p => (cfgs p).toPCfg_adm
/-- Both pipelines' proof data, a literal match on the pipeline. -/
def pdats : (p : Fin 2) → (c : Dev nD) → Dat τ (Elt F) Unit ℕ (UR sig nD τ) ℕ (Pipeline.pin (pcfgs (F := F)) adm p) c
  | ⟨0, _⟩ => fun c => D0.dat c
  | ⟨1, _⟩ => fun c => D1.dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 :=
  iprop(StableHlo.held (c : Thread nD τ) (Pipeline.ucRefs τ sig) (W3 D0 D1 c) ∗ ∃ r, prngReg c r)

/-! ## The second region's arrays: one array behind two input windows -/

theorem W2_of_ne (c : Dev nD) (b : Ref sig .tc) (hb : b ≠ main_v1) :
    W2 D0 D1 c (Proc.devRef .tc b) = W1 D0 c (Proc.devRef .tc b) := by
  unfold W2; rw [Function.update_of_ne (StableHlo.devRef_ne_of_ne hb)]
theorem W2_v1 (c : Dev nD) : W2 D0 D1 c (Proc.devRef .tc main_v1) = (D1.dat c).arrAt 2 cfg1.N := by
  unfold W2; rw [Function.update_self]

/-- The distinct buffers behind the second region's windows: the stacked unit rows and the result. -/
theorem image_arr1 : Finset.univ.image (Pipeline.arrRef spec1) = ({main_v0_0, main_v1} : Finset (Ref sig .tc)) := by decide

/-- The second region's input windows both read the stacked unit rows and never write them. -/
theorem arrAt1_0 (c : Dev nD) (n : Nat) : (D1.dat c).arrAt 0 n = V1 D0 c main_v0_0 :=
  ((D1.dat c).arrAt_in 0 rfl n).trans (D1.hA c 0)
theorem arrAt1_1 (c : Dev nD) (n : Nat) : (D1.dat c).arrAt 1 n = V1 D0 c main_v0_0 :=
  ((D1.dat c).arrAt_in 1 rfl n).trans (D1.hA c 1)

/-- The shares the second region holds its windows' arrays at: the stacked unit rows in halves, the result whole. -/
theorem share1_0 (c : Dev nD) : (D1.dat c).share 0 = fullShare.left := (if_neg (by decide)).trans (D1.hq0 c)
theorem share1_1 (c : Dev nD) : (D1.dat c).share 1 = fullShare.right := (if_neg (by decide)).trans (D1.hq1 c)
theorem share1_2 (c : Dev nD) : (D1.dat c).share 2 = fullShare := if_pos (by decide)

/-- The second region's arrays, window by window. -/
theorem arrays_eq1 (c : Dev nD) (G : (w : Fin cfg1.W) → Buf (Elt F) ((cfg1.win w).arr.view.loc (c.tc : Thread nD τ))) :
    ((D1.dat c).arrays G : sProp 𝕄)
      = iprop((((c : Thread nD τ).loc main_v0_0) ↦{fullShare.left} G 0) ∗ (((c : Thread nD τ).loc main_v0_0) ↦{fullShare.right} G 1)
          ∗ (((c : Thread nD τ).loc main_v1) ↦{fullShare} G 2)) := by
  unfold Dat.arrays
  rw [bigSep_W1, (arr_whole1 0).set_eq_univ, (arr_whole1 2).set_eq_univ,
    share1_0 D0 D1 c, share1_1 D0 D1 c, share1_2 D0 D1 c]

/-- The two distinct buffers behind the second region's arrays, one by one. -/
theorem arrBufs_eq1 (c : Dev nD) (V : (b : Ref sig .tc) → Buf (Elt F) ((c.tc : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v1) ↦{fullShare} V main_v1)) := by
  unfold Pipeline.arrBufs
  rw [image_arr1, bigSep_insert (by decide), bigSep_singleton]
  rfl

/-- ENTRY: the two buffers whole at the full share are the three windows' arrays, the shared one dealt in halves. -/
theorem arrays_split1 (c : Dev nD) :
    (Pipeline.arrBufs (Ix := Unit) (Name := ℕ) (U := UR sig nD τ) (Lvl := ℕ) spec1 c (V1 D0 c) : sProp 𝕄)
      ⊢ (D1.dat c).arrays ((D1.dat c).arrAt · 0) := by
  rw [arrBufs_eq1, arrays_eq1, arrAt1_0 D0 D1 c 0, arrAt1_1 D0 D1 c 0, show (D1.dat c).arrAt 2 0 = V1 D0 c main_v1 from D1.hA c 2]
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-- EXIT: the three windows' arrays at their final contents are the two buffers whole at `W2`. -/
theorem arrays_join1 (c : Dev nD) :
    ((D1.dat c).arrays ((D1.dat c).arrAt · cfg1.N) : sProp 𝕄)
      ⊢ Pipeline.arrBufs (Ix := Unit) (Name := ℕ) (U := UR sig nD τ) (Lvl := ℕ) spec1 c (V2 D0 D1 c) := by
  rw [arrBufs_eq1, arrays_eq1, arrAt1_0 D0 D1 c cfg1.N, arrAt1_1 D0 D1 c cfg1.N,
    show V2 D0 D1 c main_v0_0 = V1 D0 c main_v0_0 from W2_of_ne D0 D1 c main_v0_0 (by decide),
    show V2 D0 D1 c main_v1 = (D1.dat c).arrAt 2 cfg1.N from W2_v1 D0 D1 c]
  iintro ⟨Hl, Hr, H1⟩
  isplitl [Hl Hr]
  · iapply (pointsTo_share (PosShare.mem_left_op_right fullShare)).2
    isplitl [Hl] <;> iassumption
  iexact H1

/-- Off the result array, `W2` is `W1`: the unscoped buffers the second region bypasses are untouched. -/
theorem rest1_eq (c : Dev nD) :
    (Pipeline.unscopedRest (Ix := Unit) (Name := ℕ) (U := UR sig nD τ) (Lvl := ℕ) spec1 c (V2 D0 D1 c) : sProp 𝕄)
      = Pipeline.unscopedRest (Ix := Unit) (Name := ℕ) (U := UR sig nD τ) (Lvl := ℕ) spec1 c (V1 D0 c) := by
  unfold Pipeline.unscopedRest
  refine bigSep_congr fun b hb => ?_
  have hne : b ≠ main_v1 := fun e => (Finset.mem_sdiff.mp hb).2 (by rw [image_arr1, e]; decide)
  show (((c : Thread nD τ).loc b) ↦{fullShare} W2 D0 D1 c (Proc.devRef .tc b) : sProp 𝕄) = ((c : Thread nD τ).loc b) ↦{fullShare} W1 D0 c (Proc.devRef .tc b)
  unfold W2
  rw [Function.update_of_ne (StableHlo.devRef_ne_of_ne hne)]

/-! ## The regions as segments -/

set_option backward.isDefEq.respectTransparency.types false in
/-- The first region over the thread state: entered from every unscoped buffer at `W0`, left at `W1`. -/
def reg0 : Pipeline.RegionSeg (pcfgs (F := F)) adm (pdats D0 D1) () defs₀ 𝒱₀ L lv 0 where
  win := launch0.win.to₀
  block_pos := launch0.block_pos
  stage_whole := launch0.stage_whole
  K := PEmpty
  osem k := k.elim
  ho := Pipeline.OwnSemFacts.none _
  hbody c := (D0.hbody c).loose
  hwaits := Pipeline.hwaits_of_owed_zero _ _ _ _ L lv 0 fun c t => D0.howed c t
  pre c := iprop(StableHlo.held (c : Thread nD τ) (Pipeline.ucRefs τ sig) (W0 m c) ∗ R c)
  post c := iprop(StableHlo.held (c : Thread nD τ) (Pipeline.ucRefs τ sig) (W1 D0 c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats D0 D1) launch0.win launch0.arr_whole c
      ((pdats D0 D1 0 c).share_full fun w => D0.hq c w) (V0 m c) fun w => D0.hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D0 D1 0 c).owed 0 = 0 from D0.howed c 0]
      icases HO with ⟨%W, HO⟩; iexists W; isplitr; · ipureintro; exact fun x _ => Or.inl ((D0.hrec c 0).symm ▸ Set.mem_univ x)
      iexact HO
    isplitl [Hp]; · iexact Hp
    iexact Hrest
  hin c := by
    rw [show (pdats D0 D1 0 c).Φ 0 = Pipeline.ΦA spec0 c from D0.hΦ c 0]; unfold Pipeline.ΦA
    iintro ⟨Hp, -, Hr⟩
    isplitl [Hr]; · iexact Hr
    iexact Hp
  hout c := by
    rw [Pipeline.ownSems0_none, show (pdats D0 D1 0 c).Φ (Fin.last _) = Pipeline.ΦA spec0 c from D0.hΦ c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D0 D1) ((pdats D0 D1 0 c).share_full fun w => D0.hq c w)
      (V0 m c) (V1 D0 c) ((pdats D0 D1 0 c).arrAt · cfg0.N) (hF0 D0 c) (hrest0 D0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats D0 D1 0 c).owed (Fin.last _) = 0 from D0.howed c _]
    icases HO with ⟨%W, -, HO⟩; iexists W; iexact HO

set_option backward.isDefEq.respectTransparency.types false in
/-- The second region over the thread state: entered from every unscoped buffer at `W1`, left at `W2`. Its two input
    windows take the one array of stacked unit rows in halves and give it back whole. -/
def reg1 : Pipeline.RegionSeg (pcfgs (F := F)) adm (pdats D0 D1) () defs₀ 𝒱₀ L lv 1 where
  win := winFacts₀1
  block_pos := block_pos1
  stage_whole := stage_whole1
  K := PEmpty
  osem k := k.elim
  ho := Pipeline.OwnSemFacts.none _
  hbody c := (D1.hbody c).loose
  hwaits := Pipeline.hwaits_of_owed_zero _ _ _ _ L lv 1 fun c t => D1.howed c t
  pre c := iprop(StableHlo.held (c : Thread nD τ) (Pipeline.ucRefs τ sig) (W1 D0 c) ∗ R c)
  post c := iprop(StableHlo.held (c : Thread nD τ) (Pipeline.ucRefs τ sig) (W2 D0 D1 c) ∗ R c)
  X c := iprop(∃ r, prngReg c r)
  Y c := iprop(∃ r, prngReg c r)
  Z c := Pipeline.unscopedRest (Ix := Unit) (Name := ℕ) (U := UR sig nD τ) (Lvl := ℕ) spec1 c (V1 D0 c)
  hentry c := by
    rw [Pipeline.ownSems0_none]
    have hs : StableHlo.held (c : Thread nD τ) (Pipeline.ucRefs τ sig) (W1 D0 c)
        = (iprop(Pipeline.arrBufs (Ix := Unit) (Name := ℕ) (U := UR sig nD τ) (Lvl := ℕ) spec1 c (V1 D0 c)
            ∗ Pipeline.unscopedRest (Ix := Unit) (Name := ℕ) (U := UR sig nD τ) (Lvl := ℕ) spec1 c (V1 D0 c)) : sProp 𝕄) := by
      rw [← Pipeline.unscopedBufs_held]
      exact Pipeline.unscopedBufs_split₀ (Ix := Unit) (Name := ℕ) (U := UR sig nD τ) (Lvl := ℕ) (Val := Elt F) cfgs 1 winFacts₀1.arr_unscoped c (V1 D0 c)
    iintro ⟨⟨Hub, Hp, HO⟩, -, -⟩
    ihave H := (Entails.of_eq hs) $$ Hub
    icases H with ⟨Hb, Hrest⟩
    ihave Ha := (arrays_split1 D0 D1 c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D0 D1 1 c).owed 0 = 0 from D1.howed c 0]
      icases HO with ⟨%W, HO⟩; iexists W; isplitr; · ipureintro; exact fun x _ => Or.inl ((D1.hrec c 0).symm ▸ Set.mem_univ x)
      iexact HO
    isplitl [Hp]; · iexact Hp
    iexact Hrest
  hin c := by
    rw [show (pdats D0 D1 1 c).Φ 0 = (D1.dat c).Φ 0 from rfl]
    iintro ⟨Hp, -, Hr⟩
    iapply (D1.hin c)
    isplitl [Hp]; · iexact Hp
    iexact Hr
  hout c := by
    rw [Pipeline.ownSems0_none, show (pdats D0 D1 1 c).Φ (Fin.last _) = (D1.dat c).Φ (Fin.last cfg1.N) from rfl]
    iintro H
    ihave H' := (D1.hout c) $$ H
    icases H' with ⟨Hp, Hr⟩
    isplitl [Hp]; · iexact Hp
    isplitr; · iempintro
    iexact Hr
  hexit c := by
    have hs : StableHlo.held (c : Thread nD τ) (Pipeline.ucRefs τ sig) (W2 D0 D1 c)
        = (iprop(Pipeline.arrBufs (Ix := Unit) (Name := ℕ) (U := UR sig nD τ) (Lvl := ℕ) spec1 c (V2 D0 D1 c)
            ∗ Pipeline.unscopedRest (Ix := Unit) (Name := ℕ) (U := UR sig nD τ) (Lvl := ℕ) spec1 c (V1 D0 c)) : sProp 𝕄) := by
      rw [← rest1_eq D0 D1 c, ← Pipeline.unscopedBufs_held]
      exact Pipeline.unscopedBufs_split₀ (Ix := Unit) (Name := ℕ) (U := UR sig nD τ) (Lvl := ℕ) (Val := Elt F) cfgs 1 winFacts₀1.arr_unscoped c (V2 D0 D1 c)
    iintro ⟨Ha, HO, HY, Hrest⟩
    have hj : ((pdats D0 D1 1 c).arrays ((pdats D0 D1 1 c).arrAt · (Pipeline.pin (pcfgs (F := F)) adm 1).N) : sProp 𝕄)
        ⊢ Pipeline.arrBufs (Ix := Unit) (Name := ℕ) (U := UR sig nD τ) (Lvl := ℕ) spec1 c (V2 D0 D1 c) := arrays_join1 D0 D1 c
    ihave Hb := hj $$ Ha
    imodintro
    isplitl [Hb Hrest]
    · iapply (Entails.of_eq hs.symm); isplitl [Hb] <;> iassumption
    isplitl [HY]; · iexact HY
    unfold Pipeline.Dat.owesAt Pipeline.owesWithin
    rw [show (pdats D0 D1 1 c).owed (Fin.last _) = 0 from D1.howed c _]
    icases HO with ⟨%W, -, HO⟩; iexists W; iexact HO

/-! ## The program as segments, and the launch -/

/-- The host operations as a segment from `W2`, `R` riding along. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 D0 D1) R

abbrev segs : List (Pipeline.Seg (pcfgs (F := F)) adm (pdats D0 D1) () defs₀ 𝒱₀ L lv) :=
  [ .region (reg0 D0 D1),
    .region (reg1 D0 D1),
    .host (hseg2 D0 D1) ]

theorem main_run (c : Dev nD) : main (F := F) c = Pipeline.Seg.run (segs D0 D1) :=
  (main_chain c).trans (by chain_rfl)

set_option backward.isDefEq.respectTransparency.types false in
/-- THE RUN: from any memory with zero counters every weakly fair execution terminates, nothing faulting, and the
    final memory holds every unscoped buffer at `W3`. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 D0 D1 c b) :=
  Pipeline.θ_run_regions_kit (pcfgs (F := F)) adm (pdats D0 D1) () cellOf_inj emb₁ defs₀ 𝒱₀ L lv m ρ main
    (segs D0 D1)
    (fun c Q => by rw [main_run D0 D1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ D0 D1)
    (hch := ⟨fun _ => .rfl, fun _ => .rfl, fun _ => .rfl, fun c =>
      show (iprop(StableHlo.held (c : Thread nD τ) (Pipeline.ucRefs τ sig) (W3 D0 D1 c) ∗ R c) : sProp 𝕄)
        ⊢ iprop(Tₙ D0 D1 c ∗ ∃ W, owes (c : Thread nD τ) (0 : CellTallies nD τ sig Unit) W) from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 D0 D1 c b)
    (hfin := fun c s' => by
      iintro ⟨⟨Hh, -⟩, HSI⟩
      unfold StableHlo.held
      imodintro
      iapply (pointsTo_read_all (Pipeline.ucRefs τ sig) (fun b => (((c : Thread nD τ)).1, b)) (W3 D0 D1 c) s')
      isplitl [Hh] <;> iassumption)
    (hQ := fun s h => h)

/-! ## What no item writes -/

theorem W3_of (c : Dev nD) (r : Ref sig .tc) (h : r ∉ hostOps2_W) :
    W3 D0 D1 c (Proc.devRef .tc r) = W2 D0 D1 c (Proc.devRef .tc r) :=
  StableHlo.after_of_writes_sub hostOps2 _ hostOps2_writes h
/-- Each argument reaches the end as launched: no host operation writes it, the first region reads it through an
    input window, the second bypasses it. -/
theorem W3_arg0 (c : Dev nD) : W3 D0 D1 c (Proc.devRef .tc main_arg0) = m ((c : Thread nD τ).loc main_arg0) :=
  (W3_of D0 D1 c main_arg0 (by decide)).trans <| (W2_of_ne D0 D1 c main_arg0 (by decide)).trans <|
    (W1_arr D0 c 0).trans (((D0.dat c).arrAt_in 0 rfl _).trans (D0.hA c 0))
theorem W3_arg1 (c : Dev nD) : W3 D0 D1 c (Proc.devRef .tc main_arg1) = m ((c : Thread nD τ).loc main_arg1) :=
  (W3_of D0 D1 c main_arg1 (by decide)).trans <| (W2_of_ne D0 D1 c main_arg1 (by decide)).trans <|
    (W1_arr D0 c 1).trans (((D0.dat c).arrAt_in 1 rfl _).trans (D0.hA c 1))

/-- THE FRAME: the program runs, faults nowhere, and its two argument arrays end as launched. -/
theorem frame_of_run (D0 : Data0 m) (D1 : Data1 D0) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_arg0 D0 D1 c),
     (h c _ (mem_uc main_arg1 (by decide))).trans (W3_arg1 D0 D1 c)⟩)
    (run D0 D1 ρ)

end Run

end Cert.Kernel.Hand

end
-- ==== Proof.Kernel.Region0.lean ====
/-
  Region 0 of the program: the row-normalizing kernel, launched on a grid of 16 points. At point t
  the kernel reads rows 256t … 256t+255 of the two argument matrices, divides every row by its
  Euclidean norm clamped from below, writes the two normalized blocks one above the other into a
  512-row block of the first result, and writes the row-wise inner products of the two normalized
  blocks twice, one copy above the other, into a 512-row column block of the second result.

  This module states, for any float instance, what each staging buffer holds after the body in terms
  of the two blocks read, and proves the triple of the body and the obligation the pipeline asks at
  every point.
-/
import proofs.«107862_j71090298683407_2_alg».proof.Proof.Gen.Kernel.Launch
import proofs.«107862_j71090298683407_2_alg».proof.Proof.Gen.Kernel.Skeleton
import proofs.«107862_j71090298683407_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of the core's buffers when the region is entered
variable (V : (c : Dev nD) → (b : Ref sig .tc) → Buf (Elt F) ((c : Thread nD τ).loc b))

/-! ## The blocks the windows see -/

/-- The block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point: the block is fetched at every
    point, and the body leaves it as it was. Window 0. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- The whole of a 256×2048 input block. -/
abbrev rIn : Rect S256x2048 := Rect.unit (s := S256x2048) ![0, 0] S256x2048.size inb_S256x2048_S256x2048_0_0
/-- Rows 0 … 255 of the 512×2048 result block. -/
abbrev rTop : Rect S512x2048 := Rect.unit (s := S512x2048) ![0, 0] S256x2048.size inb_S512x2048_S256x2048_0_0
/-- Rows 256 … 511 of the 512×2048 result block. -/
abbrev rBot : Rect S512x2048 := Rect.unit (s := S512x2048) ![256, 0] S256x2048.size inb_S512x2048_S256x2048_256_0
/-- Rows 0 … 255 of the 512×1 result block. -/
abbrev cTop : Rect S512x1 := Rect.unit (s := S512x1) ![0, 0] S256x1.size inb_S512x1_S256x1_0_0
/-- Rows 256 … 511 of the 512×1 result block. -/
abbrev cBot : Rect S512x1 := Rect.unit (s := S512x1) ![256, 0] S256x1.size inb_S512x1_S256x1_256_0

/-! ## What the body leaves in the two result buffers -/

/-- The 512×2048 buffer after the body: the normalized second block in the lower half, the normalized first
    block in the upper half (the later store listed first). -/
def out0_2 (x0 x1 : Vec F S256x2048 .f32) : Vec F S512x2048 .bf16 :=
  View.canon [⟨rBot, k0_pay5 (View.ld x1 rIn)⟩,
    ⟨rTop, k0_pay4 (View.ld x0 rIn)⟩]

/-- The two halves tile the buffer, so every index lies in one of them. -/
theorem cover0_2 (p0 : Vec F S256x2048 .bf16) (p1 : Vec F S256x2048 .bf16) (y : S512x2048.Idx) :
    ∃ pc ∈ ([⟨rBot, p0⟩, ⟨rTop, p1⟩] : List (View.Piece (Elt F) S512x2048 .bf16)), y ∈ pc.1.set :=
  View.cover_of_tiled [⟨rBot, p0⟩, ⟨rTop, p1⟩] S256x2048.size (by rfl) y

/-- The 512×1 buffer after the body: the column of row-wise inner products of the two normalized blocks, in the
    lower half and in the upper half (the later store listed first). -/
def out0_3 (x0 x1 : Vec F S256x2048 .f32) : Vec F S512x1 .f32 :=
  View.canon [⟨cBot, k0_pay3 (View.ld x0 rIn) (View.ld x1 rIn)⟩,
    ⟨cTop, k0_pay3 (View.ld x0 rIn) (View.ld x1 rIn)⟩]

/-- The two halves tile the column buffer. -/
theorem cover0_3 (p0 : Vec F S256x1 .f32) (p1 : Vec F S256x1 .f32) (y : S512x1.Idx) :
    ∃ pc ∈ ([⟨cBot, p0⟩, ⟨cTop, p1⟩] : List (View.Piece (Elt F) S512x1 .f32)), y ∈ pc.1.set :=
  View.cover_of_tiled [⟨cBot, p0⟩, ⟨cTop, p1⟩] S256x1.size (by rfl) y

/-! ## The triple of the body -/

set_option maxHeartbeats 1000000 in
/-- On whole staging memrefs, the two inputs' holding `x0` and `x1` and the two results' holding anything, the
    body runs to a state where the inputs' are unchanged and the results' hold `out0_2 x0 x1` and `out0_3 x0 x1`. -/
theorem sound_kernel0 (c : Dev nD) (E : Set ℕ) (i : grid0.Coords)
    (arg1 : Memref sig .tc .vmem S256x2048 .f32) (harg1 : arg1.IsWhole) (arg2 : Memref sig .tc .vmem S256x2048 .f32) (harg2 : arg2.IsWhole)
    (arg3 : Memref sig .tc .vmem S512x2048 .bf16) (harg3 : arg3.IsWhole) (arg4 : Memref sig .tc .vmem S512x1 .f32) (harg4 : arg4.IsWhole)
    (x0 : Vec F S256x2048 .f32) (x1 : Vec F S256x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _ _)
  iexists _; isplitr
  swap; · iexact H3
  ipureintro
  exact View.read_writes_eq_canon _ _ _ (cover0_3 _ _)

/-! ## The proof data of the pipeline -/

/-- The proof data of the pipeline on core `c`: the arrays as the region finds them; after the body at point `t`
    each input's buffer at its block and each result's at `out0_2` / `out0_3` of the two input blocks; the
    invariant the rest of the core's scoped memory and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The obligation of the body at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple of the body applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Kernel.Region1a.lean ====
import proofs.«107862_j71090298683407_2_alg».proof.Proof.Gen.Kernel.Launch
import proofs.«107862_j71090298683407_2_alg».proof.Proof.Gen.Kernel.Skeleton
import proofs.«107862_j71090298683407_2_alg».proof.Proof.Gen.Kernel.Points
import Idealize.ShloMosaic.Lib.Pipeline.FrameBody
import Idealize.ShloMosaic.Lib.Pipeline.Value
import Idealize.ShloMosaic.Lib.Tactic

/-!
# The second pallas_call (the row sums of exponentials): its windows, its control cases, its accumulator

The grid is 8 × 8; point `t` has coordinates `(i, j) = (t / 8, t % 8)`, `j` innermost. The body multiplies row
block `i` of the stacked unit rows against row block `j`, exponentiates twice the products, and adds the row sums
into a scratch accumulator that is zeroed at `j = 0` and copied to the output block at `j = 7`; on the diagonal
blocks (`i = j`) the diagonal entries are replaced by zero before summing.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block (window 0) sits in its staging buffer at every point, fetched there or not: between fetches the
    block index `i` does not move and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column block (window 1) likewise; it is fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The four conditions of the body, and where on the grid each holds -/

/-- `j = 0`: the accumulator is zeroed. -/
abbrev cond1_0 (i : grid1.Coords) : Prop := (Scalar.cmpi .ne (Scalar.extui (Scalar.cmpi .eq (BitVec.ofNat 32 (i 1).val) 0#32)) 0#32) = 1#1
/-- `i = j`: a diagonal block, summed with its diagonal masked. -/
abbrev cond1_1 (i : grid1.Coords) : Prop := (Scalar.cmpi .ne (Scalar.extui (Scalar.cmpi .eq (BitVec.ofNat 32 (i 0).val) (BitVec.ofNat 32 (i 1).val))) 0#32) = 1#1
/-- `i ≠ j`: an off-diagonal block, summed whole. -/
abbrev cond1_2 (i : grid1.Coords) : Prop := (Scalar.cmpi .ne (Scalar.extui (Scalar.cmpi .ne (BitVec.ofNat 32 (i 0).val) (BitVec.ofNat 32 (i 1).val))) 0#32) = 1#1
/-- `j = 7`: the accumulator is copied to the output block. -/
abbrev cond1_3 (i : grid1.Coords) : Prop := k1_cond4 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val / 8 = t.val % 8 :=
  (by decide +kernel : ∀ t : Fin grid1.N, cond1_1 (grid1.coords t) ↔ t.val / 8 = t.val % 8)
theorem hcond1_2 : ∀ t : Fin cfg1.N, cond1_2 (grid1.coords t) ↔ ¬ t.val / 8 = t.val % 8 :=
  (by decide +kernel : ∀ t : Fin grid1.N, cond1_2 (grid1.coords t) ↔ ¬ t.val / 8 = t.val % 8)
theorem hcond1_3 : ∀ t : Fin cfg1.N, cond1_3 (grid1.coords t) ↔ t.val % 8 = 7 :=
  (by decide +kernel : ∀ t : Fin grid1.N, cond1_3 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from `j = 7` the body stores nothing into the output block's buffer, -/
theorem idleAt1_2 : ∀ t : Fin cfg1.N, ¬cond1_3 (grid1.coords t) → cfg1.idle 2 (grid1.coords t) = true := by decide +kernel
/-- and the block is not written back there; -/
theorem noFlush1_2 : ∀ t : Fin cfg1.N, ¬cond1_3 (grid1.coords t) → (cfg1.win 2).flush t = false := by decide +kernel
/-- at `j = 7` it stores the whole block. -/
theorem liveAt1_2 : ∀ t : Fin cfg1.N, cond1_3 (grid1.coords t) → cfg1.idle 2 (grid1.coords t) = false := by decide +kernel

/-! ## The memrefs the body is called with -/

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The scratch accumulator: a whole scoped buffer of the kernel's own. -/
abbrev scM1 : Memref sig .tc .vmem S1024x1 .f32 := Memref.whole cc1_scratch0

/-! ## Whole-buffer loads and stores

Every load and store of the body goes through the whole-shape rectangle at offsets `![0, 0]`. -/

theorem off00 : (![0, 0] : Fin 2 → ℕ) = fun _ => 0 := by
  funext a; fin_cases a <;> rfl

/-- One whole-buffer store leaves its payload, whatever the view and the earlier contents. -/
theorem read_store_whole {S : Shape} {e : EltTy} {κ : Kind} {sp : Space}
    (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩)]
  exact View.canon_cons_unit_zero h inb w L

/-- A whole-buffer load of a whole memref reads its contents. -/
theorem readAt_whole {S : Shape} {e : EltTy} {κ : Kind} {sp : Space} (m : Memref sig κ sp S e) (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread]; exact View.ld_unit_zero hz inb X

end Cert.Kernel.Hand

end
-- ==== Proof.Kernel.Region1b.lean ====
import proofs.«107862_j71090298683407_2_alg».proof.Proof.Kernel.Region1a

/-!
# The accumulator point by point, and the proof data of the second pallas_call
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The accumulator after each point -/

/-- One point's contribution added to accumulator contents `s`: on a diagonal block (`i = j`) the row sums of the
    exponentials with the diagonal entries replaced by zero, otherwise the plain row sums. -/
def accStep (c : Dev nD) (t : Fin cfg1.N) (s : Vec F S1024x1 .f32) : Vec F S1024x1 .f32 :=
  if t.val / 8 = t.val % 8 then k1_pay3 (iblk1 V c 0 t) (iblk1 V c 1 t) s else k1_pay4 (iblk1 V c 0 t) (iblk1 V c 1 t) s

/-- What the scratch accumulator holds after the body at position `n`: at `j = 0` the sum restarts from zero,
    elsewhere it continues from what the point before left. -/
def accAt (c : Dev nD) : (n : ℕ) → n < cfg1.N → Vec F S1024x1 .f32
  | 0, hn => accStep V c ⟨0, hn⟩ k1_pay1
  | n + 1, hn => accStep V c ⟨n + 1, hn⟩ (if (n + 1) % 8 = 0 then k1_pay1 else accAt c n (Nat.lt_of_succ_lt hn))

/-- The same at a grid point. -/
def accAfter (c : Dev nD) (t : Fin cfg1.N) : Vec F S1024x1 .f32 := accAt V c t.val t.isLt

/-- At the first point of a row of blocks the accumulation restarts. -/
theorem accAfter_restart (c : Dev nD) (t : Fin cfg1.N) (h : t.val % 8 = 0) : accAfter V c t = accStep V c t k1_pay1 := by
  obtain ⟨n, hn⟩ := t
  cases n with
  | zero => rfl
  | succ n => unfold accAfter; rw [accAt, if_pos h]

/-- Elsewhere it continues from the point before. -/
theorem accAfter_continue (c : Dev nD) (t : Fin cfg1.N) (h : ¬ t.val % 8 = 0) :
    accAfter V c t = accStep V c t (accAt V c (t.val - 1) (Nat.lt_of_le_of_lt (Nat.sub_le _ _) t.isLt)) := by
  obtain ⟨n, hn⟩ := t
  cases n with
  | zero => exact absurd (Nat.zero_mod _) h
  | succ n => unfold accAfter; rw [accAt, if_neg h]; rfl

/-! ## The region invariant -/

/-- The core's scoped buffers that belong to the first pallas_call, each whole at some contents: they ride along. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The scratch accumulator before position `n`: before the first point at contents nobody chose, afterwards at what
    the point before left. -/
def scr (c : Dev nD) : (n : ℕ) → n ≤ cfg1.N → sProp 𝕄
  | 0, _ => iprop(∃ d, owns (c : Thread nD τ) scM1 fullShare d)
  | n + 1, hn => owns (c : Thread nD τ) scM1 fullShare (accAt V c n hn)

/-- The invariant before position `n`: the generator register at some state, the other scoped buffers, the scratch. -/
def PhiS (c : Dev nD) (n : ℕ) (h : n ≤ cfg1.N) : sProp 𝕄 :=
  iprop((∃ r, prngReg c r) ∗ others (F := F) c ∗ scr V c n h)

theorem scr_zero (c : Dev nD) (n : ℕ) (h : n ≤ cfg1.N) (hz : n = 0) :
    scr V c n h = iprop(∃ d, owns (c : Thread nD τ) scM1 fullShare d) := by
  subst hz; rfl

theorem scr_succ (c : Dev nD) (n : ℕ) (hn : n < cfg1.N) :
    scr V c (n + 1) hn = owns (c : Thread nD τ) scM1 fullShare (accAt V c n hn) := rfl

theorem scr_pos (c : Dev nD) (n : ℕ) (h : n ≤ cfg1.N) (hz : n ≠ 0) :
    scr V c n h = owns (c : Thread nD τ) scM1 fullShare (accAt V c (n - 1) (by omega)) := by
  cases n with
  | zero => exact absurd rfl hz
  | succ n => rfl

/-! ## The proof data -/

/-- The proof data of the second pallas_call on core `c`: the arrays as the region finds them; both input windows
    read the one array of stacked unit rows, each at half of the full share; after the body each input's buffer
    holds its block and the output's the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAfter V c t
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAfter V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi_castSucc (c : Dev nD) (t : Fin cfg1.N) :
    (dat1 V c).Φ t.castSucc = PhiS V c t.val (Nat.le_of_lt t.isLt) := by
  dsimp only [dat1]; simp only [Fin.coe_castSucc]

theorem Phi_succ (c : Dev nD) (t : Fin cfg1.N) :
    (dat1 V c).Φ t.succ = PhiS V c (t.val + 1) t.isLt := rfl

/-! ## Into and out of the region -/

/-- What the launch hands the region is the invariant before the first point: the scoped rest is the other scoped
    buffers and the scratch, each whole at some contents. -/
theorem phi_in (c : Dev nD) : iprop((∃ r, prngReg c r) ∗ Pipeline.scopedRest (Ix := Unit) (Name := ℕ) (U := UR sig nD τ) (Lvl := ℕ) spec1 c) ⊢ (dat1 V c).Φ 0 := by
  rw [show (dat1 V c).Φ 0 = PhiS V c 0 (Nat.zero_le _) from rfl]
  unfold PhiS others
  rw [scr_zero V c 0 _ rfl, scopedRest1_eq]
  simp only [scM1, owns_whole]
  iintro ⟨Hg, H0, H1, H2, H3, H4, H5, H6, H7, HS⟩
  isplitl [Hg]; · iexact Hg
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HS

/-- After the last point the invariant gives the scoped rest back: what the scratch holds is forgotten. -/
theorem phi_out (c : Dev nD) : (dat1 V c).Φ (Fin.last cfg1.N) ⊢ iprop((∃ r, prngReg c r) ∗ Pipeline.scopedRest (Ix := Unit) (Name := ℕ) (U := UR sig nD τ) (Lvl := ℕ) spec1 c) := by
  have hN : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl]
  unfold PhiS others
  rw [scr_pos V c _ _ hN, scopedRest1_eq]
  simp only [scM1, owns_whole]
  iintro ⟨Hg, ⟨H0, H1, H2, H3, H4, H5, H6, H7⟩, HS⟩
  isplitl [Hg]; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HS

end Region

end Cert.Kernel.Hand

end
-- ==== Proof.Kernel.Region1RunsZ.lean ====
import proofs.«107862_j71090298683407_2_alg».proof.Proof.Kernel.Region1a

/-!
# The body of the second pallas_call, run case by case: the first column block (`j = 0`), where the accumulator restarts

Each run takes the four whole memrefs at their contents and hands them back: the two input blocks as found, the
scratch accumulator at its new sum, the output block's buffer at the accumulator (`j = 7`) or as found.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body when `j = 0`, `i = j`, `j ≠ 7`: the accumulator restarts from zero, takes the masked row sums; the output block's buffer is untouched. -/
theorem run_zdm (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : cond1_0 i) (hc1 : cond1_1 i) (hc2 : ¬cond1_2 i) (hc3 : ¬cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k1_pay3 x0 x1 k1_pay1)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

set_option maxHeartbeats 1000000 in
/-- The body when `j = 0`, `i = j`, `j = 7`: the accumulator restarts from zero, takes the masked row sums, and is copied to the output block. -/
theorem run_zdl (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : cond1_0 i) (hc1 : cond1_1 i) (hc2 : ¬cond1_2 i) (hc3 : cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k1_pay3 x0 x1 k1_pay1) ∗ owns (c : Thread nD τ) arg5 fullShare (k1_pay3 x0 x1 k1_pay1)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_store_whole _ _ off00]
    simp only [View.readCov_cons_toLoadRect, readAt_whole (S := S1024x2048) _ _ off00, readAt_whole (S := S1024x1) _ _ off00]
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

set_option maxHeartbeats 1000000 in
/-- The body when `j = 0`, `i ≠ j`, `j ≠ 7`: the accumulator restarts from zero, takes the plain row sums; the output block's buffer is untouched. -/
theorem run_zom (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : cond1_0 i) (hc1 : ¬cond1_1 i) (hc2 : cond1_2 i) (hc3 : ¬cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k1_pay4 x0 x1 k1_pay1)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

set_option maxHeartbeats 1000000 in
/-- The body when `j = 0`, `i ≠ j`, `j = 7`: the accumulator restarts from zero, takes the plain row sums, and is copied to the output block. -/
theorem run_zol (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : cond1_0 i) (hc1 : ¬cond1_1 i) (hc2 : cond1_2 i) (hc3 : cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k1_pay4 x0 x1 k1_pay1) ∗ owns (c : Thread nD τ) arg5 fullShare (k1_pay4 x0 x1 k1_pay1)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_store_whole _ _ off00]
    simp only [View.readCov_cons_toLoadRect, readAt_whole (S := S1024x2048) _ _ off00, readAt_whole (S := S1024x1) _ _ off00]
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

end Cert.Kernel.Hand

end
-- ==== Proof.Kernel.Region1RunsN.lean ====
import proofs.«107862_j71090298683407_2_alg».proof.Proof.Kernel.Region1a

/-!
# The body of the second pallas_call, run case by case: the later column blocks (`j ≠ 0`), where the accumulator continues

Each run takes the four whole memrefs at their contents and hands them back: the two input blocks as found, the
scratch accumulator at its new sum, the output block's buffer at the accumulator (`j = 7`) or as found.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body when `j ≠ 0`, `i = j`, `j ≠ 7`: the accumulator continues, takes the masked row sums; the output block's buffer is untouched. -/
theorem run_ndm (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : ¬cond1_0 i) (hc1 : cond1_1 i) (hc2 : ¬cond1_2 i) (hc3 : ¬cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k1_pay3 x0 x1 xs)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

set_option maxHeartbeats 1000000 in
/-- The body when `j ≠ 0`, `i = j`, `j = 7`: the accumulator continues, takes the masked row sums, and is copied to the output block. -/
theorem run_ndl (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : ¬cond1_0 i) (hc1 : cond1_1 i) (hc2 : ¬cond1_2 i) (hc3 : cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k1_pay3 x0 x1 xs) ∗ owns (c : Thread nD τ) arg5 fullShare (k1_pay3 x0 x1 xs)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_store_whole _ _ off00]
    simp only [View.readCov_cons_toLoadRect, readAt_whole (S := S1024x2048) _ _ off00, readAt_whole (S := S1024x1) _ _ off00]
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

set_option maxHeartbeats 1000000 in
/-- The body when `j ≠ 0`, `i ≠ j`, `j ≠ 7`: the accumulator continues, takes the plain row sums; the output block's buffer is untouched. -/
theorem run_nom (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : ¬cond1_0 i) (hc1 : ¬cond1_1 i) (hc2 : cond1_2 i) (hc3 : ¬cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k1_pay4 x0 x1 xs)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

set_option maxHeartbeats 1000000 in
/-- The body when `j ≠ 0`, `i ≠ j`, `j = 7`: the accumulator continues, takes the plain row sums, and is copied to the output block. -/
theorem run_nol (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : ¬cond1_0 i) (hc1 : ¬cond1_1 i) (hc2 : cond1_2 i) (hc3 : cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k1_pay4 x0 x1 xs) ∗ owns (c : Thread nD τ) arg5 fullShare (k1_pay4 x0 x1 xs)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_store_whole _ _ off00]
    simp only [View.readCov_cons_toLoadRect, readAt_whole (S := S1024x2048) _ _ off00, readAt_whole (S := S1024x1) _ _ off00]
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

end Cert.Kernel.Hand

end
-- ==== Proof.Kernel.Region1.lean ====
import proofs.«107862_j71090298683407_2_alg».proof.Proof.Kernel.Region1b
import proofs.«107862_j71090298683407_2_alg».proof.Proof.Kernel.Region1RunsZ
import proofs.«107862_j71090298683407_2_alg».proof.Proof.Kernel.Region1RunsN

/-!
# The body obligation of the second pallas_call

At every grid point the body, handed the invariant, the two input blocks and the output block's buffer, runs to the
invariant at the next point — the scratch accumulator at its new sum — with the input blocks as found and the
output block's buffer at the accumulator where `j = 7` and as found elsewhere.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body at any coordinates -/

/-- What the accumulator holds after the body at coordinates `i`, from the two blocks and what it held before. -/
def bodyAcc (i : grid1.Coords) (x0 x1 : Vec F S1024x2048 .bf16) (xs : Vec F S1024x1 .f32) : Vec F S1024x1 .f32 :=
  if cond1_1 i then k1_pay3 x0 x1 (if cond1_0 i then k1_pay1 else xs) else k1_pay4 x0 x1 (if cond1_0 i then k1_pay1 else xs)

/-- The body at any coordinates, the eight ways its conditions can fall collected: the accumulator ends at
    `bodyAcc`, the output block's buffer at the same when `j = 7` and as found otherwise. `hx`: the third condition
    (`i ≠ j`) is the negation of the second. -/
theorem run_body (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hx : cond1_2 i ↔ ¬cond1_1 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1
            ∗ owns (c : Thread nD τ) arg4 fullShare (if cond1_3 i then bodyAcc i x0 x1 xs else xi)
            ∗ owns (c : Thread nD τ) arg5 fullShare (bodyAcc i x0 x1 xs)) -∗ K ⟨⟩))
      ⊢ wp frame (wpE (defs₀ (F := F)) Variants.none c none) E (cc1__sumexp_kernel i arg2 harg2 arg3 harg3 arg4 harg4 arg5 harg5) K := by
  unfold bodyAcc
  by_cases h0 : cond1_0 i
  · by_cases h1 : cond1_1 i
    · by_cases h3 : cond1_3 i
      · rw [if_pos h1, if_pos h0, if_pos h3]; exact run_zdl c i arg2 harg2 arg3 harg3 arg4 harg4 arg5 harg5 h0 h1 (fun h => (hx.mp h) h1) h3 x0 x1 xi xs E K
      · rw [if_pos h1, if_pos h0, if_neg h3]; exact run_zdm c i arg2 harg2 arg3 harg3 arg4 harg4 arg5 harg5 h0 h1 (fun h => (hx.mp h) h1) h3 x0 x1 xi xs E K
    · by_cases h3 : cond1_3 i
      · rw [if_neg h1, if_pos h0, if_pos h3]; exact run_zol c i arg2 harg2 arg3 harg3 arg4 harg4 arg5 harg5 h0 h1 (hx.mpr h1) h3 x0 x1 xi xs E K
      · rw [if_neg h1, if_pos h0, if_neg h3]; exact run_zom c i arg2 harg2 arg3 harg3 arg4 harg4 arg5 harg5 h0 h1 (hx.mpr h1) h3 x0 x1 xi xs E K
  · by_cases h1 : cond1_1 i
    · by_cases h3 : cond1_3 i
      · rw [if_pos h1, if_neg h0, if_pos h3]; exact run_ndl c i arg2 harg2 arg3 harg3 arg4 harg4 arg5 harg5 h0 h1 (fun h => (hx.mp h) h1) h3 x0 x1 xi xs E K
      · rw [if_pos h1, if_neg h0, if_neg h3]; exact run_ndm c i arg2 harg2 arg3 harg3 arg4 harg4 arg5 harg5 h0 h1 (fun h => (hx.mp h) h1) h3 x0 x1 xi xs E K
    · by_cases h3 : cond1_3 i
      · rw [if_neg h1, if_neg h0, if_pos h3]; exact run_nol c i arg2 harg2 arg3 harg3 arg4 harg4 arg5 harg5 h0 h1 (hx.mpr h1) h3 x0 x1 xi xs E K
      · rw [if_neg h1, if_neg h0, if_neg h3]; exact run_nom c i arg2 harg2 arg3 harg3 arg4 harg4 arg5 harg5 h0 h1 (hx.mpr h1) h3 x0 x1 xi xs E K

section Region
variable (V : (c : Dev nD) → (b : Ref sig .tc) → Buf (Elt F) ((c : Thread nD τ).loc b))

/-- At a grid point the body's accumulator is the point's entry of the accumulation, provided that away from
    `j = 0` it started from what the point before left. -/
theorem accAfter_eq (c : Dev nD) (t : Fin cfg1.N) (xs : Vec F S1024x1 .f32)
    (hxs : ¬ t.val % 8 = 0 → xs = accAt V c (t.val - 1) (Nat.lt_of_le_of_lt (Nat.sub_le _ _) t.isLt)) :
    bodyAcc (grid1.coords t) (iblk1 V c 0 t) (iblk1 V c 1 t) xs = accAfter V c t := by
  unfold bodyAcc
  by_cases h0 : t.val % 8 = 0
  · rw [if_pos ((hcond1_0 t).mpr h0), accAfter_restart V c t h0]; unfold accStep
    by_cases h1 : t.val / 8 = t.val % 8
    · rw [if_pos ((hcond1_1 t).mpr h1), if_pos h1]
    · rw [if_neg (fun h => h1 ((hcond1_1 t).mp h)), if_neg h1]
  · rw [if_neg (fun h => h0 ((hcond1_0 t).mp h)), accAfter_continue V c t h0, ← hxs h0]; unfold accStep
    by_cases h1 : t.val / 8 = t.val % 8
    · rw [if_pos ((hcond1_1 t).mpr h1), if_pos h1]
    · rw [if_neg (fun h => h1 ((hcond1_1 t).mp h)), if_neg h1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point: the inputs' buffers hold their blocks; the invariant hands over the scratch at what the
    point before left (at anything before the first point), which is all the body needs of it away from `j = 0`;
    the run leaves the accumulator at this point's entry of the accumulation, and the output block's buffer at it
    where the block is written back (`j = 7`), untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi_succ, Phi_castSucc]; unfold PhiS; rw [scr_succ, show accAt V c t.val t.isLt = accAfter V c t from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hx : cond1_2 (grid1.coords t) ↔ ¬cond1_1 (grid1.coords t) := (hcond1_2 t).trans (not_congr (hcond1_1 t)).symm
  have hscr : scr V c t.val (Nat.le_of_lt t.isLt)
      ⊢ iprop(∃ xs, ⌜¬ t.val % 8 = 0 → xs = accAt V c (t.val - 1) (Nat.lt_of_le_of_lt (Nat.sub_le _ _) t.isLt)⌝ ∗ owns (c : Thread nD τ) scM1 fullShare xs) := by
    by_cases hz : t.val = 0
    · rw [scr_zero V c _ _ hz]
      iintro ⟨%d, H⟩; iexists d; isplitr
      · ipureintro; intro h; exact absurd (by rw [hz]) h
      iexact H
    · rw [scr_pos V c _ _ hz]
      iintro H; iexists _; isplitr
      · ipureintro; intro _; rfl
      iexact H
  by_cases h3 : cond1_3 (grid1.coords t)
  · rw [show (dat1 V c).leavesExact 2 t = owns (c : Thread nD τ) (ms1_2 t) fullShare ((dat1 V c).after 2 t) from by
      unfold Dat.leavesExact; rw [liveAt1_2 t h3], after1_2]
    iintro ⟨⟨Hg, HR, HS⟩, Ho, ⟨%d0, H0⟩, ⟨%d1, H1⟩, ⟨%d2, H2⟩⟩
    ihave HS' := hscr $$ HS
    icases HS' with ⟨%xs, %hxs, HS⟩
    have hacc := accAfter_eq V c t xs hxs
    iapply (run_body c (grid1.coords t) _ _ _ _ _ _ _ _ hx (iblk1 V c 0 t) (iblk1 V c 1 t) _ xs Set.univ _)
    isplitl [H0]; · iexact H0
    isplitl [H1]; · iexact H1
    isplitl [H2]; · iexact H2
    isplitl [HS]; · iexact HS
    rw [if_pos h3, hacc]
    iintro ⟨H0, H1, H2, HS⟩
    isplitl [Hg HR HS]
    · isplitl [Hg]; · iexact Hg
      isplitl [HR]; · iexact HR
      iexact HS
    isplitl [Ho]; · iexact Ho
    isplitl [H0]; · iexact H0
    isplitl [H1]; · iexact H1
    iexact H2
  · rw [Dat.leavesExact_idle (dat1 V c) 2 t (idleAt1_2 t h3) (noFlush1_2 t h3)]
    iintro ⟨⟨Hg, HR, HS⟩, Ho, ⟨%d0, H0⟩, ⟨%d1, H1⟩, ⟨%d2, H2⟩⟩
    ihave HS' := hscr $$ HS
    icases HS' with ⟨%xs, %hxs, HS⟩
    have hacc := accAfter_eq V c t xs hxs
    iapply (run_body c (grid1.coords t) _ _ _ _ _ _ _ _ hx (iblk1 V c 0 t) (iblk1 V c 1 t) _ xs Set.univ _)
    isplitl [H0]; · iexact H0
    isplitl [H1]; · iexact H1
    isplitl [H2]; · iexact H2
    isplitl [HS]; · iexact HS
    rw [if_neg h3, hacc]
    iintro ⟨H0, H1, H2, HS⟩
    isplitl [Hg HR HS]
    · isplitl [Hg]; · iexact Hg
      isplitl [HR]; · iexact HR
      iexact HS
    isplitl [Ho]; · iexact Ho
    isplitl [H0]; · iexact H0
    isplitl [H1]; · iexact H1
    iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.Kernel.Frame.lean ====
import proofs.«107862_j71090298683407_2_alg».proof.Proof.Kernel.Run
import proofs.«107862_j71090298683407_2_alg».proof.Proof.Kernel.Region0
import proofs.«107862_j71090298683407_2_alg».proof.Proof.Kernel.Region1

/-!
# The program's run at its own proof data

The first region's proof data is taken at the launch memory, the second's at what the first leaves; with the two
bodies' obligations met, the run and the frame follow from the general run.
-/

noncomputable section

namespace Cert.Kernel.Hand

open Cert.Kernel Cert.Kernel.Gen
open Idealize.ShloMosaic Idealize.ShloMosaic.TcCoe
open Idealize.SL Idealize.SL.Sem
open Idealize.ShloMosaic.Pipeline (Dat BodyObligation)

variable {F : FTy → Type} [FloatOps F]

variable (m : (ℓ : Loc nD τ sig) → Buf (Elt F) ℓ)

/-- The first region's proof data, at the launch memory. -/
def data0 : Data0 (F := F) m where
  dat c := dat0 (V0 m) c
  hA c w := A_eq0 (V0 m) c w
  hq _ _ := rfl
  howed _ _ := rfl
  hrec _ _ := rfl
  hΦ _ _ := rfl
  hbody c := body_obligation0 (V0 m) c

/-- The second region's proof data, at what the first region leaves. -/
def data1 : Data1 (data0 m) where
  dat c := dat1 (V1 (data0 m)) c
  hA c w := by dsimp only [dat1]
  hq0 _ := rfl
  hq1 _ := rfl
  howed _ _ := rfl
  hrec _ _ := rfl
  hin c := phi_in (V1 (data0 m)) c
  hout c := phi_out (V1 (data0 m)) c
  hbody c := body_obligation1 (V1 (data0 m)) c

/-- Every weakly fair execution terminates, nothing faulting, every unscoped buffer ending at the last valuation. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 (data0 m) (data1 m) c b) :=
  run (data0 m) (data1 m) ρ

/-- The program runs, faults nowhere, and leaves its two argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run (data0 m) (data1 m) ρ

end Cert.Kernel.Hand

end
-- ==== Proof.KernelIdeal.Run.lean ====
import proofs.«107862_j71090298683407_2_alg».proof.Proof.Gen.KernelIdeal.Launch
import proofs.«107862_j71090298683407_2_alg».proof.Proof.Gen.KernelIdeal.Points
import proofs.«107862_j71090298683407_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The program's run, region by region

The program is: the normalizing region, then the accumulating region, then nine host operations. Between two items
a core holds every unscoped buffer at a known valuation:

* `W0`: the launch memory;
* `W1`: `W0` with the first region's two result arrays at what its write-backs leave;
* `W2`: `W1` with the second region's result array at what its write-backs leave (its two input windows read
  ONE array, the stacked unit rows, each holding half of the full share of it, and return it unchanged);
* `W3`: `W2` after the host operations.

The run below says: every weakly fair execution terminates, and the final memory holds every unscoped buffer at
`W3`. It is stated for ANY proof data of the two regions with the stated entry arrays, shares and invariants whose
bodies meet their obligations.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- The same read at the TensorCore's references. -/
abbrev V0 : (c : Dev nD) → (b : Ref sig .tc) → Buf (Elt F) ((c : Thread nD τ).loc b) := fun c b => W0 m c b

section Run

/-! ## The first region's proof data, as hypotheses -/

/-- The first region's proof data with what the run needs of it. -/
structure Data0 where
  dat : (c : Dev nD) → Dat τ (Elt F) Unit ℕ (UR sig nD τ) ℕ cfg0 c
  hA : ∀ c w, (dat c).A w = V0 m c (Pipeline.arrRef spec0 w)
  hq : ∀ c w, (dat c).q w = fullShare
  howed : ∀ c t, (dat c).owed t = 0
  hrec : ∀ c t, (dat c).recorded t = Set.univ
  hΦ : ∀ c t, (dat c).Φ t = Pipeline.ΦA spec0 c
  hbody : ∀ c, BodyObligation (dat c) (defs₀ (F := F)) Variants.none () Set.univ

variable {m} (D0 : Data0 m)

/-- After the first region: its arrays at what the pipeline leaves, every other buffer as launched. -/
def W1 (c : Dev nD) : Valuation τ sig (Elt F) :=
  Pipeline.withArrays spec0 c (W0 m c) fun w => (D0.dat c).arrAt w cfg0.N
theorem W1_arr (c : Dev nD) (w : Fin cfg0.W) :
    W1 D0 c (Proc.devRef .tc (Pipeline.arrRef spec0 w)) = (D0.dat c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 D0 c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 D0 c b
theorem hF0 (c : Dev nD) (w : Fin cfg0.W) : (D0.dat c).arrAt w cfg0.N = V1 D0 c (Pipeline.arrRef spec0 w) :=
  (W1_arr D0 c w).symm
theorem hrest0 (c : Dev nD) : ∀ b, b ∉ Finset.univ.image (Pipeline.arrRef spec0) → V1 D0 c b = V0 m c b :=
  fun b hb => W1_of_ne D0 c b fun w e => hb (Finset.mem_image.mpr ⟨w, Finset.mem_univ _, e⟩)

/-! ## The second region's proof data, as hypotheses -/

/-- The second region's proof data with what the run needs of it: its two input windows hold the one array of
    stacked unit rows at the two halves of the full share; its invariant takes the generator register and the scoped
    buffers it does not stage, and gives them back. -/
structure Data1 where
  dat : (c : Dev nD) → Dat τ (Elt F) Unit ℕ (UR sig nD τ) ℕ cfg1 c
  hA : ∀ c w, (dat c).A w = V1 D0 c (Pipeline.arrRef spec1 w)
  hq0 : ∀ c, (dat c).q 0 = fullShare.left
  hq1 : ∀ c, (dat c).q 1 = fullShare.right
  howed : ∀ c t, (dat c).owed t = 0
  hrec : ∀ c t, (dat c).recorded t = Set.univ
  hin : ∀ c, (iprop((∃ r, prngReg c r) ∗ Pipeline.scopedRest (Ix := Unit) (Name := ℕ) (U := UR sig nD τ) (Lvl := ℕ) spec1 c) : sProp 𝕄) ⊢ (dat c).Φ 0
  hout : ∀ c, (dat c).Φ (Fin.last cfg1.N) ⊢ (iprop((∃ r, prngReg c r) ∗ Pipeline.scopedRest (Ix := Unit) (Name := ℕ) (U := UR sig nD τ) (Lvl := ℕ) spec1 c) : sProp 𝕄)
  hbody : ∀ c, BodyObligation (dat c) (defs₀ (F := F)) Variants.none () Set.univ

variable (D1 : Data1 D0)

/-- After the second region: its result array at what the pipeline leaves, every other buffer as entered. -/
def W2 (c : Dev nD) : Valuation τ sig (Elt F) :=
  Function.update (W1 D0 c) (Proc.devRef .tc main_v1) ((D1.dat c).arrAt 2 cfg1.N)
abbrev V2 : (c : Dev nD) → (b : Ref sig .tc) → Buf (Elt F) ((c : Thread nD τ).loc b) := fun c b => W2 D0 D1 c b
/-- After the host operations. -/
abbrev W3 (c : Dev nD) : Valuation τ sig (Elt F) := StableHlo.after hostOps2 (W2 D0 D1 c)

/-! ## The thread state -/

/-- The prefetched tables' admissible contents: no pipeline has a table. -/
abbrev adm : (p : Fin 2) → (pcfgs (F := F) p).Adm := fun p => (cfgs p).toPCfg_adm
/-- Both pipelines' proof data, a literal match on the pipeline. -/
def pdats : (p : Fin 2) → (c : Dev nD) → Dat τ (Elt F) Unit ℕ (UR sig nD τ) ℕ (Pipeline.pin (pcfgs (F := F)) adm p) c
  | ⟨0, _⟩ => fun c => D0.dat c
  | ⟨1, _⟩ => fun c => D1.dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 :=
  iprop(StableHlo.held (c : Thread nD τ) (Pipeline.ucRefs τ sig) (W3 D0 D1 c) ∗ ∃ r, prngReg c r)

/-! ## The second region's arrays: one array behind two input windows -/

theorem W2_of_ne (c : Dev nD) (b : Ref sig .tc) (hb : b ≠ main_v1) :
    W2 D0 D1 c (Proc.devRef .tc b) = W1 D0 c (Proc.devRef .tc b) := by
  unfold W2; rw [Function.update_of_ne (StableHlo.devRef_ne_of_ne hb)]
theorem W2_v1 (c : Dev nD) : W2 D0 D1 c (Proc.devRef .tc main_v1) = (D1.dat c).arrAt 2 cfg1.N := by
  unfold W2; rw [Function.update_self]

/-- The distinct buffers behind the second region's windows: the stacked unit rows and the result. -/
theorem image_arr1 : Finset.univ.image (Pipeline.arrRef spec1) = ({main_v0_0, main_v1} : Finset (Ref sig .tc)) := by decide

/-- The second region's input windows both read the stacked unit rows and never write them. -/
theorem arrAt1_0 (c : Dev nD) (n : Nat) : (D1.dat c).arrAt 0 n = V1 D0 c main_v0_0 :=
  ((D1.dat c).arrAt_in 0 rfl n).trans (D1.hA c 0)
theorem arrAt1_1 (c : Dev nD) (n : Nat) : (D1.dat c).arrAt 1 n = V1 D0 c main_v0_0 :=
  ((D1.dat c).arrAt_in 1 rfl n).trans (D1.hA c 1)

/-- The shares the second region holds its windows' arrays at: the stacked unit rows in halves, the result whole. -/
theorem share1_0 (c : Dev nD) : (D1.dat c).share 0 = fullShare.left := (if_neg (by decide)).trans (D1.hq0 c)
theorem share1_1 (c : Dev nD) : (D1.dat c).share 1 = fullShare.right := (if_neg (by decide)).trans (D1.hq1 c)
theorem share1_2 (c : Dev nD) : (D1.dat c).share 2 = fullShare := if_pos (by decide)

/-- The second region's arrays, window by window. -/
theorem arrays_eq1 (c : Dev nD) (G : (w : Fin cfg1.W) → Buf (Elt F) ((cfg1.win w).arr.view.loc (c.tc : Thread nD τ))) :
    ((D1.dat c).arrays G : sProp 𝕄)
      = iprop((((c : Thread nD τ).loc main_v0_0) ↦{fullShare.left} G 0) ∗ (((c : Thread nD τ).loc main_v0_0) ↦{fullShare.right} G 1)
          ∗ (((c : Thread nD τ).loc main_v1) ↦{fullShare} G 2)) := by
  unfold Dat.arrays
  rw [bigSep_W1, (arr_whole1 0).set_eq_univ, (arr_whole1 2).set_eq_univ,
    share1_0 D0 D1 c, share1_1 D0 D1 c, share1_2 D0 D1 c]

/-- The two distinct buffers behind the second region's arrays, one by one. -/
theorem arrBufs_eq1 (c : Dev nD) (V : (b : Ref sig .tc) → Buf (Elt F) ((c.tc : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v1) ↦{fullShare} V main_v1)) := by
  unfold Pipeline.arrBufs
  rw [image_arr1, bigSep_insert (by decide), bigSep_singleton]
  rfl

/-- ENTRY: the two buffers whole at the full share are the three windows' arrays, the shared one dealt in halves. -/
theorem arrays_split1 (c : Dev nD) :
    (Pipeline.arrBufs (Ix := Unit) (Name := ℕ) (U := UR sig nD τ) (Lvl := ℕ) spec1 c (V1 D0 c) : sProp 𝕄)
      ⊢ (D1.dat c).arrays ((D1.dat c).arrAt · 0) := by
  rw [arrBufs_eq1, arrays_eq1, arrAt1_0 D0 D1 c 0, arrAt1_1 D0 D1 c 0, show (D1.dat c).arrAt 2 0 = V1 D0 c main_v1 from D1.hA c 2]
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-- EXIT: the three windows' arrays at their final contents are the two buffers whole at `W2`. -/
theorem arrays_join1 (c : Dev nD) :
    ((D1.dat c).arrays ((D1.dat c).arrAt · cfg1.N) : sProp 𝕄)
      ⊢ Pipeline.arrBufs (Ix := Unit) (Name := ℕ) (U := UR sig nD τ) (Lvl := ℕ) spec1 c (V2 D0 D1 c) := by
  rw [arrBufs_eq1, arrays_eq1, arrAt1_0 D0 D1 c cfg1.N, arrAt1_1 D0 D1 c cfg1.N,
    show V2 D0 D1 c main_v0_0 = V1 D0 c main_v0_0 from W2_of_ne D0 D1 c main_v0_0 (by decide),
    show V2 D0 D1 c main_v1 = (D1.dat c).arrAt 2 cfg1.N from W2_v1 D0 D1 c]
  iintro ⟨Hl, Hr, H1⟩
  isplitl [Hl Hr]
  · iapply (pointsTo_share (PosShare.mem_left_op_right fullShare)).2
    isplitl [Hl] <;> iassumption
  iexact H1

/-- Off the result array, `W2` is `W1`: the unscoped buffers the second region bypasses are untouched. -/
theorem rest1_eq (c : Dev nD) :
    (Pipeline.unscopedRest (Ix := Unit) (Name := ℕ) (U := UR sig nD τ) (Lvl := ℕ) spec1 c (V2 D0 D1 c) : sProp 𝕄)
      = Pipeline.unscopedRest (Ix := Unit) (Name := ℕ) (U := UR sig nD τ) (Lvl := ℕ) spec1 c (V1 D0 c) := by
  unfold Pipeline.unscopedRest
  refine bigSep_congr fun b hb => ?_
  have hne : b ≠ main_v1 := fun e => (Finset.mem_sdiff.mp hb).2 (by rw [image_arr1, e]; decide)
  show (((c : Thread nD τ).loc b) ↦{fullShare} W2 D0 D1 c (Proc.devRef .tc b) : sProp 𝕄) = ((c : Thread nD τ).loc b) ↦{fullShare} W1 D0 c (Proc.devRef .tc b)
  unfold W2
  rw [Function.update_of_ne (StableHlo.devRef_ne_of_ne hne)]

/-! ## The regions as segments -/

set_option backward.isDefEq.respectTransparency.types false in
/-- The first region over the thread state: entered from every unscoped buffer at `W0`, left at `W1`. -/
def reg0 : Pipeline.RegionSeg (pcfgs (F := F)) adm (pdats D0 D1) () defs₀ 𝒱₀ L lv 0 where
  win := launch0.win.to₀
  block_pos := launch0.block_pos
  stage_whole := launch0.stage_whole
  K := PEmpty
  osem k := k.elim
  ho := Pipeline.OwnSemFacts.none _
  hbody c := (D0.hbody c).loose
  hwaits := Pipeline.hwaits_of_owed_zero _ _ _ _ L lv 0 fun c t => D0.howed c t
  pre c := iprop(StableHlo.held (c : Thread nD τ) (Pipeline.ucRefs τ sig) (W0 m c) ∗ R c)
  post c := iprop(StableHlo.held (c : Thread nD τ) (Pipeline.ucRefs τ sig) (W1 D0 c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats D0 D1) launch0.win launch0.arr_whole c
      ((pdats D0 D1 0 c).share_full fun w => D0.hq c w) (V0 m c) fun w => D0.hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D0 D1 0 c).owed 0 = 0 from D0.howed c 0]
      icases HO with ⟨%W, HO⟩; iexists W; isplitr; · ipureintro; exact fun x _ => Or.inl ((D0.hrec c 0).symm ▸ Set.mem_univ x)
      iexact HO
    isplitl [Hp]; · iexact Hp
    iexact Hrest
  hin c := by
    rw [show (pdats D0 D1 0 c).Φ 0 = Pipeline.ΦA spec0 c from D0.hΦ c 0]; unfold Pipeline.ΦA
    iintro ⟨Hp, -, Hr⟩
    isplitl [Hr]; · iexact Hr
    iexact Hp
  hout c := by
    rw [Pipeline.ownSems0_none, show (pdats D0 D1 0 c).Φ (Fin.last _) = Pipeline.ΦA spec0 c from D0.hΦ c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D0 D1) ((pdats D0 D1 0 c).share_full fun w => D0.hq c w)
      (V0 m c) (V1 D0 c) ((pdats D0 D1 0 c).arrAt · cfg0.N) (hF0 D0 c) (hrest0 D0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats D0 D1 0 c).owed (Fin.last _) = 0 from D0.howed c _]
    icases HO with ⟨%W, -, HO⟩; iexists W; iexact HO

set_option backward.isDefEq.respectTransparency.types false in
/-- The second region over the thread state: entered from every unscoped buffer at `W1`, left at `W2`. Its two input
    windows take the one array of stacked unit rows in halves and give it back whole. -/
def reg1 : Pipeline.RegionSeg (pcfgs (F := F)) adm (pdats D0 D1) () defs₀ 𝒱₀ L lv 1 where
  win := winFacts₀1
  block_pos := block_pos1
  stage_whole := stage_whole1
  K := PEmpty
  osem k := k.elim
  ho := Pipeline.OwnSemFacts.none _
  hbody c := (D1.hbody c).loose
  hwaits := Pipeline.hwaits_of_owed_zero _ _ _ _ L lv 1 fun c t => D1.howed c t
  pre c := iprop(StableHlo.held (c : Thread nD τ) (Pipeline.ucRefs τ sig) (W1 D0 c) ∗ R c)
  post c := iprop(StableHlo.held (c : Thread nD τ) (Pipeline.ucRefs τ sig) (W2 D0 D1 c) ∗ R c)
  X c := iprop(∃ r, prngReg c r)
  Y c := iprop(∃ r, prngReg c r)
  Z c := Pipeline.unscopedRest (Ix := Unit) (Name := ℕ) (U := UR sig nD τ) (Lvl := ℕ) spec1 c (V1 D0 c)
  hentry c := by
    rw [Pipeline.ownSems0_none]
    have hs : StableHlo.held (c : Thread nD τ) (Pipeline.ucRefs τ sig) (W1 D0 c)
        = (iprop(Pipeline.arrBufs (Ix := Unit) (Name := ℕ) (U := UR sig nD τ) (Lvl := ℕ) spec1 c (V1 D0 c)
            ∗ Pipeline.unscopedRest (Ix := Unit) (Name := ℕ) (U := UR sig nD τ) (Lvl := ℕ) spec1 c (V1 D0 c)) : sProp 𝕄) := by
      rw [← Pipeline.unscopedBufs_held]
      exact Pipeline.unscopedBufs_split₀ (Ix := Unit) (Name := ℕ) (U := UR sig nD τ) (Lvl := ℕ) (Val := Elt F) cfgs 1 winFacts₀1.arr_unscoped c (V1 D0 c)
    iintro ⟨⟨Hub, Hp, HO⟩, -, -⟩
    ihave H := (Entails.of_eq hs) $$ Hub
    icases H with ⟨Hb, Hrest⟩
    ihave Ha := (arrays_split1 D0 D1 c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D0 D1 1 c).owed 0 = 0 from D1.howed c 0]
      icases HO with ⟨%W, HO⟩; iexists W; isplitr; · ipureintro; exact fun x _ => Or.inl ((D1.hrec c 0).symm ▸ Set.mem_univ x)
      iexact HO
    isplitl [Hp]; · iexact Hp
    iexact Hrest
  hin c := by
    rw [show (pdats D0 D1 1 c).Φ 0 = (D1.dat c).Φ 0 from rfl]
    iintro ⟨Hp, -, Hr⟩
    iapply (D1.hin c)
    isplitl [Hp]; · iexact Hp
    iexact Hr
  hout c := by
    rw [Pipeline.ownSems0_none, show (pdats D0 D1 1 c).Φ (Fin.last _) = (D1.dat c).Φ (Fin.last cfg1.N) from rfl]
    iintro H
    ihave H' := (D1.hout c) $$ H
    icases H' with ⟨Hp, Hr⟩
    isplitl [Hp]; · iexact Hp
    isplitr; · iempintro
    iexact Hr
  hexit c := by
    have hs : StableHlo.held (c : Thread nD τ) (Pipeline.ucRefs τ sig) (W2 D0 D1 c)
        = (iprop(Pipeline.arrBufs (Ix := Unit) (Name := ℕ) (U := UR sig nD τ) (Lvl := ℕ) spec1 c (V2 D0 D1 c)
            ∗ Pipeline.unscopedRest (Ix := Unit) (Name := ℕ) (U := UR sig nD τ) (Lvl := ℕ) spec1 c (V1 D0 c)) : sProp 𝕄) := by
      rw [← rest1_eq D0 D1 c, ← Pipeline.unscopedBufs_held]
      exact Pipeline.unscopedBufs_split₀ (Ix := Unit) (Name := ℕ) (U := UR sig nD τ) (Lvl := ℕ) (Val := Elt F) cfgs 1 winFacts₀1.arr_unscoped c (V2 D0 D1 c)
    iintro ⟨Ha, HO, HY, Hrest⟩
    have hj : ((pdats D0 D1 1 c).arrays ((pdats D0 D1 1 c).arrAt · (Pipeline.pin (pcfgs (F := F)) adm 1).N) : sProp 𝕄)
        ⊢ Pipeline.arrBufs (Ix := Unit) (Name := ℕ) (U := UR sig nD τ) (Lvl := ℕ) spec1 c (V2 D0 D1 c) := arrays_join1 D0 D1 c
    ihave Hb := hj $$ Ha
    imodintro
    isplitl [Hb Hrest]
    · iapply (Entails.of_eq hs.symm); isplitl [Hb] <;> iassumption
    isplitl [HY]; · iexact HY
    unfold Pipeline.Dat.owesAt Pipeline.owesWithin
    rw [show (pdats D0 D1 1 c).owed (Fin.last _) = 0 from D1.howed c _]
    icases HO with ⟨%W, -, HO⟩; iexists W; iexact HO

/-! ## The program as segments, and the launch -/

/-- The host operations as a segment from `W2`, `R` riding along. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 D0 D1) R

abbrev segs : List (Pipeline.Seg (pcfgs (F := F)) adm (pdats D0 D1) () defs₀ 𝒱₀ L lv) :=
  [ .region (reg0 D0 D1),
    .region (reg1 D0 D1),
    .host (hseg2 D0 D1) ]

theorem main_run (c : Dev nD) : main (F := F) c = Pipeline.Seg.run (segs D0 D1) :=
  (main_chain c).trans (by chain_rfl)

set_option backward.isDefEq.respectTransparency.types false in
/-- THE RUN: from any memory with zero counters every weakly fair execution terminates, nothing faulting, and the
    final memory holds every unscoped buffer at `W3`. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 D0 D1 c b) :=
  Pipeline.θ_run_regions_kit (pcfgs (F := F)) adm (pdats D0 D1) () cellOf_inj emb₁ defs₀ 𝒱₀ L lv m ρ main
    (segs D0 D1)
    (fun c Q => by rw [main_run D0 D1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ D0 D1)
    (hch := ⟨fun _ => .rfl, fun _ => .rfl, fun _ => .rfl, fun c =>
      show (iprop(StableHlo.held (c : Thread nD τ) (Pipeline.ucRefs τ sig) (W3 D0 D1 c) ∗ R c) : sProp 𝕄)
        ⊢ iprop(Tₙ D0 D1 c ∗ ∃ W, owes (c : Thread nD τ) (0 : CellTallies nD τ sig Unit) W) from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 D0 D1 c b)
    (hfin := fun c s' => by
      iintro ⟨⟨Hh, -⟩, HSI⟩
      unfold StableHlo.held
      imodintro
      iapply (pointsTo_read_all (Pipeline.ucRefs τ sig) (fun b => (((c : Thread nD τ)).1, b)) (W3 D0 D1 c) s')
      isplitl [Hh] <;> iassumption)
    (hQ := fun s h => h)

/-! ## What no item writes -/

theorem W3_of (c : Dev nD) (r : Ref sig .tc) (h : r ∉ hostOps2_W) :
    W3 D0 D1 c (Proc.devRef .tc r) = W2 D0 D1 c (Proc.devRef .tc r) :=
  StableHlo.after_of_writes_sub hostOps2 _ hostOps2_writes h
/-- Each argument reaches the end as launched: no host operation writes it, the first region reads it through an
    input window, the second bypasses it. -/
theorem W3_arg0 (c : Dev nD) : W3 D0 D1 c (Proc.devRef .tc main_arg0) = m ((c : Thread nD τ).loc main_arg0) :=
  (W3_of D0 D1 c main_arg0 (by decide)).trans <| (W2_of_ne D0 D1 c main_arg0 (by decide)).trans <|
    (W1_arr D0 c 0).trans (((D0.dat c).arrAt_in 0 rfl _).trans (D0.hA c 0))
theorem W3_arg1 (c : Dev nD) : W3 D0 D1 c (Proc.devRef .tc main_arg1) = m ((c : Thread nD τ).loc main_arg1) :=
  (W3_of D0 D1 c main_arg1 (by decide)).trans <| (W2_of_ne D0 D1 c main_arg1 (by decide)).trans <|
    (W1_arr D0 c 1).trans (((D0.dat c).arrAt_in 1 rfl _).trans (D0.hA c 1))

/-- THE FRAME: the program runs, faults nowhere, and its two argument arrays end as launched. -/
theorem frame_of_run (D0 : Data0 m) (D1 : Data1 D0) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_arg0 D0 D1 c),
     (h c _ (mem_uc main_arg1 (by decide))).trans (W3_arg1 D0 D1 c)⟩)
    (run D0 D1 ρ)

end Run

end Cert.KernelIdeal.Hand

end
-- ==== Proof.KernelIdeal.Region0.lean ====
/-
  Region 0 of the program: the row-normalizing kernel, launched on a grid of 16 points. At point t
  the kernel reads rows 256t … 256t+255 of the two argument matrices, divides every row by its
  Euclidean norm clamped from below, writes the two normalized blocks one above the other into a
  512-row block of the first result, and writes the row-wise inner products of the two normalized
  blocks twice, one copy above the other, into a 512-row column block of the second result.

  This module states, for any float instance, what each staging buffer holds after the body in terms
  of the two blocks read, and proves the triple of the body and the obligation the pipeline asks at
  every point.
-/
import proofs.«107862_j71090298683407_2_alg».proof.Proof.Gen.KernelIdeal.Launch
import proofs.«107862_j71090298683407_2_alg».proof.Proof.Gen.KernelIdeal.Skeleton
import proofs.«107862_j71090298683407_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of the core's buffers when the region is entered
variable (V : (c : Dev nD) → (b : Ref sig .tc) → Buf (Elt F) ((c : Thread nD τ).loc b))

/-! ## The blocks the windows see -/

/-- The block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point: the block is fetched at every
    point, and the body leaves it as it was. Window 0. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- The whole of a 256×2048 input block. -/
abbrev rIn : Rect S256x2048 := Rect.unit (s := S256x2048) ![0, 0] S256x2048.size inb_S256x2048_S256x2048_0_0
/-- Rows 0 … 255 of the 512×2048 result block. -/
abbrev rTop : Rect S512x2048 := Rect.unit (s := S512x2048) ![0, 0] S256x2048.size inb_S512x2048_S256x2048_0_0
/-- Rows 256 … 511 of the 512×2048 result block. -/
abbrev rBot : Rect S512x2048 := Rect.unit (s := S512x2048) ![256, 0] S256x2048.size inb_S512x2048_S256x2048_256_0
/-- Rows 0 … 255 of the 512×1 result block. -/
abbrev cTop : Rect S512x1 := Rect.unit (s := S512x1) ![0, 0] S256x1.size inb_S512x1_S256x1_0_0
/-- Rows 256 … 511 of the 512×1 result block. -/
abbrev cBot : Rect S512x1 := Rect.unit (s := S512x1) ![256, 0] S256x1.size inb_S512x1_S256x1_256_0

/-! ## What the body leaves in the two result buffers -/

/-- The 512×2048 buffer after the body: the normalized second block in the lower half, the normalized first
    block in the upper half (the later store listed first). -/
def out0_2 (x0 x1 : Vec F S256x2048 .f32) : Vec F S512x2048 .bf16 :=
  View.canon [⟨rBot, k0_pay5 (View.ld x1 rIn)⟩,
    ⟨rTop, k0_pay4 (View.ld x0 rIn)⟩]

/-- The two halves tile the buffer, so every index lies in one of them. -/
theorem cover0_2 (p0 : Vec F S256x2048 .bf16) (p1 : Vec F S256x2048 .bf16) (y : S512x2048.Idx) :
    ∃ pc ∈ ([⟨rBot, p0⟩, ⟨rTop, p1⟩] : List (View.Piece (Elt F) S512x2048 .bf16)), y ∈ pc.1.set :=
  View.cover_of_tiled [⟨rBot, p0⟩, ⟨rTop, p1⟩] S256x2048.size (by rfl) y

/-- The 512×1 buffer after the body: the column of row-wise inner products of the two normalized blocks, in the
    lower half and in the upper half (the later store listed first). -/
def out0_3 (x0 x1 : Vec F S256x2048 .f32) : Vec F S512x1 .f32 :=
  View.canon [⟨cBot, k0_pay3 (View.ld x0 rIn) (View.ld x1 rIn)⟩,
    ⟨cTop, k0_pay3 (View.ld x0 rIn) (View.ld x1 rIn)⟩]

/-- The two halves tile the column buffer. -/
theorem cover0_3 (p0 : Vec F S256x1 .f32) (p1 : Vec F S256x1 .f32) (y : S512x1.Idx) :
    ∃ pc ∈ ([⟨cBot, p0⟩, ⟨cTop, p1⟩] : List (View.Piece (Elt F) S512x1 .f32)), y ∈ pc.1.set :=
  View.cover_of_tiled [⟨cBot, p0⟩, ⟨cTop, p1⟩] S256x1.size (by rfl) y

/-! ## The triple of the body -/

set_option maxHeartbeats 1000000 in
/-- On whole staging memrefs, the two inputs' holding `x0` and `x1` and the two results' holding anything, the
    body runs to a state where the inputs' are unchanged and the results' hold `out0_2 x0 x1` and `out0_3 x0 x1`. -/
theorem sound_kernel0 (c : Dev nD) (E : Set ℕ) (i : grid0.Coords)
    (arg1 : Memref sig .tc .vmem S256x2048 .f32) (harg1 : arg1.IsWhole) (arg2 : Memref sig .tc .vmem S256x2048 .f32) (harg2 : arg2.IsWhole)
    (arg3 : Memref sig .tc .vmem S512x2048 .bf16) (harg3 : arg3.IsWhole) (arg4 : Memref sig .tc .vmem S512x1 .f32) (harg4 : arg4.IsWhole)
    (x0 : Vec F S256x2048 .f32) (x1 : Vec F S256x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _ _)
  iexists _; isplitr
  swap; · iexact H3
  ipureintro
  exact View.read_writes_eq_canon _ _ _ (cover0_3 _ _)

/-! ## The proof data of the pipeline -/

/-- The proof data of the pipeline on core `c`: the arrays as the region finds them; after the body at point `t`
    each input's buffer at its block and each result's at `out0_2` / `out0_3` of the two input blocks; the
    invariant the rest of the core's scoped memory and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The obligation of the body at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple of the body applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdeal.Region1a.lean ====
import proofs.«107862_j71090298683407_2_alg».proof.Proof.Gen.KernelIdeal.Launch
import proofs.«107862_j71090298683407_2_alg».proof.Proof.Gen.KernelIdeal.Skeleton
import proofs.«107862_j71090298683407_2_alg».proof.Proof.Gen.KernelIdeal.Points
import Idealize.ShloMosaic.Lib.Pipeline.FrameBody
import Idealize.ShloMosaic.Lib.Pipeline.Value
import Idealize.ShloMosaic.Lib.Tactic

/-!
# The second pallas_call (the row sums of exponentials): its windows, its control cases, its accumulator

The grid is 8 × 8; point `t` has coordinates `(i, j) = (t / 8, t % 8)`, `j` innermost. The body multiplies row
block `i` of the stacked unit rows against row block `j`, exponentiates twice the products, and adds the row sums
into a scratch accumulator that is zeroed at `j = 0` and copied to the output block at `j = 7`; on the diagonal
blocks (`i = j`) the diagonal entries are replaced by zero before summing.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block (window 0) sits in its staging buffer at every point, fetched there or not: between fetches the
    block index `i` does not move and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column block (window 1) likewise; it is fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The four conditions of the body, and where on the grid each holds -/

/-- `j = 0`: the accumulator is zeroed. -/
abbrev cond1_0 (i : grid1.Coords) : Prop := (Scalar.cmpi .ne (Scalar.extui (Scalar.cmpi .eq (BitVec.ofNat 32 (i 1).val) 0#32)) 0#32) = 1#1
/-- `i = j`: a diagonal block, summed with its diagonal masked. -/
abbrev cond1_1 (i : grid1.Coords) : Prop := (Scalar.cmpi .ne (Scalar.extui (Scalar.cmpi .eq (BitVec.ofNat 32 (i 0).val) (BitVec.ofNat 32 (i 1).val))) 0#32) = 1#1
/-- `i ≠ j`: an off-diagonal block, summed whole. -/
abbrev cond1_2 (i : grid1.Coords) : Prop := (Scalar.cmpi .ne (Scalar.extui (Scalar.cmpi .ne (BitVec.ofNat 32 (i 0).val) (BitVec.ofNat 32 (i 1).val))) 0#32) = 1#1
/-- `j = 7`: the accumulator is copied to the output block. -/
abbrev cond1_3 (i : grid1.Coords) : Prop := k1_cond4 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val / 8 = t.val % 8 :=
  (by decide +kernel : ∀ t : Fin grid1.N, cond1_1 (grid1.coords t) ↔ t.val / 8 = t.val % 8)
theorem hcond1_2 : ∀ t : Fin cfg1.N, cond1_2 (grid1.coords t) ↔ ¬ t.val / 8 = t.val % 8 :=
  (by decide +kernel : ∀ t : Fin grid1.N, cond1_2 (grid1.coords t) ↔ ¬ t.val / 8 = t.val % 8)
theorem hcond1_3 : ∀ t : Fin cfg1.N, cond1_3 (grid1.coords t) ↔ t.val % 8 = 7 :=
  (by decide +kernel : ∀ t : Fin grid1.N, cond1_3 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from `j = 7` the body stores nothing into the output block's buffer, -/
theorem idleAt1_2 : ∀ t : Fin cfg1.N, ¬cond1_3 (grid1.coords t) → cfg1.idle 2 (grid1.coords t) = true := by decide +kernel
/-- and the block is not written back there; -/
theorem noFlush1_2 : ∀ t : Fin cfg1.N, ¬cond1_3 (grid1.coords t) → (cfg1.win 2).flush t = false := by decide +kernel
/-- at `j = 7` it stores the whole block. -/
theorem liveAt1_2 : ∀ t : Fin cfg1.N, cond1_3 (grid1.coords t) → cfg1.idle 2 (grid1.coords t) = false := by decide +kernel

/-! ## The memrefs the body is called with -/

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The scratch accumulator: a whole scoped buffer of the kernel's own. -/
abbrev scM1 : Memref sig .tc .vmem S1024x1 .f32 := Memref.whole cc1_scratch0

/-! ## Whole-buffer loads and stores

Every load and store of the body goes through the whole-shape rectangle at offsets `![0, 0]`. -/

theorem off00 : (![0, 0] : Fin 2 → ℕ) = fun _ => 0 := by
  funext a; fin_cases a <;> rfl

/-- One whole-buffer store leaves its payload, whatever the view and the earlier contents. -/
theorem read_store_whole {S : Shape} {e : EltTy} {κ : Kind} {sp : Space}
    (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩)]
  exact View.canon_cons_unit_zero h inb w L

/-- A whole-buffer load of a whole memref reads its contents. -/
theorem readAt_whole {S : Shape} {e : EltTy} {κ : Kind} {sp : Space} (m : Memref sig κ sp S e) (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread]; exact View.ld_unit_zero hz inb X

end Cert.KernelIdeal.Hand

end
-- ==== Proof.KernelIdeal.Region1b.lean ====
import proofs.«107862_j71090298683407_2_alg».proof.Proof.KernelIdeal.Region1a

/-!
# The accumulator point by point, and the proof data of the second pallas_call
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The accumulator after each point -/

/-- One point's contribution added to accumulator contents `s`: on a diagonal block (`i = j`) the row sums of the
    exponentials with the diagonal entries replaced by zero, otherwise the plain row sums. -/
def accStep (c : Dev nD) (t : Fin cfg1.N) (s : Vec F S1024x1 .f32) : Vec F S1024x1 .f32 :=
  if t.val / 8 = t.val % 8 then k1_pay3 (iblk1 V c 0 t) (iblk1 V c 1 t) s else k1_pay4 (iblk1 V c 0 t) (iblk1 V c 1 t) s

/-- What the scratch accumulator holds after the body at position `n`: at `j = 0` the sum restarts from zero,
    elsewhere it continues from what the point before left. -/
def accAt (c : Dev nD) : (n : ℕ) → n < cfg1.N → Vec F S1024x1 .f32
  | 0, hn => accStep V c ⟨0, hn⟩ k1_pay1
  | n + 1, hn => accStep V c ⟨n + 1, hn⟩ (if (n + 1) % 8 = 0 then k1_pay1 else accAt c n (Nat.lt_of_succ_lt hn))

/-- The same at a grid point. -/
def accAfter (c : Dev nD) (t : Fin cfg1.N) : Vec F S1024x1 .f32 := accAt V c t.val t.isLt

/-- At the first point of a row of blocks the accumulation restarts. -/
theorem accAfter_restart (c : Dev nD) (t : Fin cfg1.N) (h : t.val % 8 = 0) : accAfter V c t = accStep V c t k1_pay1 := by
  obtain ⟨n, hn⟩ := t
  cases n with
  | zero => rfl
  | succ n => unfold accAfter; rw [accAt, if_pos h]

/-- Elsewhere it continues from the point before. -/
theorem accAfter_continue (c : Dev nD) (t : Fin cfg1.N) (h : ¬ t.val % 8 = 0) :
    accAfter V c t = accStep V c t (accAt V c (t.val - 1) (Nat.lt_of_le_of_lt (Nat.sub_le _ _) t.isLt)) := by
  obtain ⟨n, hn⟩ := t
  cases n with
  | zero => exact absurd (Nat.zero_mod _) h
  | succ n => unfold accAfter; rw [accAt, if_neg h]; rfl

/-! ## The region invariant -/

/-- The core's scoped buffers that belong to the first pallas_call, each whole at some contents: they ride along. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The scratch accumulator before position `n`: before the first point at contents nobody chose, afterwards at what
    the point before left. -/
def scr (c : Dev nD) : (n : ℕ) → n ≤ cfg1.N → sProp 𝕄
  | 0, _ => iprop(∃ d, owns (c : Thread nD τ) scM1 fullShare d)
  | n + 1, hn => owns (c : Thread nD τ) scM1 fullShare (accAt V c n hn)

/-- The invariant before position `n`: the generator register at some state, the other scoped buffers, the scratch. -/
def PhiS (c : Dev nD) (n : ℕ) (h : n ≤ cfg1.N) : sProp 𝕄 :=
  iprop((∃ r, prngReg c r) ∗ others (F := F) c ∗ scr V c n h)

theorem scr_zero (c : Dev nD) (n : ℕ) (h : n ≤ cfg1.N) (hz : n = 0) :
    scr V c n h = iprop(∃ d, owns (c : Thread nD τ) scM1 fullShare d) := by
  subst hz; rfl

theorem scr_succ (c : Dev nD) (n : ℕ) (hn : n < cfg1.N) :
    scr V c (n + 1) hn = owns (c : Thread nD τ) scM1 fullShare (accAt V c n hn) := rfl

theorem scr_pos (c : Dev nD) (n : ℕ) (h : n ≤ cfg1.N) (hz : n ≠ 0) :
    scr V c n h = owns (c : Thread nD τ) scM1 fullShare (accAt V c (n - 1) (by omega)) := by
  cases n with
  | zero => exact absurd rfl hz
  | succ n => rfl

/-! ## The proof data -/

/-- The proof data of the second pallas_call on core `c`: the arrays as the region finds them; both input windows
    read the one array of stacked unit rows, each at half of the full share; after the body each input's buffer
    holds its block and the output's the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAfter V c t
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAfter V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi_castSucc (c : Dev nD) (t : Fin cfg1.N) :
    (dat1 V c).Φ t.castSucc = PhiS V c t.val (Nat.le_of_lt t.isLt) := by
  dsimp only [dat1]; simp only [Fin.coe_castSucc]

theorem Phi_succ (c : Dev nD) (t : Fin cfg1.N) :
    (dat1 V c).Φ t.succ = PhiS V c (t.val + 1) t.isLt := rfl

/-! ## Into and out of the region -/

/-- What the launch hands the region is the invariant before the first point: the scoped rest is the other scoped
    buffers and the scratch, each whole at some contents. -/
theorem phi_in (c : Dev nD) : iprop((∃ r, prngReg c r) ∗ Pipeline.scopedRest (Ix := Unit) (Name := ℕ) (U := UR sig nD τ) (Lvl := ℕ) spec1 c) ⊢ (dat1 V c).Φ 0 := by
  rw [show (dat1 V c).Φ 0 = PhiS V c 0 (Nat.zero_le _) from rfl]
  unfold PhiS others
  rw [scr_zero V c 0 _ rfl, scopedRest1_eq]
  simp only [scM1, owns_whole]
  iintro ⟨Hg, H0, H1, H2, H3, H4, H5, H6, H7, HS⟩
  isplitl [Hg]; · iexact Hg
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HS

/-- After the last point the invariant gives the scoped rest back: what the scratch holds is forgotten. -/
theorem phi_out (c : Dev nD) : (dat1 V c).Φ (Fin.last cfg1.N) ⊢ iprop((∃ r, prngReg c r) ∗ Pipeline.scopedRest (Ix := Unit) (Name := ℕ) (U := UR sig nD τ) (Lvl := ℕ) spec1 c) := by
  have hN : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl]
  unfold PhiS others
  rw [scr_pos V c _ _ hN, scopedRest1_eq]
  simp only [scM1, owns_whole]
  iintro ⟨Hg, ⟨H0, H1, H2, H3, H4, H5, H6, H7⟩, HS⟩
  isplitl [Hg]; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact HS

end Region

end Cert.KernelIdeal.Hand

end
-- ==== Proof.KernelIdeal.Region1RunsZ.lean ====
import proofs.«107862_j71090298683407_2_alg».proof.Proof.KernelIdeal.Region1a

/-!
# The body of the second pallas_call, run case by case: the first column block (`j = 0`), where the accumulator restarts

Each run takes the four whole memrefs at their contents and hands them back: the two input blocks as found, the
scratch accumulator at its new sum, the output block's buffer at the accumulator (`j = 7`) or as found.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body when `j = 0`, `i = j`, `j ≠ 7`: the accumulator restarts from zero, takes the masked row sums; the output block's buffer is untouched. -/
theorem run_zdm (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : cond1_0 i) (hc1 : cond1_1 i) (hc2 : ¬cond1_2 i) (hc3 : ¬cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k1_pay3 x0 x1 k1_pay1)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

set_option maxHeartbeats 1000000 in
/-- The body when `j = 0`, `i = j`, `j = 7`: the accumulator restarts from zero, takes the masked row sums, and is copied to the output block. -/
theorem run_zdl (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : cond1_0 i) (hc1 : cond1_1 i) (hc2 : ¬cond1_2 i) (hc3 : cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k1_pay3 x0 x1 k1_pay1) ∗ owns (c : Thread nD τ) arg5 fullShare (k1_pay3 x0 x1 k1_pay1)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_store_whole _ _ off00]
    simp only [View.readCov_cons_toLoadRect, readAt_whole (S := S1024x2048) _ _ off00, readAt_whole (S := S1024x1) _ _ off00]
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

set_option maxHeartbeats 1000000 in
/-- The body when `j = 0`, `i ≠ j`, `j ≠ 7`: the accumulator restarts from zero, takes the plain row sums; the output block's buffer is untouched. -/
theorem run_zom (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : cond1_0 i) (hc1 : ¬cond1_1 i) (hc2 : cond1_2 i) (hc3 : ¬cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k1_pay4 x0 x1 k1_pay1)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

set_option maxHeartbeats 1000000 in
/-- The body when `j = 0`, `i ≠ j`, `j = 7`: the accumulator restarts from zero, takes the plain row sums, and is copied to the output block. -/
theorem run_zol (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : cond1_0 i) (hc1 : ¬cond1_1 i) (hc2 : cond1_2 i) (hc3 : cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k1_pay4 x0 x1 k1_pay1) ∗ owns (c : Thread nD τ) arg5 fullShare (k1_pay4 x0 x1 k1_pay1)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_store_whole _ _ off00]
    simp only [View.readCov_cons_toLoadRect, readAt_whole (S := S1024x2048) _ _ off00, readAt_whole (S := S1024x1) _ _ off00]
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

end Cert.KernelIdeal.Hand

end
-- ==== Proof.KernelIdeal.Region1RunsN.lean ====
import proofs.«107862_j71090298683407_2_alg».proof.Proof.KernelIdeal.Region1a

/-!
# The body of the second pallas_call, run case by case: the later column blocks (`j ≠ 0`), where the accumulator continues

Each run takes the four whole memrefs at their contents and hands them back: the two input blocks as found, the
scratch accumulator at its new sum, the output block's buffer at the accumulator (`j = 7`) or as found.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body when `j ≠ 0`, `i = j`, `j ≠ 7`: the accumulator continues, takes the masked row sums; the output block's buffer is untouched. -/
theorem run_ndm (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : ¬cond1_0 i) (hc1 : cond1_1 i) (hc2 : ¬cond1_2 i) (hc3 : ¬cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k1_pay3 x0 x1 xs)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

set_option maxHeartbeats 1000000 in
/-- The body when `j ≠ 0`, `i = j`, `j = 7`: the accumulator continues, takes the masked row sums, and is copied to the output block. -/
theorem run_ndl (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : ¬cond1_0 i) (hc1 : cond1_1 i) (hc2 : ¬cond1_2 i) (hc3 : cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k1_pay3 x0 x1 xs) ∗ owns (c : Thread nD τ) arg5 fullShare (k1_pay3 x0 x1 xs)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_store_whole _ _ off00]
    simp only [View.readCov_cons_toLoadRect, readAt_whole (S := S1024x2048) _ _ off00, readAt_whole (S := S1024x1) _ _ off00]
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

set_option maxHeartbeats 1000000 in
/-- The body when `j ≠ 0`, `i ≠ j`, `j ≠ 7`: the accumulator continues, takes the plain row sums; the output block's buffer is untouched. -/
theorem run_nom (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : ¬cond1_0 i) (hc1 : ¬cond1_1 i) (hc2 : cond1_2 i) (hc3 : ¬cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (xi) ∗ owns (c : Thread nD τ) arg5 fullShare (k1_pay4 x0 x1 xs)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

set_option maxHeartbeats 1000000 in
/-- The body when `j ≠ 0`, `i ≠ j`, `j = 7`: the accumulator continues, takes the plain row sums, and is copied to the output block. -/
theorem run_nol (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hc0 : ¬cond1_0 i) (hc1 : ¬cond1_1 i) (hc2 : cond1_2 i) (hc3 : cond1_3 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k1_pay4 x0 x1 xs) ∗ owns (c : Thread nD τ) arg5 fullShare (k1_pay4 x0 x1 xs)) -∗ K ⟨⟩))
      ⊢ wp frame (wpE (defs₀ (F := F)) Variants.none c none) E (cc1__sumexp_kernel i arg2 harg2 arg3 harg3 arg4 harg4 arg5 harg5) K := by
  simp only [cc1__sumexp_kernel_eq_skeleton]; unfold cc1__sumexp_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_store_whole _ _ off00]
    simp only [View.readCov_cons_toLoadRect, readAt_whole (S := S1024x2048) _ _ off00, readAt_whole (S := S1024x1) _ _ off00]
  iexists _; isplitr
  swap; · iexact HS
  ipureintro
  try sl_unfold_run_names
  rw [read_store_whole _ _ off00]
  simp only [View.readCov_cons_toLoadRect, readAt_whole (S := S1024x2048) _ _ off00, readAt_whole (S := S1024x1) _ _ off00]

end Cert.KernelIdeal.Hand

end
-- ==== Proof.KernelIdeal.Region1.lean ====
import proofs.«107862_j71090298683407_2_alg».proof.Proof.KernelIdeal.Region1b
import proofs.«107862_j71090298683407_2_alg».proof.Proof.KernelIdeal.Region1RunsZ
import proofs.«107862_j71090298683407_2_alg».proof.Proof.KernelIdeal.Region1RunsN

/-!
# The body obligation of the second pallas_call

At every grid point the body, handed the invariant, the two input blocks and the output block's buffer, runs to the
invariant at the next point — the scratch accumulator at its new sum — with the input blocks as found and the
output block's buffer at the accumulator where `j = 7` and as found elsewhere.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body at any coordinates -/

/-- What the accumulator holds after the body at coordinates `i`, from the two blocks and what it held before. -/
def bodyAcc (i : grid1.Coords) (x0 x1 : Vec F S1024x2048 .bf16) (xs : Vec F S1024x1 .f32) : Vec F S1024x1 .f32 :=
  if cond1_1 i then k1_pay3 x0 x1 (if cond1_0 i then k1_pay1 else xs) else k1_pay4 x0 x1 (if cond1_0 i then k1_pay1 else xs)

/-- The body at any coordinates, the eight ways its conditions can fall collected: the accumulator ends at
    `bodyAcc`, the output block's buffer at the same when `j = 7` and as found otherwise. `hx`: the third condition
    (`i ≠ j`) is the negation of the second. -/
theorem run_body (c : Dev nD) (i : grid1.Coords)
    (arg2 : Memref sig .tc .vmem S1024x2048 .bf16) (harg2 : arg2.IsWhole) (arg3 : Memref sig .tc .vmem S1024x2048 .bf16) (harg3 : arg3.IsWhole)
    (arg4 : Memref sig .tc .vmem S1024x1 .f32) (harg4 : arg4.IsWhole) (arg5 : Memref sig .tc .vmem S1024x1 .f32) (harg5 : arg5.IsWhole)
    (hx : cond1_2 i ↔ ¬cond1_1 i)
    (x0 x1 : Vec F S1024x2048 .bf16) (xi xs : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1
            ∗ owns (c : Thread nD τ) arg4 fullShare (if cond1_3 i then bodyAcc i x0 x1 xs else xi)
            ∗ owns (c : Thread nD τ) arg5 fullShare (bodyAcc i x0 x1 xs)) -∗ K ⟨⟩))
      ⊢ wp frame (wpE (defs₀ (F := F)) Variants.none c none) E (cc1__sumexp_kernel i arg2 harg2 arg3 harg3 arg4 harg4 arg5 harg5) K := by
  unfold bodyAcc
  by_cases h0 : cond1_0 i
  · by_cases h1 : cond1_1 i
    · by_cases h3 : cond1_3 i
      · rw [if_pos h1, if_pos h0, if_pos h3]; exact run_zdl c i arg2 harg2 arg3 harg3 arg4 harg4 arg5 harg5 h0 h1 (fun h => (hx.mp h) h1) h3 x0 x1 xi xs E K
      · rw [if_pos h1, if_pos h0, if_neg h3]; exact run_zdm c i arg2 harg2 arg3 harg3 arg4 harg4 arg5 harg5 h0 h1 (fun h => (hx.mp h) h1) h3 x0 x1 xi xs E K
    · by_cases h3 : cond1_3 i
      · rw [if_neg h1, if_pos h0, if_pos h3]; exact run_zol c i arg2 harg2 arg3 harg3 arg4 harg4 arg5 harg5 h0 h1 (hx.mpr h1) h3 x0 x1 xi xs E K
      · rw [if_neg h1, if_pos h0, if_neg h3]; exact run_zom c i arg2 harg2 arg3 harg3 arg4 harg4 arg5 harg5 h0 h1 (hx.mpr h1) h3 x0 x1 xi xs E K
  · by_cases h1 : cond1_1 i
    · by_cases h3 : cond1_3 i
      · rw [if_pos h1, if_neg h0, if_pos h3]; exact run_ndl c i arg2 harg2 arg3 harg3 arg4 harg4 arg5 harg5 h0 h1 (fun h => (hx.mp h) h1) h3 x0 x1 xi xs E K
      · rw [if_pos h1, if_neg h0, if_neg h3]; exact run_ndm c i arg2 harg2 arg3 harg3 arg4 harg4 arg5 harg5 h0 h1 (fun h => (hx.mp h) h1) h3 x0 x1 xi xs E K
    · by_cases h3 : cond1_3 i
      · rw [if_neg h1, if_neg h0, if_pos h3]; exact run_nol c i arg2 harg2 arg3 harg3 arg4 harg4 arg5 harg5 h0 h1 (hx.mpr h1) h3 x0 x1 xi xs E K
      · rw [if_neg h1, if_neg h0, if_neg h3]; exact run_nom c i arg2 harg2 arg3 harg3 arg4 harg4 arg5 harg5 h0 h1 (hx.mpr h1) h3 x0 x1 xi xs E K

section Region
variable (V : (c : Dev nD) → (b : Ref sig .tc) → Buf (Elt F) ((c : Thread nD τ).loc b))

/-- At a grid point the body's accumulator is the point's entry of the accumulation, provided that away from
    `j = 0` it started from what the point before left. -/
theorem accAfter_eq (c : Dev nD) (t : Fin cfg1.N) (xs : Vec F S1024x1 .f32)
    (hxs : ¬ t.val % 8 = 0 → xs = accAt V c (t.val - 1) (Nat.lt_of_le_of_lt (Nat.sub_le _ _) t.isLt)) :
    bodyAcc (grid1.coords t) (iblk1 V c 0 t) (iblk1 V c 1 t) xs = accAfter V c t := by
  unfold bodyAcc
  by_cases h0 : t.val % 8 = 0
  · rw [if_pos ((hcond1_0 t).mpr h0), accAfter_restart V c t h0]; unfold accStep
    by_cases h1 : t.val / 8 = t.val % 8
    · rw [if_pos ((hcond1_1 t).mpr h1), if_pos h1]
    · rw [if_neg (fun h => h1 ((hcond1_1 t).mp h)), if_neg h1]
  · rw [if_neg (fun h => h0 ((hcond1_0 t).mp h)), accAfter_continue V c t h0, ← hxs h0]; unfold accStep
    by_cases h1 : t.val / 8 = t.val % 8
    · rw [if_pos ((hcond1_1 t).mpr h1), if_pos h1]
    · rw [if_neg (fun h => h1 ((hcond1_1 t).mp h)), if_neg h1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point: the inputs' buffers hold their blocks; the invariant hands over the scratch at what the
    point before left (at anything before the first point), which is all the body needs of it away from `j = 0`;
    the run leaves the accumulator at this point's entry of the accumulation, and the output block's buffer at it
    where the block is written back (`j = 7`), untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi_succ, Phi_castSucc]; unfold PhiS; rw [scr_succ, show accAt V c t.val t.isLt = accAfter V c t from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hx : cond1_2 (grid1.coords t) ↔ ¬cond1_1 (grid1.coords t) := (hcond1_2 t).trans (not_congr (hcond1_1 t)).symm
  have hscr : scr V c t.val (Nat.le_of_lt t.isLt)
      ⊢ iprop(∃ xs, ⌜¬ t.val % 8 = 0 → xs = accAt V c (t.val - 1) (Nat.lt_of_le_of_lt (Nat.sub_le _ _) t.isLt)⌝ ∗ owns (c : Thread nD τ) scM1 fullShare xs) := by
    by_cases hz : t.val = 0
    · rw [scr_zero V c _ _ hz]
      iintro ⟨%d, H⟩; iexists d; isplitr
      · ipureintro; intro h; exact absurd (by rw [hz]) h
      iexact H
    · rw [scr_pos V c _ _ hz]
      iintro H; iexists _; isplitr
      · ipureintro; intro _; rfl
      iexact H
  by_cases h3 : cond1_3 (grid1.coords t)
  · rw [show (dat1 V c).leavesExact 2 t = owns (c : Thread nD τ) (ms1_2 t) fullShare ((dat1 V c).after 2 t) from by
      unfold Dat.leavesExact; rw [liveAt1_2 t h3], after1_2]
    iintro ⟨⟨Hg, HR, HS⟩, Ho, ⟨%d0, H0⟩, ⟨%d1, H1⟩, ⟨%d2, H2⟩⟩
    ihave HS' := hscr $$ HS
    icases HS' with ⟨%xs, %hxs, HS⟩
    have hacc := accAfter_eq V c t xs hxs
    iapply (run_body c (grid1.coords t) _ _ _ _ _ _ _ _ hx (iblk1 V c 0 t) (iblk1 V c 1 t) _ xs Set.univ _)
    isplitl [H0]; · iexact H0
    isplitl [H1]; · iexact H1
    isplitl [H2]; · iexact H2
    isplitl [HS]; · iexact HS
    rw [if_pos h3, hacc]
    iintro ⟨H0, H1, H2, HS⟩
    isplitl [Hg HR HS]
    · isplitl [Hg]; · iexact Hg
      isplitl [HR]; · iexact HR
      iexact HS
    isplitl [Ho]; · iexact Ho
    isplitl [H0]; · iexact H0
    isplitl [H1]; · iexact H1
    iexact H2
  · rw [Dat.leavesExact_idle (dat1 V c) 2 t (idleAt1_2 t h3) (noFlush1_2 t h3)]
    iintro ⟨⟨Hg, HR, HS⟩, Ho, ⟨%d0, H0⟩, ⟨%d1, H1⟩, ⟨%d2, H2⟩⟩
    ihave HS' := hscr $$ HS
    icases HS' with ⟨%xs, %hxs, HS⟩
    have hacc := accAfter_eq V c t xs hxs
    iapply (run_body c (grid1.coords t) _ _ _ _ _ _ _ _ hx (iblk1 V c 0 t) (iblk1 V c 1 t) _ xs Set.univ _)
    isplitl [H0]; · iexact H0
    isplitl [H1]; · iexact H1
    isplitl [H2]; · iexact H2
    isplitl [HS]; · iexact HS
    rw [if_neg h3, hacc]
    iintro ⟨H0, H1, H2, HS⟩
    isplitl [Hg HR HS]
    · isplitl [Hg]; · iexact Hg
      isplitl [HR]; · iexact HR
      iexact HS
    isplitl [Ho]; · iexact Ho
    isplitl [H0]; · iexact H0
    isplitl [H1]; · iexact H1
    iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KernelIdeal.Frame.lean ====
import proofs.«107862_j71090298683407_2_alg».proof.Proof.KernelIdeal.Run
import proofs.«107862_j71090298683407_2_alg».proof.Proof.KernelIdeal.Region0
import proofs.«107862_j71090298683407_2_alg».proof.Proof.KernelIdeal.Region1

/-!
# The program's run at its own proof data

The first region's proof data is taken at the launch memory, the second's at what the first leaves; with the two
bodies' obligations met, the run and the frame follow from the general run.
-/

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat BodyObligation)

variable {F : FTy → Type} [FloatOps F]

variable (m : (ℓ : Loc nD τ sig) → Buf (Elt F) ℓ)

/-- The first region's proof data, at the launch memory. -/
def data0 : Data0 (F := F) m where
  dat c := dat0 (V0 m) c
  hA c w := A_eq0 (V0 m) c w
  hq _ _ := rfl
  howed _ _ := rfl
  hrec _ _ := rfl
  hΦ _ _ := rfl
  hbody c := body_obligation0 (V0 m) c

/-- The second region's proof data, at what the first region leaves. -/
def data1 : Data1 (data0 m) where
  dat c := dat1 (V1 (data0 m)) c
  hA c w := by dsimp only [dat1]
  hq0 _ := rfl
  hq1 _ := rfl
  howed _ _ := rfl
  hrec _ _ := rfl
  hin c := phi_in (V1 (data0 m)) c
  hout c := phi_out (V1 (data0 m)) c
  hbody c := body_obligation1 (V1 (data0 m)) c

/-- Every weakly fair execution terminates, nothing faulting, every unscoped buffer ending at the last valuation. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 (data0 m) (data1 m) c b) :=
  run (data0 m) (data1 m) ρ

/-- The program runs, faults nowhere, and leaves its two argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run (data0 m) (data1 m) ρ

end Cert.KernelIdeal.Hand

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.Value.Region0Pay.lean ====
/-
  The arithmetic of the row-normalizing kernel, read one entry at a time over the extended reals.
  For a 256×2048 block x, row p's clamped norm is the larger of the square root of the row's sum
  of squares and the clamp; the normalized block has x(p, q) divided by row p's clamped norm at
  (p, q); and the column the kernel stores has, at row p, the sum over the lanes of the products of
  the two normalized blocks' entries.
-/
import proofs.«107862_j71090298683407_2_alg».proof.Proof.Gen.KernelIdeal.Skeleton
import proofs.«107862_j71090298683407_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandValue

open Cert.KernelIdeal Cert.KernelIdeal.Gen
open Idealize.ShloMosaic Idealize.ShloMosaic.ValueIdx

/-- Row `p`'s Euclidean norm in a 256×2048 block, clamped from below. -/
def rowNorm (x : Vec Ideal S256x2048 .f32) (p : Fin 256) : EReal :=
  max (Ideal.sqrt (∑ k : Fin 2048, x (ix2 p k) * x (ix2 p k))) (Ideal.ofBits .f32 0x2B8CBCCC#32)

/-- The clamped norm as the kernel computes it — the lane sum of the squares kept as a column, its square root,
    the maximum with the clamp, broadcast along the row — read at `(p, q)`. -/
theorem normCol_apply (x : Vec Ideal S256x2048 .f32) (p : Fin 256) (q : Fin 2048) :
    broadcastTo S256x2048
        (maximumf
          (sqrt (shapeCast S256x1 (multiReduction (F := Ideal) .add [1] S256 (mulf x x) 0x00000000#32 reduces_S256x2048_S256 (.inl rfl) rfl)
            shapeCasts_S256_S256x1))
          (broadcast S256x1 (Scalar.ofBits (F := Ideal) .f32 0x2B8CBCCC#32)))
        broadcasts_S256x1_S256x2048 (ix2 p q)
      = rowNorm x p := by
  refine (Cert.Lib.broadcastTo_a1_ab_apply _ broadcasts_S256x1_S256x2048 p q).trans ?_
  show max (Ideal.sqrt (shapeCast S256x1 _ shapeCasts_S256_S256x1 (ix2 p (0 : Fin 1)))) (Ideal.ofBits .f32 0x2B8CBCCC#32) = _
  unfold rowNorm
  refine congrArg (fun s => max (Ideal.sqrt s) (Ideal.ofBits .f32 0x2B8CBCCC#32)) ?_
  refine (Cert.Lib.shapeCast_a_a1_apply _ shapeCasts_S256_S256x1 p (0 : Fin 1)).trans ?_
  exact Cert.Lib.rowSum_apply (mulf x x) 0x00000000#32 reduces_S256x2048_S256 (.inl rfl) rfl p

/-- The first normalized block at `(p, q)`. -/
theorem normPay1_apply (x : Vec Ideal S256x2048 .f32) (p : Fin 256) (q : Fin 2048) :
    k0_pay1 (F := Ideal) x (ix2 p q) = Ideal.div (x (ix2 p q)) (rowNorm x p) := by
  unfold k0_pay1
  exact congrArg (Ideal.div (x (ix2 p q))) (normCol_apply x p q)

/-- The second normalized block at `(p, q)`: the same arithmetic. -/
theorem normPay2_apply (x : Vec Ideal S256x2048 .f32) (p : Fin 256) (q : Fin 2048) :
    k0_pay2 (F := Ideal) x (ix2 p q) = Ideal.div (x (ix2 p q)) (rowNorm x p) := by
  unfold k0_pay2
  exact congrArg (Ideal.div (x (ix2 p q))) (normCol_apply x p q)

/-- Narrowing to bf16 changes nothing over the extended reals. -/
theorem normPay4_apply (x : Vec Ideal S256x2048 .f32) (p : Fin 256) (q : Fin 2048) :
    k0_pay4 (F := Ideal) x (ix2 p q) = Ideal.div (x (ix2 p q)) (rowNorm x p) := by
  unfold k0_pay4
  exact normPay1_apply x p q

theorem normPay5_apply (x : Vec Ideal S256x2048 .f32) (p : Fin 256) (q : Fin 2048) :
    k0_pay5 (F := Ideal) x (ix2 p q) = Ideal.div (x (ix2 p q)) (rowNorm x p) := by
  unfold k0_pay5
  exact normPay2_apply x p q

/-- The stored column at row `p`: the sum over the lanes of the products of the two normalized entries. -/
theorem normPay3_apply (x0 x1 : Vec Ideal S256x2048 .f32) (p : Fin 256) (u : Fin 1) :
    k0_pay3 (F := Ideal) x0 x1 (ix2 p u)
      = ∑ k : Fin 2048, Ideal.div (x0 (ix2 p k)) (rowNorm x0 p) * Ideal.div (x1 (ix2 p k)) (rowNorm x1 p) := by
  unfold k0_pay3
  refine (Cert.Lib.shapeCast_a_a1_apply _ shapeCasts_S256_S256x1 p u).trans ?_
  refine (Cert.Lib.rowSum_apply (mulf (k0_pay1 x0) (k0_pay2 x1)) 0x00000000#32 reduces_S256x2048_S256 (.inl rfl) rfl p).trans ?_
  refine Finset.sum_congr rfl fun k _ => ?_
  show k0_pay1 x0 (ix2 p k) * k0_pay2 x1 (ix2 p k) = _
  rw [normPay1_apply x0 p k, normPay2_apply x1 p k]

end Cert.KernelIdeal.HandValue

end
-- ==== Proof.Spec.lean ====
import Idealize.ShloMosaic.PureOps.Ideal
import Idealize.ShloMosaic.Lib.ValueIdx

/-!
# The contrastive loss the kernel computes, as one function of the two argument matrices

Over the extended reals. Each row of `x_i` and of `x_j` is divided by its Euclidean norm clamped below by `ε`.
The kernel lays the 8192 unit rows out tile by tile: rows `512·k … 512·k + 255` are the unit rows
`256·k … 256·k + 255` of `x_i`, rows `512·k + 256 … 512·k + 511` the same rows of `x_j`. Row `R`'s positive
pair is the inner product of the two unit rows it comes from; its denominator the sum over every OTHER row `C`
of `exp (2 · ⟨z_R, z_C⟩)`; the loss the mean over the rows of `log denominator − 2 · positive`.
-/

noncomputable section

open scoped BigOperators

namespace Cert.Spec

open Idealize.ShloMosaic Idealize.ShloMosaic.ValueIdx

/-- A 4096 × 2048 matrix of extended reals: an f32[4096, 2048] array at the ideal instance. -/
abbrev Mat : Type := (⟨2, ![4096, 2048]⟩ : Shape).Idx → EReal

/-- The clamp `ε` (the f32 nearest 1e-12), the factor `2 = 1 / temperature`, and the row count `8192`, each the
    exact value of the literal both programs print. -/
abbrev eps : EReal := Ideal.ofBits .f32 0x2B8CBCCC#32
abbrev two : EReal := Ideal.ofBits .f32 0x40000000#32
abbrev cnt : EReal := Ideal.ofBits .f32 0x46000000#32

/-- Row `n`'s Euclidean norm, clamped below by `ε`. -/
def clampNorm (x : Mat) (n : Fin 4096) : EReal :=
  max (Ideal.sqrt (∑ d : Fin 2048, x (ix2 n d) * x (ix2 n d))) eps

/-- Entry `(n, d)` of the row-normalized matrix. -/
def unit (x : Mat) (n : Fin 4096) (d : Fin 2048) : EReal := Ideal.div (x (ix2 n d)) (clampNorm x n)

/-- The argument row that row `R` of the kernel's stacked matrix is made from (of `x_i` when `R % 512 < 256`, of
    `x_j` otherwise). -/
def srcRow (R : Fin 8192) : Fin 4096 := ⟨256 * (R.val / 512) + R.val % 256, by omega⟩

/-- The kernel's stacked unit rows. -/
def z (xi xj : Mat) (R : Fin 8192) (d : Fin 2048) : EReal :=
  if R.val % 512 < 256 then unit xi (srcRow R) d else unit xj (srcRow R) d

/-- Row `R`'s positive pair. -/
def pos (xi xj : Mat) (R : Fin 8192) : EReal := ∑ d : Fin 2048, unit xi (srcRow R) d * unit xj (srcRow R) d

/-- An 8192 × 2048 matrix of extended reals: the stacked unit rows as an array. -/
abbrev Stack : Type := (⟨2, ![8192, 2048]⟩ : Shape).Idx → EReal

/-- The kernel's stacked unit rows as an array. -/
def zMat (xi xj : Mat) : Stack := fun i => z xi xj (i 0) (i 1)

/-- The similarity of rows `R` and `C` of a stacked matrix. -/
def simOf (Z : Stack) (R C : Fin 8192) : EReal := ∑ d : Fin 2048, Z (ix2 R d) * Z (ix2 C d)

/-- Row `R`'s denominator over a stacked matrix: every other row's `exp (2 · similarity)`. -/
def denomOf (Z : Stack) (R : Fin 8192) : EReal :=
  ∑ C : Fin 8192, if C = R then 0 else Ideal.exp (simOf Z R C * two)

/-- The similarity of rows `R` and `C`. -/
def sim (xi xj : Mat) (R C : Fin 8192) : EReal := simOf (zMat xi xj) R C

/-- Row `R`'s denominator: every other row's `exp (2 · similarity)`. -/
def denom (xi xj : Mat) (R : Fin 8192) : EReal := denomOf (zMat xi xj) R

/-- The loss. -/
def loss (xi xj : Mat) : EReal :=
  Ideal.div (∑ R : Fin 8192, (Ideal.log (denom xi xj R) - pos xi xj R * two)) cnt

/-! ## The same loss as the reference arranges it

The reference stacks the unit rows of `x_i` on top of those of `x_j` (row `R < 4096` from `x_i`, row `R ≥ 4096`
from `x_j`), takes every pairwise similarity, reads row `R`'s positive off the similarity matrix at column
`R ± 4096`, masks the diagonal by the factor `1 − [R = C]`, and averages `− log (exp (positive / ½) / denominator)`. -/

abbrev half : EReal := Ideal.ofBits .f32 0x3F000000#32
abbrev one : EReal := Ideal.ofBits .f32 0x3F800000#32

/-- The reference's stacked unit rows. -/
def zRef (xi xj : Mat) (R : Fin 8192) (d : Fin 2048) : EReal :=
  if h : R.val < 4096 then unit xi ⟨R.val, h⟩ d else unit xj ⟨R.val - 4096, by omega⟩ d

def simRef (xi xj : Mat) (R C : Fin 8192) : EReal := ∑ d : Fin 2048, zRef xi xj R d * zRef xi xj C d

/-- The column of row `R`'s positive: `R + 4096` in the upper half, `R − 4096` in the lower. -/
def partner (R : Fin 8192) : Fin 8192 :=
  if h : R.val < 4096 then ⟨R.val + 4096, by omega⟩ else ⟨R.val - 4096, by omega⟩

def denomRef (xi xj : Mat) (R : Fin 8192) : EReal :=
  ∑ C : Fin 8192, (one - (if R = C then (1 : EReal) else 0)) * Ideal.exp (Ideal.div (simRef xi xj R C) half)

def lossRef (xi xj : Mat) : EReal :=
  Ideal.div (∑ R : Fin 8192,
    -(Ideal.log (Ideal.div (Ideal.exp (Ideal.div (simRef xi xj R (partner R)) half)) (denomRef xi xj R)))) cnt

/-- Every entry a real number: what the precondition says of an argument array. -/
def IsReal (x : Mat) : Prop := ∀ i, ∃ r : ℝ, x i = (r : EReal)

end Cert.Spec

end
-- ==== Proof.Value.Region0Value.lean ====
/-
  What the two result arrays of the row-normalizing kernel hold after its sixteen grid points, as
  functions of the two argument matrices, over the extended reals.

  Point t reads rows 256t … 256t+255 of the arguments and writes rows 512t … 512t+511 of the results:
  the upper 256 rows from the first argument's block, the lower 256 from the second's. Hence row R of
  the first result is the unit row 256·(R / 512) + R mod 256 of the first argument when R mod 512 < 256
  and of the second otherwise, and row R of the second result is the inner product of those two unit
  rows — the stacked unit rows and the positive pairs of the specification.
-/
import proofs.«107862_j71090298683407_2_alg».proof.Proof.KernelIdeal.Region0
import proofs.«107862_j71090298683407_2_alg».proof.Proof.Value.Region0Pay
import proofs.«107862_j71090298683407_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## A block's rows as rows of a matrix -/

/-- If row `p` of a block is row `n` of a matrix, the two clamped norms agree, -/
theorem rowNorm_eq (x : Vec Ideal S256x2048 .f32) (X : Cert.Spec.Mat) (p : Fin 256) (n : Fin 4096)
    (h : ∀ k : Fin 2048, x (ix2 p k) = X (ix2 n k)) : rowNorm x p = Cert.Spec.clampNorm X n := by
  unfold rowNorm Cert.Spec.clampNorm
  refine congrArg (fun s => max (Ideal.sqrt s) (Ideal.ofBits .f32 0x2B8CBCCC#32)) ?_
  exact Finset.sum_congr rfl fun k _ => by rw [h k]

/-- and so do the normalized entries. -/
theorem unit_of_block (x : Vec Ideal S256x2048 .f32) (X : Cert.Spec.Mat) (p : Fin 256) (n : Fin 4096) (q : Fin 2048)
    (h : ∀ k : Fin 2048, x (ix2 p k) = X (ix2 n k)) :
    Ideal.div (x (ix2 p q)) (rowNorm x p) = Cert.Spec.unit X n q := by
  unfold Cert.Spec.unit
  rw [rowNorm_eq x X p n h, h q]

/-! ## The stacked rows and the positive pairs, by the position of the row in its tile -/

theorem z_top (xi xj : Cert.Spec.Mat) (R : Fin 8192) (d : Fin 2048) (t r : ℕ) (hr : r < 256) (hR : R.val = 512 * t + r)
    (n : Fin 4096) (hn : n.val = 256 * t + r) : Cert.Spec.z xi xj R d = Cert.Spec.unit xi n d := by
  unfold Cert.Spec.z
  have h1 : R.val % 512 < 256 := by omega
  rw [if_pos h1]
  have hs : Cert.Spec.srcRow R = n := Fin.ext (by show 256 * (R.val / 512) + R.val % 256 = n.val; omega)
  rw [hs]

theorem z_bot (xi xj : Cert.Spec.Mat) (R : Fin 8192) (d : Fin 2048) (t r : ℕ) (hr : r < 256) (hR : R.val = 512 * t + (256 + r))
    (n : Fin 4096) (hn : n.val = 256 * t + r) : Cert.Spec.z xi xj R d = Cert.Spec.unit xj n d := by
  unfold Cert.Spec.z
  have h1 : ¬ R.val % 512 < 256 := by omega
  rw [if_neg h1]
  have hs : Cert.Spec.srcRow R = n := Fin.ext (by show 256 * (R.val / 512) + R.val % 256 = n.val; omega)
  rw [hs]

theorem pos_of_blocks (x0 x1 : Vec Ideal S256x2048 .f32) (xi xj : Cert.Spec.Mat) (p : Fin 256) (R : Fin 8192)
    (h0 : ∀ k : Fin 2048, x0 (ix2 p k) = xi (ix2 (Cert.Spec.srcRow R) k))
    (h1 : ∀ k : Fin 2048, x1 (ix2 p k) = xj (ix2 (Cert.Spec.srcRow R) k)) :
    (∑ k : Fin 2048, Ideal.div (x0 (ix2 p k)) (rowNorm x0 p) * Ideal.div (x1 (ix2 p k)) (rowNorm x1 p))
      = Cert.Spec.pos xi xj R := by
  unfold Cert.Spec.pos
  refine Finset.sum_congr rfl fun k _ => ?_
  rw [unit_of_block x0 xi p (Cert.Spec.srcRow R) k h0, unit_of_block x1 xj p (Cert.Spec.srcRow R) k h1]

/-! ## The two result buffers after the body, entry by entry -/

theorem hz : (![0, 0] : Fin 2 → Nat) = fun _ => 0 := funext fun a => by fin_cases a <;> rfl

/-- A load through the whole of an input block reads the block. -/
theorem ld_rIn (x : Vec Ideal S256x2048 .f32) : View.ld x rIn = x :=
  View.ld_unit_zero (S := S256x2048) hz inb_S256x2048_S256x2048_0_0 x

/-- Two stores of 256 rows each, the later through the lower half: an entry of the upper half reads the earlier
    store's payload, -/
theorem halves_top (w1 w0 : Vec Ideal S256x2048 .bf16) (p : Fin 256) (q : Fin 2048) (y : S512x2048.Idx)
    (hy0 : (y 0).val = p.val) (hy1 : (y 1).val = q.val) :
    View.canon ([⟨rBot, w1⟩, ⟨rTop, w0⟩] : List (View.Piece (Elt Ideal) S512x2048 .bf16)) y = w0 (ix2 p q) := by
  have hnot : y ∉ (rBot : Rect S512x2048).set := by
    intro hm
    have h := (Rect.mem_set_unit.mp hm) 0
    have h' : (256 : ℕ) ≤ (y 0).val := h.1
    have := p.isLt
    omega
  have he : y = (rTop : Rect S512x2048).emb (ix2 p q) := by
    funext a; apply Fin.ext
    match a with
    | ⟨0, _⟩ => show (y 0).val = 0 + 1 * p.val; omega
    | ⟨1, _⟩ => show (y 1).val = 0 + 1 * q.val; omega
  refine (View.canon_cons_of_not_mem (⟨rBot, w1⟩ : View.Piece (Elt Ideal) S512x2048 .bf16) [⟨rTop, w0⟩] hnot).trans ?_
  rw [he]
  exact View.canon_cons_emb (rTop : Rect S512x2048) w0 [] (ix2 p q)

/-- an entry of the lower half the later store's. -/
theorem halves_bot (w1 w0 : Vec Ideal S256x2048 .bf16) (p : Fin 256) (q : Fin 2048) (y : S512x2048.Idx)
    (hy0 : (y 0).val = 256 + p.val) (hy1 : (y 1).val = q.val) :
    View.canon ([⟨rBot, w1⟩, ⟨rTop, w0⟩] : List (View.Piece (Elt Ideal) S512x2048 .bf16)) y = w1 (ix2 p q) := by
  have he : y = (rBot : Rect S512x2048).emb (ix2 p q) := by
    funext a; apply Fin.ext
    match a with
    | ⟨0, _⟩ => show (y 0).val = 256 + 1 * p.val; omega
    | ⟨1, _⟩ => show (y 1).val = 0 + 1 * q.val; omega
  rw [he]
  exact View.canon_cons_emb (rBot : Rect S512x2048) w1 [⟨rTop, w0⟩] (ix2 p q)

/-- The same for two stores of a 256-row column each. -/
theorem col_halves_top (w1 w0 : Vec Ideal S256x1 .f32) (p : Fin 256) (y : S512x1.Idx) (hy0 : (y 0).val = p.val) :
    View.canon ([⟨cBot, w1⟩, ⟨cTop, w0⟩] : List (View.Piece (Elt Ideal) S512x1 .f32)) y = w0 (ix2 p (0 : Fin 1)) := by
  have hy1 : (y 1).val = 0 := by have : (y 1).val < 1 := (y 1).isLt; omega
  have hnot : y ∉ (cBot : Rect S512x1).set := by
    intro hm
    have h := (Rect.mem_set_unit.mp hm) 0
    have h' : (256 : ℕ) ≤ (y 0).val := h.1
    have := p.isLt
    omega
  have he : y = (cTop : Rect S512x1).emb (ix2 p (0 : Fin 1)) := by
    funext a; apply Fin.ext
    match a with
    | ⟨0, _⟩ => show (y 0).val = 0 + 1 * p.val; omega
    | ⟨1, _⟩ => show (y 1).val = 0 + 1 * 0; omega
  refine (View.canon_cons_of_not_mem (⟨cBot, w1⟩ : View.Piece (Elt Ideal) S512x1 .f32) [⟨cTop, w0⟩] hnot).trans ?_
  rw [he]
  exact View.canon_cons_emb (cTop : Rect S512x1) w0 [] (ix2 p (0 : Fin 1))

theorem col_halves_bot (w1 w0 : Vec Ideal S256x1 .f32) (p : Fin 256) (y : S512x1.Idx) (hy0 : (y 0).val = 256 + p.val) :
    View.canon ([⟨cBot, w1⟩, ⟨cTop, w0⟩] : List (View.Piece (Elt Ideal) S512x1 .f32)) y = w1 (ix2 p (0 : Fin 1)) := by
  have hy1 : (y 1).val = 0 := by have : (y 1).val < 1 := (y 1).isLt; omega
  have he : y = (cBot : Rect S512x1).emb (ix2 p (0 : Fin 1)) := by
    funext a; apply Fin.ext
    match a with
    | ⟨0, _⟩ => show (y 0).val = 256 + 1 * p.val; omega
    | ⟨1, _⟩ => show (y 1).val = 0 + 1 * 0; omega
  rw [he]
  exact View.canon_cons_emb (cBot : Rect S512x1) w1 [⟨cTop, w0⟩] (ix2 p (0 : Fin 1))

/-- The upper half of the 512×2048 buffer holds the first block normalized; -/
theorem out0_2_top (x0 x1 : Vec Ideal S256x2048 .f32) (p : Fin 256) (q : Fin 2048) (y : S512x2048.Idx)
    (hy0 : (y 0).val = p.val) (hy1 : (y 1).val = q.val) :
    out0_2 (F := Ideal) x0 x1 y = Ideal.div (x0 (ix2 p q)) (rowNorm x0 p) := by
  unfold out0_2
  refine (halves_top (k0_pay5 (View.ld x1 rIn)) (k0_pay4 (View.ld x0 rIn)) p q y hy0 hy1).trans ?_
  rw [ld_rIn x0]
  exact normPay4_apply x0 p q

/-- the lower half the second block normalized. -/
theorem out0_2_bot (x0 x1 : Vec Ideal S256x2048 .f32) (p : Fin 256) (q : Fin 2048) (y : S512x2048.Idx)
    (hy0 : (y 0).val = 256 + p.val) (hy1 : (y 1).val = q.val) :
    out0_2 (F := Ideal) x0 x1 y = Ideal.div (x1 (ix2 p q)) (rowNorm x1 p) := by
  unfold out0_2
  refine (halves_bot (k0_pay5 (View.ld x1 rIn)) (k0_pay4 (View.ld x0 rIn)) p q y hy0 hy1).trans ?_
  rw [ld_rIn x1]
  exact normPay5_apply x1 p q

/-- Both halves of the 512×1 buffer hold the column of inner products. -/
theorem out0_3_apply (x0 x1 : Vec Ideal S256x2048 .f32) (p : Fin 256) (y : S512x1.Idx)
    (hy : (y 0).val = p.val ∨ (y 0).val = 256 + p.val) :
    out0_3 (F := Ideal) x0 x1 y
      = ∑ k : Fin 2048, Ideal.div (x0 (ix2 p k)) (rowNorm x0 p) * Ideal.div (x1 (ix2 p k)) (rowNorm x1 p) := by
  unfold out0_3
  rw [ld_rIn x0, ld_rIn x1]
  rcases hy with hy0 | hy0
  · exact (col_halves_top (k0_pay3 x0 x1) (k0_pay3 x0 x1) p y hy0).trans (normPay3_apply x0 x1 p 0)
  · exact (col_halves_bot (k0_pay3 x0 x1) (k0_pay3 x0 x1) p y hy0).trans (normPay3_apply x0 x1 p 0)

/-! ## The index maps, decided over the grid -/

/-- Every window's block index at point `t` is `(t, 0)`. -/
theorem normIdx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## One point's blocks against the specification, entry by entry -/

/-- If the blocks `x0`, `x1` are rows `256t … 256t + 255` of `xi`, `xj`, the 512×2048 buffer the body leaves is
    rows `512t … 512t + 511` of the stacked unit rows. -/
theorem blk2_point (x0 x1 : Vec Ideal S256x2048 .f32) (xi xj : Cert.Spec.Mat) (t : ℕ) (ht : t < 16)
    (h0 : ∀ (y : S256x2048.Idx) (k : S4096x2048.Idx), (k 0).val = 256 * t + (y 0).val → (k 1).val = (y 1).val → x0 y = xi k)
    (h1 : ∀ (y : S256x2048.Idx) (k : S4096x2048.Idx), (k 0).val = 256 * t + (y 0).val → (k 1).val = (y 1).val → x1 y = xj k)
    (y : S512x2048.Idx) (i : S8192x2048.Idx) (hi0 : (i 0).val = 512 * t + (y 0).val) (hi1 : (i 1).val = (y 1).val) :
    out0_2 (F := Ideal) x0 x1 y = Cert.Spec.zMat xi xj i := by
  show out0_2 (F := Ideal) x0 x1 y = Cert.Spec.z xi xj (i 0) (i 1)
  have hy0 : (y 0).val < 512 := (y 0).isLt
  by_cases hlt : (y 0).val < 256
  · have hn : 256 * t + (y 0).val < 4096 := by omega
    refine (out0_2_top x0 x1 ⟨(y 0).val, hlt⟩ (i 1) y rfl hi1.symm).trans ?_
    refine Eq.trans ?_ (z_top xi xj (i 0) (i 1) t (y 0).val hlt hi0 ⟨256 * t + (y 0).val, hn⟩ rfl).symm
    exact unit_of_block x0 xi ⟨(y 0).val, hlt⟩ ⟨256 * t + (y 0).val, hn⟩ (i 1)
      (fun k => h0 (ix2 ⟨(y 0).val, hlt⟩ k) (ix2 ⟨256 * t + (y 0).val, hn⟩ k) rfl rfl)
  · have hr : (y 0).val - 256 < 256 := by omega
    have hn : 256 * t + ((y 0).val - 256) < 4096 := by omega
    refine (out0_2_bot x0 x1 ⟨(y 0).val - 256, hr⟩ (i 1) y (by show (y 0).val = 256 + ((y 0).val - 256); omega) hi1.symm).trans ?_
    refine Eq.trans ?_ (z_bot xi xj (i 0) (i 1) t ((y 0).val - 256) hr (by omega) ⟨256 * t + ((y 0).val - 256), hn⟩ rfl).symm
    exact unit_of_block x1 xj ⟨(y 0).val - 256, hr⟩ ⟨256 * t + ((y 0).val - 256), hn⟩ (i 1)
      (fun k => h1 (ix2 ⟨(y 0).val - 256, hr⟩ k) (ix2 ⟨256 * t + ((y 0).val - 256), hn⟩ k) rfl rfl)

/-- Under the same hypothesis the 512×1 buffer is rows `512t … 512t + 511` of the positive pairs. -/
theorem blk3_point (x0 x1 : Vec Ideal S256x2048 .f32) (xi xj : Cert.Spec.Mat) (t : ℕ) (ht : t < 16)
    (h0 : ∀ (y : S256x2048.Idx) (k : S4096x2048.Idx), (k 0).val = 256 * t + (y 0).val → (k 1).val = (y 1).val → x0 y = xi k)
    (h1 : ∀ (y : S256x2048.Idx) (k : S4096x2048.Idx), (k 0).val = 256 * t + (y 0).val → (k 1).val = (y 1).val → x1 y = xj k)
    (y : S512x1.Idx) (i : S8192x1.Idx) (hi0 : (i 0).val = 512 * t + (y 0).val) :
    out0_3 (F := Ideal) x0 x1 y = Cert.Spec.pos xi xj (i 0) := by
  have hy0 : (y 0).val < 512 := (y 0).isLt
  have hp : (y 0).val % 256 < 256 := Nat.mod_lt _ (by decide)
  refine (out0_3_apply x0 x1 ⟨(y 0).val % 256, hp⟩ y
    (by show (y 0).val = (y 0).val % 256 ∨ (y 0).val = 256 + (y 0).val % 256; omega)).trans ?_
  refine pos_of_blocks x0 x1 xi xj ⟨(y 0).val % 256, hp⟩ (i 0)
    (fun k => h0 (ix2 ⟨(y 0).val % 256, hp⟩ k) (ix2 (Cert.Spec.srcRow (i 0)) k) ?_ rfl)
    (fun k => h1 (ix2 ⟨(y 0).val % 256, hp⟩ k) (ix2 (Cert.Spec.srcRow (i 0)) k) ?_ rfl)
  · show 256 * ((i 0).val / 512) + (i 0).val % 256 = 256 * t + (y 0).val % 256; omega
  · show 256 * ((i 0).val / 512) + (i 0).val % 256 = 256 * t + (y 0).val % 256; omega

section Arrays
variable (V : (c : Dev nD) → (b : Ref sig .tc) → Buf (Elt Ideal) ((c : Thread nD τ).loc b))

/-! ## The input blocks as rows of the arguments -/

/-- The first window's block at point `t` is rows `256t … 256t + 255` of the first argument. -/
theorem iblk0_0_apply (c : Dev nD) (t : Fin cfg0.N) (y : S256x2048.Idx) (k : S4096x2048.Idx)
    (hk0 : (k 0).val = 256 * t.val + (y 0).val) (hk1 : (k 1).val = (y 1).val) :
    (iblk0 V c 0 t : Vec Ideal S256x2048 .f32) y = (V c main_arg0 : S4096x2048.Idx → EReal) k := by
  obtain ⟨e0, e1, -⟩ := normIdx_facts t
  unfold iblk0
  rw [View.read_apply]
  show V c main_arg0 _ = V c main_arg0 _
  congr 1
  funext a
  apply Fin.ext
  match a with
  | ⟨0, _⟩ => show win0_0.index t 0 * 256 + 1 * (y 0).val = (k 0).val; rw [e0, hk0]; omega
  | ⟨1, _⟩ => show win0_0.index t 1 * 2048 + 1 * (y 1).val = (k 1).val; rw [e1, hk1]; omega

/-- The second window's block at point `t` is the same rows of the second argument. -/
theorem iblk0_1_apply (c : Dev nD) (t : Fin cfg0.N) (y : S256x2048.Idx) (k : S4096x2048.Idx)
    (hk0 : (k 0).val = 256 * t.val + (y 0).val) (hk1 : (k 1).val = (y 1).val) :
    (iblk0 V c 1 t : Vec Ideal S256x2048 .f32) y = (V c main_arg1 : S4096x2048.Idx → EReal) k := by
  obtain ⟨-, -, e0, e1, -⟩ := normIdx_facts t
  unfold iblk0
  rw [View.read_apply]
  show V c main_arg1 _ = V c main_arg1 _
  congr 1
  funext a
  apply Fin.ext
  match a with
  | ⟨0, _⟩ => show win0_1.index t 0 * 256 + 1 * (y 0).val = (k 0).val; rw [e0, hk0]; omega
  | ⟨1, _⟩ => show win0_1.index t 1 * 2048 + 1 * (y 1).val = (k 1).val; rw [e1, hk1]; omega

/-! ## What each point writes back -/

theorem point_lt (t : Fin cfg0.N) : t.val < 16 := lt_of_lt_of_eq t.isLt N_0

/-- Point `t` writes back block `t` of the stacked unit rows to the first result, -/
theorem flushed2_eq (c : Dev nD) (t : Fin cfg0.N) :
    (dat0 V c).flushed 2 t
      = ((cfg0.win 2).blk t).view.read (Elt Ideal) (Cert.Spec.zMat (V c main_arg0) (V c main_arg1)) := by
  show (cfg0.win 2).cut (grid0.coords t) ((dat0 V c).after 2 t) = _
  rw [after0_2]
  obtain ⟨-, -, -, -, e0, e1, -⟩ := normIdx_facts t
  funext j
  show out0_2 (F := Ideal) (iblk0 V c 0 t) (iblk0 V c 1 t) j
      = Cert.Spec.zMat (V c main_arg0) (V c main_arg1) (((cfg0.win 2).blk t).view.emb j)
  refine blk2_point (iblk0 V c 0 t) (iblk0 V c 1 t) (V c main_arg0) (V c main_arg1) t.val (point_lt t)
    (fun y k => iblk0_0_apply V c t y k) (fun y k => iblk0_1_apply V c t y k) j (((cfg0.win 2).blk t).view.emb j) ?_ ?_
  · show win0_2.index t 0 * 512 + 1 * (j 0).val = 512 * t.val + (j 0).val; rw [e0]; omega
  · show win0_2.index t 1 * 2048 + 1 * (j 1).val = (j 1).val; rw [e1]; omega

/-- and block `t` of the positive pairs to the second. -/
theorem flushed3_eq (c : Dev nD) (t : Fin cfg0.N) :
    (dat0 V c).flushed 3 t
      = ((cfg0.win 3).blk t).view.read (Elt Ideal)
          (fun i : S8192x1.Idx => Cert.Spec.pos (V c main_arg0) (V c main_arg1) (i 0)) := by
  show (cfg0.win 3).cut (grid0.coords t) ((dat0 V c).after 3 t) = _
  rw [after0_3]
  obtain ⟨-, -, -, -, -, -, e0, e1⟩ := normIdx_facts t
  funext j
  show out0_3 (F := Ideal) (iblk0 V c 0 t) (iblk0 V c 1 t) j
      = Cert.Spec.pos (V c main_arg0) (V c main_arg1) ((((cfg0.win 3).blk t).view.emb j) 0)
  refine blk3_point (iblk0 V c 0 t) (iblk0 V c 1 t) (V c main_arg0) (V c main_arg1) t.val (point_lt t)
    (fun y k => iblk0_0_apply V c t y k) (fun y k => iblk0_1_apply V c t y k) j (((cfg0.win 3).blk t).view.emb j) ?_
  show win0_3.index t 0 * 512 + 1 * (j 0).val = 512 * t.val + (j 0).val; rw [e0]; omega

/-! ## The blocks cover the result arrays -/

theorem mem_blk2 (t : Fin cfg0.N) (i : S8192x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v0_0).slice (win0_2.rect t)).set ↔ _
  rw [View.set_slice_whole, Rect.mem_set_unit]
  exact Iff.rfl

theorem mem_blk3 (t : Fin cfg0.N) (i : S8192x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v0_1).slice (win0_3.rect t)).set ↔ _
  rw [View.set_slice_whole, Rect.mem_set_unit]
  exact Iff.rfl

/-- Row `R` of the first result lies in the block of point `R / 512`. -/
theorem cover2 (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ : ∃ t : Fin cfg0.N, t.val = (i 0).val / 512 :=
    ⟨⟨(i 0).val / 512, lt_of_lt_of_eq (by omega : (i 0).val / 512 < 16) N_0.symm⟩, rfl⟩
  obtain ⟨-, -, -, -, e0, e1, -⟩ := normIdx_facts t
  refine ⟨t, flush0_2 t, ?_⟩
  rw [mem_blk2]
  intro a
  match a with
  | ⟨0, _⟩ =>
    show win0_2.index t (0 : Fin 2) * 512 ≤ (i 0).val ∧ (i 0).val < win0_2.index t (0 : Fin 2) * 512 + 512
    rw [e0, ht]; omega
  | ⟨1, _⟩ =>
    show win0_2.index t (1 : Fin 2) * 2048 ≤ (i 1).val ∧ (i 1).val < win0_2.index t (1 : Fin 2) * 2048 + 2048
    rw [e1]; omega

/-- The same for the second result. -/
theorem cover3 (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  obtain ⟨t, ht⟩ : ∃ t : Fin cfg0.N, t.val = (i 0).val / 512 :=
    ⟨⟨(i 0).val / 512, lt_of_lt_of_eq (by omega : (i 0).val / 512 < 16) N_0.symm⟩, rfl⟩
  obtain ⟨-, -, -, -, -, -, e0, e1⟩ := normIdx_facts t
  refine ⟨t, flush0_3 t, ?_⟩
  rw [mem_blk3]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 1 ≤ (i 1).val ∧ (i 1).val < win0_3.index t (1 : Fin 2) * 1 + 1
    rw [e1]; omega

/-! ## The two result arrays after the region -/

/-- The first result array ends holding the stacked unit rows of the two arguments. -/
theorem zArr (c : Dev nD) :
    ((dat0 (F := Ideal) V c).arrAt 2 cfg0.N : S8192x2048.Idx → EReal)
      = Cert.Spec.zMat (V c main_arg0) (V c main_arg1) :=
  (dat0 (F := Ideal) V c).arrAt_eq_of_cover 2 (Cert.Spec.zMat (V c main_arg0) (V c main_arg1))
    (fun t _ => flushed2_eq V c t) cover2

/-- The second result array ends holding, at row `R`, the positive pair of row `R`. -/
theorem posArr (c : Dev nD) :
    ((dat0 (F := Ideal) V c).arrAt 3 cfg0.N : S8192x1.Idx → EReal)
      = fun i => Cert.Spec.pos (V c main_arg0) (V c main_arg1) (i 0) :=
  (dat0 (F := Ideal) V c).arrAt_eq_of_cover 3 (fun i : S8192x1.Idx => Cert.Spec.pos (V c main_arg0) (V c main_arg1) (i 0))
    (fun t _ => flushed3_eq V c t) cover3

end Arrays

end Cert.KernelIdeal.HandValue

end
-- ==== Proof.LibMatmulRows.lean ====
/-
  A matrix product of the rows of two matrices, read at an index.

  A `tpu.matmul` whose dimension numbers contract axis 1 of the left operand with axis 1 of the right one, with no
  batch axes — an [A, K] matrix against a [B, K] matrix, every row of the first against every row of the second, the
  product a kernel writes as "x · yᵀ" without forming the transpose — into the zero accumulator is, at the ideal values
  and at output position (p, q), the sum over k < K of left(p, k) · right(q, k): the contraction shape has the one axis
  of extent K, and the operand indices at output (p, q) and contraction position k are (p, k) and (q, k).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a product of rows with rows: rows × contraction against rows × contraction. -/
abbrev rows2 (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ := ⟨[1], [1], [0], [0], [], [], wf⟩

/-- Its contraction shape has one axis, -/
theorem rows2_rank (wf : DotDims.WF ⟨2, ![A, K]⟩ ⟨2, ![B, K]⟩ ⟨2, ![A, B]⟩ [1] [1] [0] [0] [] []) :
    (rows2 wf).contr.rank = 1 := rfl

/-- of extent `K`. -/
theorem rows2_size (wf : DotDims.WF ⟨2, ![A, K]⟩ ⟨2, ![B, K]⟩ ⟨2, ![A, B]⟩ [1] [1] [0] [0] [] []) :
    (rows2 wf).contr.size ⟨0, by rw [rows2_rank]; exact Nat.one_pos⟩ = K := rfl

/-- The product into the zero accumulator at (p, q) is `∑ k, l (p, k) * r (q, k)`. -/
theorem matmulRows_zero_apply (wf : DotDims.WF ⟨2, ![A, K]⟩ ⟨2, ![B, K]⟩ ⟨2, ![A, B]⟩ [1] [1] [0] [0] [] [])
    (l : FVec Ideal ⟨2, ![A, K]⟩ φ₁) (r : FVec Ideal ⟨2, ![B, K]⟩ φ₂) (p : Fin A) (q : Fin B) :
    matmul (rows2 wf) none l r (constant ⟨2, ![A, B]⟩ .f32 0x00000000#32) (ix2 p q)
      = ∑ k : Fin K, l (ix2 p k) * r (ix2 q k) := by
  refine (Ideal.matmul_constant_zero_apply (rows2 wf) none l r (ix2 p q)).trans ?_
  refine (Equiv.sum_comp (contrEquiv1 (rows2 wf) K (rows2_rank wf) (rows2_size wf)).symm _).symm.trans ?_
  refine Finset.sum_congr rfl fun k _ => ?_
  have hk := contrEquiv1_symm_val (rows2 wf) K (rows2_rank wf) (rows2_size wf) k
  have hl : (rows2 wf).lhsIdx (ix2 p q) ((contrEquiv1 (rows2 wf) K (rows2_rank wf) (rows2_size wf)).symm k) = ix2 p k := by
    funext a; apply Fin.ext
    match a with
    | ⟨0, _⟩ => simp [DotDims.lhsIdx]; rfl
    | ⟨1, _⟩ => exact (DotDims.lhsIdx_val_of_single (rows2 wf) (cl := 1) rfl (ix2 p q) _).trans hk
  have hr : (rows2 wf).rhsIdx (ix2 p q) ((contrEquiv1 (rows2 wf) K (rows2_rank wf) (rows2_size wf)).symm k) = ix2 q k := by
    funext a; apply Fin.ext
    match a with
    | ⟨0, _⟩ => simp [DotDims.rhsIdx]; rfl
    | ⟨1, _⟩ => exact (DotDims.rhsIdx_val_of_single (rows2 wf) (cr := 1) rfl (ix2 p q) _).trans hk
  show l _ * r _ = _
  rw [hl, hr]

end Cert.Lib

end
-- ==== Proof.Value.Region1Pay.lean ====
import proofs.«107862_j71090298683407_2_alg».proof.Proof.Gen.KernelIdeal.Skeleton
import proofs.«107862_j71090298683407_2_alg».proof.Proof.LibMatmulRows
import proofs.«107862_j71090298683407_2_alg».proof.Proof.LibKeepdims
import proofs.«107862_j71090298683407_2_alg».proof.Proof.Spec
import Idealize.ShloMosaic.Lib.Pipeline.Value

/-!
# The arithmetic of the second pallas_call's body, read entry by entry over the extended reals

The zero start; the exponential of twice the inner product of a row of the row block with a row of the column block;
the accumulator plus the row sums of those exponentials, with the diagonal entries replaced by zero on a diagonal
block and whole elsewhere.
-/

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Cert.KernelIdeal Cert.KernelIdeal.Gen

/-- The accumulator restarts from zero. -/
theorem pay1_eq : (k1_pay1 : FVec Ideal S1024x1 .f32) = fun _ => (0 : EReal) :=
  (shapeCast_self _ shapeCasts_S1024x1_S1024x1).trans (funext fun _ => Ideal.ofBits_zero_f32)

/-- Entry `(p, q)` of the exponentials: `exp` of twice the inner product of row `p` of the row block and row `q` of
    the column block. -/
theorem pay2_apply (x0 x1 : FVec Ideal S1024x2048 .bf16) (p q : Fin 1024) :
    k1_pay2 (F := Ideal) x0 x1 (ix2 p q) = Ideal.exp ((∑ k : Fin 2048, x0 (ix2 p k) * x1 (ix2 q k)) * Cert.Spec.two) := by
  have e0 := shapeCast_self x0 shapeCasts_S1024x2048_S1024x2048
  have e1 := shapeCast_self x1 shapeCasts_S1024x2048_S1024x2048
  show Ideal.exp (matmul dot_S1024x2048_S1024x2048_S1024x1024_1_1_0_0_n_n none (shapeCast S1024x2048 x0 shapeCasts_S1024x2048_S1024x2048) (shapeCast S1024x2048 x1 shapeCasts_S1024x2048_S1024x2048) (constant S1024x1024 .f32 0x00000000#32) (ix2 p q) * Cert.Spec.two) = _
  rw [e0, e1]
  exact congrArg (fun z => Ideal.exp (z * Cert.Spec.two)) (Cert.Lib.matmulRows_zero_apply dot_S1024x2048_S1024x2048_S1024x1024_1_1_0_0_n_n_wf x0 x1 p q)

/-- The mask of a diagonal block at `(p, k)`: the comparison of the two coordinates' words selects the first
    operand exactly when `p = k`. -/
theorem select_coords {α : Type} (p k : Fin 1024) (a b : α) :
    Scalar.select (IntOp.cmpi .eq (BitVec.ofNat 32 p.val) (BitVec.ofNat 32 k.val)) a b = if p = k then a else b := by
  show (if BitVec.ofBool (BitVec.ofNat 32 p.val == BitVec.ofNat 32 k.val) = 1#1 then a else b) = _
  by_cases h : p = k
  · subst h
    rw [beq_self_eq_true, if_pos rfl]
    exact if_pos (by decide)
  · have hne : ¬ BitVec.ofNat 32 p.val = BitVec.ofNat 32 k.val := by
      intro e
      have e' := congrArg BitVec.toNat e
      rw [BitVec.toNat_ofNat, BitVec.toNat_ofNat] at e'
      have hp := p.isLt; have hk := k.isLt
      rw [Nat.mod_eq_of_lt (by omega), Nat.mod_eq_of_lt (by omega)] at e'
      exact h (Fin.ext e')
    have hb : (BitVec.ofNat 32 p.val == BitVec.ofNat 32 k.val) = false := by
      rw [beq_eq_false_iff_ne]; exact hne
    rw [hb, if_neg h]
    exact if_neg (by decide)

/-- The masked exponentials of a diagonal block, as the body builds them. -/
abbrev masked (x0 x1 : FVec Ideal S1024x2048 .bf16) : FVec Ideal S1024x1024 .f32 :=
  select (cmpi .eq (iota .tc S1024x1024 32 [0] iota_S1024x1024_d0_w32) (iota .tc S1024x1024 32 [1] iota_S1024x1024_d1_w32))
    (broadcast S1024x1024 (Scalar.ofBits .f32 0x00000000#32 : Ideal .f32)) (k1_pay2 (F := Ideal) x0 x1)

theorem masked_apply (x0 x1 : FVec Ideal S1024x2048 .bf16) (p k : Fin 1024) :
    masked x0 x1 (ix2 p k) = if p = k then 0 else k1_pay2 (F := Ideal) x0 x1 (ix2 p k) := by
  show Scalar.select (IntOp.cmpi .eq (iota .tc S1024x1024 32 [0] iota_S1024x1024_d0_w32 (ix2 p k)) (iota .tc S1024x1024 32 [1] iota_S1024x1024_d1_w32 (ix2 p k)))
    (Ideal.ofBits .f32 0x00000000#32) (k1_pay2 (F := Ideal) x0 x1 (ix2 p k)) = _
  rw [iota_single_apply, iota_single_apply, Ideal.ofBits_zero_f32]
  exact select_coords p k _ _

/-- On a diagonal block: the accumulator plus, row by row, the exponentials off the diagonal. -/
theorem pay3_apply (x0 x1 : FVec Ideal S1024x2048 .bf16) (s : FVec Ideal S1024x1 .f32) (p : Fin 1024) (u : Fin 1) :
    k1_pay3 (F := Ideal) x0 x1 s (ix2 p u)
      = s (ix2 p u) + ∑ k : Fin 1024, (if p = k then 0 else k1_pay2 (F := Ideal) x0 x1 (ix2 p k)) := by
  have h1 : k1_pay3 (F := Ideal) x0 x1 s
      = addf s (shapeCast S1024x1 (multiReduction .add [1] S1024 (masked x0 x1) 0x00000000#32 reduces_S1024x1024_S1024 (.inl rfl) rfl) shapeCasts_S1024_S1024x1) :=
    shapeCast_self _ shapeCasts_S1024x1_S1024x1
  rw [h1]
  show s (ix2 p u) + shapeCast S1024x1 (multiReduction .add [1] S1024 (masked x0 x1) 0x00000000#32 reduces_S1024x1024_S1024 (.inl rfl) rfl) shapeCasts_S1024_S1024x1 (ix2 p u) = _
  refine congrArg (fun z => s (ix2 p u) + z) ?_
  refine (Cert.Lib.shapeCast_a_a1_apply _ shapeCasts_S1024_S1024x1 p u).trans ?_
  refine (Cert.Lib.rowSum_apply (masked x0 x1) 0x00000000#32 reduces_S1024x1024_S1024 (.inl rfl) rfl p).trans ?_
  exact Finset.sum_congr rfl fun k _ => masked_apply x0 x1 p k

/-- Off the diagonal: the accumulator plus, row by row, all the exponentials. -/
theorem pay4_apply (x0 x1 : FVec Ideal S1024x2048 .bf16) (s : FVec Ideal S1024x1 .f32) (p : Fin 1024) (u : Fin 1) :
    k1_pay4 (F := Ideal) x0 x1 s (ix2 p u)
      = s (ix2 p u) + ∑ k : Fin 1024, k1_pay2 (F := Ideal) x0 x1 (ix2 p k) := by
  have h1 : k1_pay4 (F := Ideal) x0 x1 s
      = addf s (shapeCast S1024x1 (multiReduction .add [1] S1024 (k1_pay2 (F := Ideal) x0 x1) 0x00000000#32 reduces_S1024x1024_S1024 (.inl rfl) rfl) shapeCasts_S1024_S1024x1) :=
    shapeCast_self _ shapeCasts_S1024x1_S1024x1
  rw [h1]
  show s (ix2 p u) + shapeCast S1024x1 (multiReduction .add [1] S1024 (k1_pay2 (F := Ideal) x0 x1) 0x00000000#32 reduces_S1024x1024_S1024 (.inl rfl) rfl) shapeCasts_S1024_S1024x1 (ix2 p u) = _
  refine congrArg (fun z => s (ix2 p u) + z) ?_
  refine (Cert.Lib.shapeCast_a_a1_apply _ shapeCasts_S1024_S1024x1 p u).trans ?_
  exact Cert.Lib.rowSum_apply (k1_pay2 (F := Ideal) x0 x1) 0x00000000#32 reduces_S1024x1024_S1024 (.inl rfl) rfl p

end Cert.KernelIdeal.HandValue

end
-- ==== Proof.Value.Region1Value.lean ====
import proofs.«107862_j71090298683407_2_alg».proof.Proof.KernelIdeal.Region1b
import proofs.«107862_j71090298683407_2_alg».proof.Proof.Value.Region1Pay

/-!
# What the second pallas_call leaves in its output array, over the extended reals

Row `R = 1024·i + p` of the output is written back at the last point of row block `i`, when the accumulator holds the
sum over the eight column blocks `j` and the 1024 rows `q` of each of `exp (2 · ⟨z_R, z_C⟩)`, `C = 1024·j + q`, the
entry `C = R` left out: row `R`'s denominator.
-/

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Cert.KernelIdeal Cert.KernelIdeal.Gen
open Cert.KernelIdeal.Hand

section Region
variable (V : (c : Dev nD) → (b : Ref sig .tc) → Buf (Elt Ideal) ((c : Thread nD τ).loc b))

/-! ## The windows' block indices over the grid -/

/-- The row block follows `i`, the column block `j`, the output block `i`. -/
theorem idx_facts : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- Entry `(p, k)` of the row block at point `t` is entry `(1024·(t / 8) + p, k)` of the stacked rows. -/
theorem blk0_apply (c : Dev nD) (t : Fin cfg1.N) (p : Fin 1024) (k : Fin 2048) (R : Fin 8192) (hR : R.val = 1024 * (t.val / 8) + p.val) :
    (iblk1 V c 0 t : FVec Ideal S1024x2048 .bf16) (ix2 p k) = (V c main_v0_0 : Cert.Spec.Stack) (ix2 R k) := by
  obtain ⟨e0, e1, -⟩ := idx_facts t
  show V c main_v0_0 (((cfg1.win 0).blk t).view.emb (ix2 p k)) = V c main_v0_0 (ix2 R k)
  refine congrArg _ ?_
  funext a; apply Fin.ext
  match a with
  | ⟨0, _⟩ => show win1_0.index t (0 : Fin 2) * 1024 + 1 * p.val = R.val; rw [e0, hR]; omega
  | ⟨1, _⟩ => show win1_0.index t (1 : Fin 2) * 2048 + 1 * k.val = k.val; rw [e1]; omega

/-- Entry `(q, k)` of the column block at point `t` is entry `(1024·(t % 8) + q, k)` of the stacked rows. -/
theorem blk1_apply (c : Dev nD) (t : Fin cfg1.N) (q : Fin 1024) (k : Fin 2048) (C : Fin 8192) (hC : C.val = 1024 * (t.val % 8) + q.val) :
    (iblk1 V c 1 t : FVec Ideal S1024x2048 .bf16) (ix2 q k) = (V c main_v0_0 : Cert.Spec.Stack) (ix2 C k) := by
  obtain ⟨-, -, e2, e3, -⟩ := idx_facts t
  show V c main_v0_0 (((cfg1.win 1).blk t).view.emb (ix2 q k)) = V c main_v0_0 (ix2 C k)
  refine congrArg _ ?_
  funext a; apply Fin.ext
  match a with
  | ⟨0, _⟩ => show win1_1.index t (0 : Fin 2) * 1024 + 1 * q.val = C.val; rw [e2, hC]; omega
  | ⟨1, _⟩ => show win1_1.index t (1 : Fin 2) * 2048 + 1 * k.val = k.val; rw [e3]; omega

end Region

/-! ## One column block's share of a row's denominator -/

/-- Row `C`'s term in row `R`'s denominator. -/
def term (Z : Cert.Spec.Stack) (R C : Fin 8192) : EReal :=
  if C = R then 0 else Ideal.exp (Cert.Spec.simOf Z R C * Cert.Spec.two)

/-- The terms of the 1024 rows of column block `b`. -/
def blockSum (Z : Cert.Spec.Stack) (R : Fin 8192) (b : ℕ) : EReal :=
  ∑ q : Fin 1024, if h : 1024 * b + q.val < 8192 then term Z R ⟨1024 * b + q.val, h⟩ else 0

/-- The eight column blocks' shares add up to the denominator: the rows `C = 1024·b + q` are all the rows. -/
theorem sum_blocks (Z : Cert.Spec.Stack) (R : Fin 8192) :
    ∑ b ∈ Finset.range 8, blockSum Z R b = Cert.Spec.denomOf Z R := by
  unfold blockSum Cert.Spec.denomOf
  rw [← Fin.sum_univ_eq_sum_range (fun b => ∑ q : Fin 1024, if h : 1024 * b + q.val < 8192 then term Z R ⟨1024 * b + q.val, h⟩ else 0) 8]
  rw [← Fintype.sum_prod_type' (f := fun (b : Fin 8) (q : Fin 1024) => if h : 1024 * b.val + q.val < 8192 then term Z R ⟨1024 * b.val + q.val, h⟩ else 0)]
  rw [← Equiv.sum_comp (finProdFinEquiv : Fin 8 × Fin 1024 ≃ Fin 8192) (fun C => if C = R then 0 else Ideal.exp (Cert.Spec.simOf Z R C * Cert.Spec.two))]
  refine Finset.sum_congr rfl fun x _ => ?_
  have h1 := x.1.isLt; have h2 := x.2.isLt
  have h : 1024 * x.1.val + x.2.val < 8192 := by omega
  rw [dif_pos h]; unfold term
  have hx : (⟨1024 * x.1.val + x.2.val, h⟩ : Fin 8192) = (finProdFinEquiv : Fin 8 × Fin 1024 ≃ Fin 8192) x := by
    apply Fin.ext; show 1024 * x.1.val + x.2.val = x.2.val + 1024 * x.1.val; omega
  rw [hx]

section Region
variable (V : (c : Dev nD) → (b : Ref sig .tc) → Buf (Elt Ideal) ((c : Thread nD τ).loc b))

/-- One point's contribution: the accumulator gains column block `t % 8`'s share of the denominator of row
    `1024·(t / 8) + p`. On a diagonal block the masked entry `p = q` is the row itself, the entry the denominator
    leaves out; off the diagonal no row of the column block is the row itself. -/
theorem step_apply (c : Dev nD) (t : Fin cfg1.N) (s : FVec Ideal S1024x1 .f32) (p : Fin 1024) (u : Fin 1)
    (R : Fin 8192) (hR : R.val = 1024 * (t.val / 8) + p.val) :
    accStep V c t s (ix2 p u) = s (ix2 p u) + blockSum (V c main_v0_0) R (t.val % 8) := by
  have hN : t.val < 64 := lt_of_lt_of_eq t.isLt N_1
  have hp := p.isLt
  unfold accStep blockSum
  by_cases h : t.val / 8 = t.val % 8
  · rw [if_pos h]
    refine (pay3_apply (iblk1 V c 0 t) (iblk1 V c 1 t) s p u).trans ?_
    refine congrArg (fun z => s (ix2 p u) + z) (Finset.sum_congr rfl fun k _ => ?_)
    have hk := k.isLt
    have hC : 1024 * (t.val % 8) + k.val < 8192 := by omega
    rw [dif_pos hC]; unfold term
    by_cases hpk : p = k
    · have hCR : (⟨1024 * (t.val % 8) + k.val, hC⟩ : Fin 8192) = R :=
        Fin.ext (by show 1024 * (t.val % 8) + k.val = R.val; rw [hR, ← hpk]; omega)
      rw [if_pos hpk, if_pos hCR]
    · have hCR : ¬ (⟨1024 * (t.val % 8) + k.val, hC⟩ : Fin 8192) = R := fun e => hpk (Fin.ext (by
        have e' : 1024 * (t.val % 8) + k.val = R.val := congrArg Fin.val e
        rw [hR] at e'; omega))
      rw [if_neg hpk, if_neg hCR]
      refine (pay2_apply (iblk1 V c 0 t) (iblk1 V c 1 t) p k).trans ?_
      refine congrArg (fun z => Ideal.exp (z * Cert.Spec.two)) ?_
      unfold Cert.Spec.simOf
      exact Finset.sum_congr rfl fun d _ => by
        rw [blk0_apply V c t p d R hR, blk1_apply V c t k d ⟨1024 * (t.val % 8) + k.val, hC⟩ rfl]
  · rw [if_neg h]
    refine (pay4_apply (iblk1 V c 0 t) (iblk1 V c 1 t) s p u).trans ?_
    refine congrArg (fun z => s (ix2 p u) + z) (Finset.sum_congr rfl fun k _ => ?_)
    have hk := k.isLt
    have hC : 1024 * (t.val % 8) + k.val < 8192 := by omega
    rw [dif_pos hC]; unfold term
    have hCR : ¬ (⟨1024 * (t.val % 8) + k.val, hC⟩ : Fin 8192) = R := fun e => h (by
      have e' : 1024 * (t.val % 8) + k.val = R.val := congrArg Fin.val e
      rw [hR] at e'; omega)
    rw [if_neg hCR]
    refine (pay2_apply (iblk1 V c 0 t) (iblk1 V c 1 t) p k).trans ?_
    refine congrArg (fun z => Ideal.exp (z * Cert.Spec.two)) ?_
    unfold Cert.Spec.simOf
    exact Finset.sum_congr rfl fun d _ => by
      rw [blk0_apply V c t p d R hR, blk1_apply V c t k d ⟨1024 * (t.val % 8) + k.val, hC⟩ rfl]

/-- The accumulator at equal positions is the same. -/
theorem accAt_congr (c : Dev nD) {n n' : ℕ} (e : n = n') (h : n < cfg1.N) (h' : n' < cfg1.N) : accAt V c n h = accAt V c n' h' := by
  subst e; rfl

/-- THE ACCUMULATION over a row of blocks: after the point `(a, n)` the accumulator's row `p` holds the shares of
    column blocks `0 … n` of the denominator of row `1024·a + p`. -/
theorem acc_apply (c : Dev nD) (a : ℕ) (ha : a < 8) (p : Fin 1024) (u : Fin 1) (R : Fin 8192) (hR : R.val = 1024 * a + p.val) :
    ∀ (n : ℕ) (hn : n < 8) (h : 8 * a + n < cfg1.N),
      accAt V c (8 * a + n) h (ix2 p u) = ∑ b ∈ Finset.range (n + 1), blockSum (V c main_v0_0) R b := by
  intro n
  induction n with
  | zero =>
    intro _ h
    have e := accAfter_restart V c ⟨8 * a + 0, h⟩ (by show (8 * a + 0) % 8 = 0; omega)
    have e' : accAt V c (8 * a + 0) h = accStep V c ⟨8 * a + 0, h⟩ (k1_pay1 (F := Ideal)) := e
    rw [e', step_apply V c ⟨8 * a + 0, h⟩ (k1_pay1 (F := Ideal)) p u R (by show R.val = 1024 * ((8 * a + 0) / 8) + p.val; rw [hR]; omega)]
    rw [pay1_eq, Finset.sum_range_succ, Finset.sum_range_zero]
    show (0 : EReal) + blockSum (V c main_v0_0) R ((8 * a + 0) % 8) = _
    rw [show (8 * a + 0) % 8 = 0 from by omega]
  | succ n ih =>
    intro hn h
    have hprev : 8 * a + n < cfg1.N := lt_of_lt_of_eq (by omega) N_1.symm
    have e := accAfter_continue V c ⟨8 * a + (n + 1), h⟩ (by show ¬ (8 * a + (n + 1)) % 8 = 0; omega)
    have e' : accAt V c (8 * a + (n + 1)) h
        = accStep V c ⟨8 * a + (n + 1), h⟩ (accAt V c (8 * a + (n + 1) - 1) (Nat.lt_of_le_of_lt (Nat.sub_le _ _) h)) := e
    rw [e', step_apply V c ⟨8 * a + (n + 1), h⟩ _ p u R (by show R.val = 1024 * ((8 * a + (n + 1)) / 8) + p.val; rw [hR]; omega)]
    rw [accAt_congr V c (show 8 * a + (n + 1) - 1 = 8 * a + n from by omega) _ hprev, ih (by omega) hprev]
    rw [Finset.sum_range_succ _ (n + 1)]
    show _ + blockSum (V c main_v0_0) R ((8 * a + (n + 1)) % 8) = _
    rw [show (8 * a + (n + 1)) % 8 = n + 1 from by omega]

/-- At the last point of a row of blocks the accumulator's row `p` is the denominator of row `1024·(t / 8) + p`. -/
theorem accAfter_last (c : Dev nD) (t : Fin cfg1.N) (ht : t.val % 8 = 7) (p : Fin 1024) (u : Fin 1)
    (R : Fin 8192) (hR : R.val = 1024 * (t.val / 8) + p.val) :
    accAfter V c t (ix2 p u) = Cert.Spec.denomOf (V c main_v0_0) R := by
  have hN : t.val < 64 := lt_of_lt_of_eq t.isLt N_1
  have hpt : 8 * (t.val / 8) + 7 < cfg1.N := lt_of_lt_of_eq (by omega) N_1.symm
  have e : accAfter V c t = accAt V c (8 * (t.val / 8) + 7) hpt :=
    accAt_congr V c (show t.val = 8 * (t.val / 8) + 7 from by omega) t.isLt hpt
  rw [e, acc_apply V c (t.val / 8) (by omega) p u R hR 7 (by omega) hpt]
  exact sum_blocks (V c main_v0_0) R

/-! ## From the blocks to the array -/

/-- What a point that writes back writes is its block of the denominators. -/
theorem flushed_eq (c : Dev nD) (t : Fin cfg1.N) (hf : (cfg1.win 2).flush t = true) :
    (dat1 V c).flushed 2 t = ((cfg1.win 2).blk t).view.read (Elt Ideal) (fun i : S8192x1.Idx => Cert.Spec.denomOf (V c main_v0_0) (i 0)) := by
  show (cfg1.win 2).cut (grid1.coords t) ((dat1 V c).after 2 t) = _
  rw [after1_2]
  obtain ⟨-, -, -, -, e4, e5⟩ := idx_facts t
  have ht := (flush1_2 t).mp hf
  have hN : t.val < 64 := lt_of_lt_of_eq t.isLt N_1
  funext y
  have hy : (y : S1024x1.Idx) = ix2 (y 0 : Fin 1024) (y 1 : Fin 1) := eq_ix2 (n0 := 1024) (n1 := 1) y
  have hy0 : ((y 0 : Fin 1024)).val < 1024 := (y 0 : Fin 1024).isLt
  let R : Fin 8192 := ⟨1024 * (t.val / 8) + (y 0 : Fin 1024).val, by omega⟩
  show accAfter V c t y = Cert.Spec.denomOf (V c main_v0_0) ((((cfg1.win 2).blk t).view.emb y) 0)
  have hemb : (((cfg1.win 2).blk t).view.emb y) 0 = R := by
    apply Fin.ext
    show win1_2.index t (0 : Fin 2) * 1024 + 1 * (y 0 : Fin 1024).val = 1024 * (t.val / 8) + (y 0 : Fin 1024).val
    rw [e4]; omega
  rw [hemb, hy]
  exact accAfter_last V c t ht (y 0) (y 1) R rfl

/-- An index of the output array is in point `t`'s block iff each coordinate is in the block's range. -/
theorem mem_blk (t : Fin cfg1.N) (i : S8192x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v1).slice (win1_2.rect t)).set ↔ _
  rw [View.set_slice_whole, Rect.mem_set_unit]
  exact Iff.rfl

/-- Every row is written back: row `r` at the last point of row block `r / 1024`. -/
theorem cover (i : S8192x1.Idx) : ∃ t : Fin cfg1.N, (cfg1.win 2).flush t = true ∧ i ∈ ((cfg1.win 2).blk t).view.set := by
  have hi0 : (i 0).val < 8192 := (i 0).isLt
  have hi1 : (i 1).val < 1 := (i 1).isLt
  have hpt : 8 * ((i 0).val / 1024) + 7 < cfg1.N := lt_of_lt_of_eq (by omega) N_1.symm
  refine ⟨⟨8 * ((i 0).val / 1024) + 7, hpt⟩, (flush1_2 _).mpr (by show (8 * ((i 0).val / 1024) + 7) % 8 = 7; omega), ?_⟩
  rw [mem_blk]
  obtain ⟨-, -, -, -, e4, e5⟩ := idx_facts ⟨8 * ((i 0).val / 1024) + 7, hpt⟩
  intro a
  match a with
  | ⟨0, _⟩ =>
    show win1_2.index ⟨8 * ((i 0).val / 1024) + 7, hpt⟩ (0 : Fin 2) * 1024 ≤ (i 0).val ∧ (i 0).val < win1_2.index ⟨8 * ((i 0).val / 1024) + 7, hpt⟩ (0 : Fin 2) * 1024 + 1024
    rw [e4]; show (8 * ((i 0).val / 1024) + 7) / 8 * 1024 ≤ (i 0).val ∧ (i 0).val < (8 * ((i 0).val / 1024) + 7) / 8 * 1024 + 1024; omega
  | ⟨1, _⟩ =>
    show win1_2.index ⟨8 * ((i 0).val / 1024) + 7, hpt⟩ (1 : Fin 2) * 1 ≤ (i 1).val ∧ (i 1).val < win1_2.index ⟨8 * ((i 0).val / 1024) + 7, hpt⟩ (1 : Fin 2) * 1 + 1
    rw [e5]; omega

/-- THE OUTPUT ARRAY after the region: every row's denominator over the stacked rows the region found. -/
theorem denomArr (c : Dev nD) :
    ((dat1 (F := Ideal) V c).arrAt 2 cfg1.N : S8192x1.Idx → EReal) = fun i => Cert.Spec.denomOf (V c main_v0_0) (i 0) :=
  (dat1 V c).arrAt_eq_of_cover 2 _ (fun t hf => flushed_eq V c t hf) cover

end Region

end Cert.KernelIdeal.HandValue

end
-- ==== Proof.Value.Tail.lean ====
import proofs.«107862_j71090298683407_2_alg».proof.Proof.Gen.KernelIdeal
import proofs.«107862_j71090298683407_2_alg».proof.Proof.Spec
import Idealize.ShloMosaic.Lib.ValueIdx
import Idealize.ShloMosaic.PureOps.Ideal.Laws

/-!
# The host operations after the two regions, as one function

From the column of denominators `D` and the column of positives `P` (both 8192 × 1) the program computes
`(0 + ∑ over every entry of (log D − P · 2)) / 8192`. Read at the ideal instance this is the loss of the
specification once `D` and `P` are its denominators and positives.
-/

noncomputable section

open scoped BigOperators

namespace Cert.KernelIdeal.HandValue

open Cert.KernelIdeal Cert.KernelIdeal.Gen
open Idealize.ShloMosaic Idealize.ShloMosaic.ValueIdx

/-- The nine host operations composed, over the two columns they read. -/
def tail (D P : FVec Ideal S8192x1 .f32) : FVec Ideal S_ .f32 :=
  Host.divf
    (Host.reduceAdd
      (subf (Host.log D) (mulf P (broadcastInDim S8192x1 ![] bcast_S_S8192x1 (constant (F := Ideal) S_ .f32 0x40000000#32))))
      (constant (F := Ideal) S_ .f32 0x00000000#32) reducesTo_S8192x1_S_d0_1 h_S_)
    (constant (F := Ideal) S_ .f32 0x46000000#32)

/-- A sum over the entries of a column is the sum over its rows. -/
theorem sum_column {M : Type*} [AddCommMonoid M] (f : S8192x1.Idx → M) : ∑ j : S8192x1.Idx, f j = ∑ R : Fin 8192, f (ix2 R 0) := by
  rw [sum_idx2]
  simp only [Fin.sum_univ_one, Fin.isValue]

/-- The composed host operations at the ideal instance. -/
theorem tail_apply (D P : FVec Ideal S8192x1 .f32) (i : S_.Idx) :
    tail D P i = Ideal.div (∑ R : Fin 8192, (Ideal.log (D (ix2 R 0)) - P (ix2 R 0) * Cert.Spec.two)) Cert.Spec.cnt := by
  unfold tail
  simp only [Host.divf, Host.reduceAdd, Ideal.hostReduceAdd_def, Ideal.hostDivf_def]
  rw [Ideal.hostReduceAdd_total reducesTo_S8192x1_S_d0_1 (fun b => b.elim0) _ _ i]
  rw [sum_column]
  simp only [subf, mulf, Host.log, broadcastInDim, constant, Ideal.hostUnary_log_def, Ideal.ofBits_def, Ideal.subf_def,
    Ideal.mulf_def, Ideal.ofBits_zero_f32, zero_add]

end Cert.KernelIdeal.HandValue

end
-- ==== Proof.Value.TailRun.lean ====
import proofs.«107862_j71090298683407_2_alg».proof.Proof.KernelIdeal.Run
import proofs.«107862_j71090298683407_2_alg».proof.Proof.Value.Tail
import Idealize.ShloMosaic.Lib.StableHlo.Run

/-!
# The result buffer at the end of the run

The last valuation is the one before it after the nine host operations; at the result buffer those compose to the
function `tail` of the second region's result column and the first region's positives column.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo

variable {m : (ℓ : Loc nD τ sig) → Buf (Elt Ideal) ℓ} (D0 : Data0 (F := Ideal) m) (D1 : Data1 D0)

/-- The result buffer after the host operations: `tail` of the denominators' and the positives' columns. -/
theorem W3_v7 (c : Dev nD) :
    (W3 D0 D1 c (Proc.devRef .tc main_v7) : S_.Idx → EReal)
      = tail (W2 D0 D1 c (Proc.devRef .tc main_v1)) (W2 D0 D1 c (Proc.devRef .tc main_v0_1)) := by
  show StableHlo.after hostOps2 _ (Proc.devRef .tc main_v7) = _
  after_results
  rfl

end Cert.KernelIdeal.HandValue

end
-- ==== Proof.Value.KernelValue.lean ====
import proofs.«107862_j71090298683407_2_alg».proof.Proof.KernelIdeal.Frame
import proofs.«107862_j71090298683407_2_alg».proof.Proof.Value.Region0Value
import proofs.«107862_j71090298683407_2_alg».proof.Proof.Value.Region1Value
import proofs.«107862_j71090298683407_2_alg».proof.Proof.Value.TailRun

/-!
# What the idealized kernel computes

At the ideal instance the first region leaves the stacked unit rows `zMat` and the positives' column, the second
region the denominators' column over those stacked rows, and the host operations the mean of
`log denominator − 2 · positive`: the loss of the specification, of the two argument arrays as launched.
-/

noncomputable section

namespace Cert.KernelIdeal.HandValue

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ)

/-- The stacked unit rows, as the second region finds them. -/
theorem entry_z (c : Dev nD) :
    (V1 (data0 m) c main_v0_0 : S8192x2048.Idx → EReal)
      = Cert.Spec.zMat (m ((c.tc : Thread nD τ).loc main_arg0)) (m ((c.tc : Thread nD τ).loc main_arg1)) :=
  (W1_arr (data0 m) c 2).trans (zArr (V0 m) c)

/-- The positives' column, as the host operations find it: the second region bypasses it. -/
theorem exit_pos (c : Dev nD) :
    (W2 (data0 m) (data1 m) c (Proc.devRef .tc main_v0_1) : S8192x1.Idx → EReal)
      = fun i => Cert.Spec.pos (m ((c.tc : Thread nD τ).loc main_arg0)) (m ((c.tc : Thread nD τ).loc main_arg1)) (i 0) :=
  (W2_of_ne (data0 m) (data1 m) c main_v0_1 (by decide)).trans ((W1_arr (data0 m) c 3).trans (posArr (V0 m) c))

/-- The denominators' column, as the host operations find it. -/
theorem exit_denom (c : Dev nD) :
    (W2 (data0 m) (data1 m) c (Proc.devRef .tc main_v1) : S8192x1.Idx → EReal)
      = fun i => Cert.Spec.denom (m ((c.tc : Thread nD τ).loc main_arg0)) (m ((c.tc : Thread nD τ).loc main_arg1)) (i 0) := by
  refine (W2_v1 (data0 m) (data1 m) c).trans ((denomArr (V1 (data0 m)) c).trans ?_)
  rw [entry_z m c]
  rfl

/-- The result buffer at the end of the run: the specification's loss of the launch arguments. -/
theorem result (c : Dev nD) :
    (W3 (data0 m) (data1 m) c (Proc.devRef .tc main_v7) : S_.Idx → EReal)
      = fun _ => Cert.Spec.loss (m ((c.tc : Thread nD τ).loc main_arg0)) (m ((c.tc : Thread nD τ).loc main_arg1)) := by
  rw [W3_v7 (data0 m) (data1 m) c]
  funext i
  rw [tail_apply, exit_denom m c, exit_pos m c]
  rfl

/-- The idealized kernel's run with its result named: every weakly fair execution terminates, nothing faulting, the
    result at the specification's loss and the two arguments as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v7)
        = (fun _ => Cert.Spec.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v7 (by decide))).trans (result m c),
     (h c _ (mem_uc main_arg0 (by decide))).trans (W3_arg0 (data0 m) (data1 m) c),
     (h c _ (mem_uc main_arg1 (by decide))).trans (W3_arg1 (data0 m) (data1 m) c)⟩)
    (run_main m ρ)

end Cert.KernelIdeal.HandValue

end
-- ==== Proof.LibRefReads.lean ====
import Idealize.ShloMosaic.PureOps.Ideal
import Idealize.ShloMosaic.PureOps.Ideal.Laws
import Idealize.ShloMosaic.Lib.ValueIdx
import Idealize.ShloMosaic.Lib.Pipeline.Value

/-!
# Small general facts for reading a host program index by index

A sum over a rank-1 index set is the sum over its coordinate. The words a `jnp.diagonal` builds its start indices
from: a number below `2³¹`, as a 32-bit word, is not below zero in the signed order and reads back as itself. The
float made from the bit "two numbers are equal" is `1` or `0`. A two-column `gather` out of a matrix reads the
matrix at the row and the column its start indices name. A concatenation of two pieces — matrices stacked by rows,
vectors laid end to end, one-column matrices set side by side — read at an index is the piece the index falls in.
-/

noncomputable section

open scoped BigOperators

namespace Cert.RefLib

open Idealize.ShloMosaic Idealize.ShloMosaic.ValueIdx

/-! ## Rank-1 index sets -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Words -/

/-- A number below `2³¹`, as a 32-bit word, is not below zero in the signed order. -/
theorem toInt_ofNat32 (n : Nat) (hn : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1, if_pos (by omega)]

theorem cmpi_slt_ofNat_zero (n : Nat) (hn : n < 2 ^ 31) : IntOp.cmpi .slt (BitVec.ofNat 32 n) 0#32 = 0#1 := by
  have h : (BitVec.ofNat 32 n).slt 0#32 = false := by
    rw [BitVec.slt, toInt_ofNat32 n hn]
    simp only [BitVec.toInt_zero, decide_eq_false_iff_not, not_lt]
    omega
  show BitVec.ofBool ((BitVec.ofNat 32 n).slt 0#32) = 0#1
  rw [h]; rfl

/-- … and read back as a signed integer it is the number. -/
theorem toInt_toNat_ofNat (n : Nat) (hn : n < 2 ^ 31) : (BitVec.ofNat 32 n).toInt.toNat = n := by
  rw [toInt_ofNat32 n hn]; rfl

/-- The sum of two 32-bit words that are numbers with a sum below `2³²` is the word of the sum. -/
theorem addi_ofNat (a b : Nat) : IntOp.addi (BitVec.ofNat 32 a) (BitVec.ofNat 32 b) = BitVec.ofNat 32 (a + b) := by
  show BitVec.ofNat 32 a + BitVec.ofNat 32 b = _
  rw [BitVec.ofNat_add]

/-- The float made from the bit "the words of `a` and `b` are equal" is `1` when `a = b` and `0` otherwise. -/
theorem uitofp_cmpi_eq (a b : Nat) (ha : a < 2 ^ 32) (hb : b < 2 ^ 32) :
    FloatOps.uitofp (F := Ideal) .f32 (IntOp.cmpi .eq (BitVec.ofNat 32 a) (BitVec.ofNat 32 b))
      = if a = b then (1 : EReal) else 0 := by
  show (((BitVec.ofBool (BitVec.ofNat 32 a == BitVec.ofNat 32 b)).toNat : ℝ) : EReal) = _
  by_cases h : a = b
  · subst h; simp
  · have hne : BitVec.ofNat 32 a ≠ BitVec.ofNat 32 b := by
      intro e
      have := congrArg BitVec.toNat e
      simp only [BitVec.toNat_ofNat] at this
      rw [Nat.mod_eq_of_lt ha, Nat.mod_eq_of_lt hb] at this
      exact h this
    simp [h, hne]

section Pick
variable {α : Type}

/-- The dimension numbers of a `gather` that picks single entries out of a matrix `[N, M]`: start indices `[R, 2]`
    (row and column per result entry), both operand axes collapsed, result `[R]`. -/
abbrev pickDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

theorem pick_coord0 {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    (pickDims N M R wf).start (ix1 r) idx 0 + (pickDims N M R wf).batchCoord (ix1 r) 0
      + (pickDims N M R wf).offCoord (ix1 r) 0 = min (idx (ix2 r 0)).toInt.toNat (N - 1) := by
  have hm : (0 : Fin 2) ∈ (pickDims N M R wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (pickDims N M R wf).siIdx (ix1 r) ⟨List.idxOf (0 : Fin 2) (pickDims N M R wf).startIndexMap,
      List.idxOf_lt_length_iff.2 hm⟩ = ix2 r 0 := by
    funext b; refine Fin.ext ?_
    match b with
    | ⟨0, _⟩ => rfl
    | ⟨1, _⟩ => rfl
  rw [hsi]
  rfl

theorem pick_coord1 {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (r : Fin R) :
    (pickDims N M R wf).start (ix1 r) idx 1 + (pickDims N M R wf).batchCoord (ix1 r) 1
      + (pickDims N M R wf).offCoord (ix1 r) 1 = min (idx (ix2 r 1)).toInt.toNat (M - 1) := by
  have hm : (1 : Fin 2) ∈ (pickDims N M R wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (pickDims N M R wf).siIdx (ix1 r) ⟨List.idxOf (1 : Fin 2) (pickDims N M R wf).startIndexMap,
      List.idxOf_lt_length_iff.2 hm⟩ = ix2 r 1 := by
    funext b; refine Fin.ext ?_
    match b with
    | ⟨0, _⟩ => rfl
    | ⟨1, _⟩ => rfl
  rw [hsi]
  rfl

/-- Such a gather at result entry `r` reads the matrix at the row `idx[r, 0]` and the column `idx[r, 1]`, each read
    as a signed integer and clamped into the matrix. -/
theorem gather_pick_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pickDims N M R wf) x idx (ix1 r)
      = x (ix2 (⟨min (idx (ix2 r 0)).toInt.toNat (N - 1), by omega⟩ : Fin N)
               (⟨min (idx (ix2 r 1)).toInt.toNat (M - 1), by omega⟩ : Fin M)) := by
  unfold Host.gather
  congr 1
  funext a
  refine Fin.ext ?_
  match a with
  | ⟨0, _⟩ => exact pick_coord0 wf idx r
  | ⟨1, _⟩ => exact pick_coord1 wf idx r

end Pick

section Concat
variable {α : Type}

/-- Two matrices stacked by rows, read at a row of the first: that row of the first. -/
theorem concat_rows_left {n1 n2 n m : Nat}
    (h : Shape.Concatenates [(⟨2, ![n1, m]⟩ : Shape), ⟨2, ![n2, m]⟩] ⟨2, ![n, m]⟩ 0)
    (a : (⟨2, ![n1, m]⟩ : Shape).Idx → α) (b : (⟨2, ![n2, m]⟩ : Shape).Idx → α) (R : Fin n) (d : Fin m)
    (hR : R.val < n1) :
    concatenate ⟨2, ![n, m]⟩ 0 [⟨⟨2, ![n1, m]⟩, a⟩, ⟨⟨2, ![n2, m]⟩, b⟩] h (ix2 R d) = a (ix2 ⟨R.val, hR⟩ d) :=
  concatenate_pair_apply_left 0 a b h (ix2 R d) rfl (ix2 ⟨R.val, hR⟩ d)
    (fun c => match c with | ⟨0, _⟩ => rfl | ⟨1, _⟩ => rfl)

/-- … and at a row past the first: the second's row, the first's row count less. -/
theorem concat_rows_right {n1 n2 n m : Nat}
    (h : Shape.Concatenates [(⟨2, ![n1, m]⟩ : Shape), ⟨2, ![n2, m]⟩] ⟨2, ![n, m]⟩ 0)
    (a : (⟨2, ![n1, m]⟩ : Shape).Idx → α) (b : (⟨2, ![n2, m]⟩ : Shape).Idx → α) (R : Fin n) (d : Fin m)
    (hR : n1 ≤ R.val) (hlt : R.val - n1 < n2) :
    concatenate ⟨2, ![n, m]⟩ 0 [⟨⟨2, ![n1, m]⟩, a⟩, ⟨⟨2, ![n2, m]⟩, b⟩] h (ix2 R d) = b (ix2 ⟨R.val - n1, hlt⟩ d) :=
  concatenate_pair_apply_right 0 a b h (ix2 R d) rfl rfl (ix2 ⟨R.val - n1, hlt⟩ d)
    (fun c hc => match c, hc with
      | ⟨0, _⟩, hc => absurd rfl hc
      | ⟨1, _⟩, _ => rfl)
    (by show (R.val - n1) + n1 = R.val; omega)

/-- Two vectors laid end to end, read in the first … -/
theorem concat_vec_left {n1 n2 n : Nat}
    (h : Shape.Concatenates [(⟨1, ![n1]⟩ : Shape), ⟨1, ![n2]⟩] ⟨1, ![n]⟩ 0)
    (a : (⟨1, ![n1]⟩ : Shape).Idx → α) (b : (⟨1, ![n2]⟩ : Shape).Idx → α) (R : Fin n) (hR : R.val < n1) :
    concatenate ⟨1, ![n]⟩ 0 [⟨⟨1, ![n1]⟩, a⟩, ⟨⟨1, ![n2]⟩, b⟩] h (ix1 R) = a (ix1 ⟨R.val, hR⟩) :=
  concatenate_pair_apply_left 0 a b h (ix1 R) rfl (ix1 ⟨R.val, hR⟩)
    (fun c => match c with | ⟨0, _⟩ => rfl)

/-- … and past it. -/
theorem concat_vec_right {n1 n2 n : Nat}
    (h : Shape.Concatenates [(⟨1, ![n1]⟩ : Shape), ⟨1, ![n2]⟩] ⟨1, ![n]⟩ 0)
    (a : (⟨1, ![n1]⟩ : Shape).Idx → α) (b : (⟨1, ![n2]⟩ : Shape).Idx → α) (R : Fin n)
    (hR : n1 ≤ R.val) (hlt : R.val - n1 < n2) :
    concatenate ⟨1, ![n]⟩ 0 [⟨⟨1, ![n1]⟩, a⟩, ⟨⟨1, ![n2]⟩, b⟩] h (ix1 R) = b (ix1 ⟨R.val - n1, hlt⟩) :=
  concatenate_pair_apply_right 0 a b h (ix1 R) rfl rfl (ix1 ⟨R.val - n1, hlt⟩)
    (fun c hc => match c, hc with
      | ⟨0, _⟩, hc => absurd rfl hc)
    (by show (R.val - n1) + n1 = R.val; omega)

/-- Two one-column matrices set side by side: column 0 is the first … -/
theorem concat_cols_left {n : Nat}
    (h : Shape.Concatenates [(⟨2, ![n, 1]⟩ : Shape), ⟨2, ![n, 1]⟩] ⟨2, ![n, 2]⟩ 1)
    (a b : (⟨2, ![n, 1]⟩ : Shape).Idx → α) (r : Fin n) :
    concatenate ⟨2, ![n, 2]⟩ 1 [⟨⟨2, ![n, 1]⟩, a⟩, ⟨⟨2, ![n, 1]⟩, b⟩] h (ix2 r 0) = a (ix2 r 0) :=
  concatenate_pair_apply_left 1 a b h (ix2 r 0) rfl (ix2 r 0)
    (fun c => match c with | ⟨0, _⟩ => rfl | ⟨1, _⟩ => rfl)

/-- … and column 1 the second. -/
theorem concat_cols_right {n : Nat}
    (h : Shape.Concatenates [(⟨2, ![n, 1]⟩ : Shape), ⟨2, ![n, 1]⟩] ⟨2, ![n, 2]⟩ 1)
    (a b : (⟨2, ![n, 1]⟩ : Shape).Idx → α) (r : Fin n) :
    concatenate ⟨2, ![n, 2]⟩ 1 [⟨⟨2, ![n, 1]⟩, a⟩, ⟨⟨2, ![n, 1]⟩, b⟩] h (ix2 r 1) = b (ix2 r 0) :=
  concatenate_pair_apply_right 1 a b h (ix2 r 1) rfl rfl (ix2 r 0)
    (fun c hc => match c, hc with
      | ⟨0, _⟩, _ => rfl
      | ⟨1, _⟩, hc => absurd rfl hc)
    (by rfl)

end Concat

end Cert.RefLib

end
-- ==== Proof.RefRows.lean ====
import proofs.«107862_j71090298683407_2_alg».proof.Proof.Gen.ReferenceIdeal.Read
import proofs.«107862_j71090298683407_2_alg».proof.Proof.Spec
import proofs.«107862_j71090298683407_2_alg».proof.Proof.LibRefReads

/-!
# The reference's stacked unit rows and their pairwise inner products

Each argument's row is divided by its Euclidean norm clamped below by `ε`; the two normalized matrices are stacked,
the first on top; the product of the stack with its transpose holds every pairwise inner product of the rows.
-/

noncomputable section

open scoped BigOperators

namespace Cert.ReferenceIdeal.RefValue

open Cert.ReferenceIdeal Cert.ReferenceIdeal.Gen Cert.ReferenceIdeal.Read Idealize.ShloMosaic
  Idealize.ShloMosaic.ValueIdx Cert.RefLib

/-- An argument array at the ideal values. -/
abbrev Arg : Type := (⟨S4096x2048, .f32⟩ : BufTy).Contents (Elt Ideal)

/-! ## The first argument's rows -/

/-- The sum of squares of row `n` of the first argument. -/
theorem v1_apply (x0 : Arg) (n : Fin 4096) :
    val_main_v1 (F := Ideal) x0 (ix1 n) = ∑ k : Fin 2048, x0 (ix2 n k) * x0 (ix2 n k) := by
  rw [val_main_v1_apply, val_main_cst_apply]
  show Ideal.ofBits .f32 0x00000000#32 + _ = _
  rw [Ideal.ofBits_zero_f32, zero_add]
  refine Finset.sum_congr rfl fun k _ => ?_
  have hi : idx_main_v1 (ix1 n) k = ix2 n k := by
    funext a; match a with | ⟨0, _⟩ => rfl | ⟨1, _⟩ => rfl
  rw [val_main_v0_apply, hi]
  rfl

/-- Row `n`'s clamped norm. -/
theorem v5_apply (x0 : Arg) (n : Fin 4096) :
    val_main_v5 (F := Ideal) x0 (ix2 n (0 : Fin 1)) = Cert.Spec.clampNorm x0 n := by
  have hi : idx_main_v2 (ix2 n (0 : Fin 1)) = ix1 n := by
    funext a; match a with | ⟨0, _⟩ => rfl
  rw [val_main_v5_apply, val_main_v3_apply, val_main_v2_apply, val_main_v4_apply, val_main_cst_0_apply, hi, v1_apply]
  rfl

/-- Entry `(n, d)` of the first argument, normalized. -/
theorem v7_apply (x0 : Arg) (n : Fin 4096) (d : Fin 2048) :
    val_main_v7 (F := Ideal) x0 (ix2 n d) = Cert.Spec.unit x0 n d := by
  have hi : idx_main_v6 (ix2 n d) = ix2 n (0 : Fin 1) := by
    funext a; match a with | ⟨0, _⟩ => rfl | ⟨1, _⟩ => rfl
  rw [val_main_v7_apply, val_main_v6_apply, hi, v5_apply]
  rfl

/-! ## The second argument's rows -/

/-- The sum of squares of row `n` of the second argument. -/
theorem v9_apply (x1 : Arg) (n : Fin 4096) :
    val_main_v9 (F := Ideal) x1 (ix1 n) = ∑ k : Fin 2048, x1 (ix2 n k) * x1 (ix2 n k) := by
  rw [val_main_v9_apply, val_main_cst_1_apply]
  show Ideal.ofBits .f32 0x00000000#32 + _ = _
  rw [Ideal.ofBits_zero_f32, zero_add]
  refine Finset.sum_congr rfl fun k _ => ?_
  have hi : idx_main_v9 (ix1 n) k = ix2 n k := by
    funext a; match a with | ⟨0, _⟩ => rfl | ⟨1, _⟩ => rfl
  rw [val_main_v8_apply, hi]
  rfl

/-- Row `n`'s clamped norm. -/
theorem v13_apply (x1 : Arg) (n : Fin 4096) :
    val_main_v13 (F := Ideal) x1 (ix2 n (0 : Fin 1)) = Cert.Spec.clampNorm x1 n := by
  have hi : idx_main_v10 (ix2 n (0 : Fin 1)) = ix1 n := by
    funext a; match a with | ⟨0, _⟩ => rfl
  rw [val_main_v13_apply, val_main_v11_apply, val_main_v10_apply, val_main_v12_apply, val_main_cst_2_apply, hi,
    v9_apply]
  rfl

/-- Entry `(n, d)` of the second argument, normalized. -/
theorem v15_apply (x1 : Arg) (n : Fin 4096) (d : Fin 2048) :
    val_main_v15 (F := Ideal) x1 (ix2 n d) = Cert.Spec.unit x1 n d := by
  have hi : idx_main_v14 (ix2 n d) = ix2 n (0 : Fin 1) := by
    funext a; match a with | ⟨0, _⟩ => rfl | ⟨1, _⟩ => rfl
  rw [val_main_v15_apply, val_main_v14_apply, hi, v13_apply]
  rfl

/-! ## The stack and its pairwise inner products -/

/-- Row `R` of the stack: a normalized row of the first argument above `4096`, of the second from there on. -/
theorem v16_apply (x0 x1 : Arg) (R : Fin 8192) (d : Fin 2048) :
    val_main_v16 (F := Ideal) x0 x1 (ix2 R d) = Cert.Spec.zRef x0 x1 R d := by
  unfold val_main_v16 Cert.Spec.zRef
  by_cases h : R.val < 4096
  · rw [dif_pos h]
    refine (concat_rows_left (n1 := 4096) (n2 := 4096) (n := 8192) (m := 2048) _ _ _ R d h).trans ?_
    exact v7_apply x0 ⟨R.val, h⟩ d
  · rw [dif_neg h]
    have hR := R.isLt
    refine (concat_rows_right (n1 := 4096) (n2 := 4096) (n := 8192) (m := 2048) _ _ _ R d (by omega) (by omega)).trans ?_
    exact v15_apply x1 ⟨R.val - 4096, by omega⟩ d

/-- Entry `(R, C)` of the stack times its transpose: the inner product of rows `R` and `C`. -/
theorem v18_apply (x0 x1 : Arg) (R C : Fin 8192) :
    val_main_v18 (F := Ideal) x0 x1 (ix2 R C) = Cert.Spec.simRef x0 x1 R C := by
  rw [val_main_v18_apply]
  unfold Cert.Spec.simRef
  refine Finset.sum_congr rfl fun k _ => ?_
  have h1 : lidx_main_v18 (ix2 R C) k = ix2 R k := by
    funext a; match a with | ⟨0, _⟩ => rfl | ⟨1, _⟩ => rfl
  have h2 : idx_main_v17 (ridx_main_v18 (ix2 R C) k) = ix2 C k := by
    funext a; match a with | ⟨0, _⟩ => rfl | ⟨1, _⟩ => rfl
  rw [val_main_v17_apply, h1, h2, v16_apply, v16_apply]

end Cert.ReferenceIdeal.RefValue

end
-- ==== Proof.RefDiag.lean ====
import proofs.«107862_j71090298683407_2_alg».proof.Proof.RefRows

/-!
# The two off-diagonals of the similarity matrix

`jnp.diagonal` with offset `±4096` builds, for each `r < 4096`, a row number and a column number as 32-bit words
(a count from zero, `4096` added to one of the two, and `8192` added wherever the word is negative, which it never
is), and gathers the matrix at them. So the upper off-diagonal is `sim[r, r + 4096]`, the lower `sim[r + 4096, r]`,
and the two laid end to end hold, at row `R` of the stack, the similarity of `R` with its partner.
-/

noncomputable section

open scoped BigOperators

namespace Cert.ReferenceIdeal.RefValue

open Cert.ReferenceIdeal Cert.ReferenceIdeal.Gen Cert.ReferenceIdeal.Read Idealize.ShloMosaic
  Idealize.ShloMosaic.ValueIdx Cert.RefLib

/-! ## The upper off-diagonal's start indices: row `r`, column `r + 4096` -/

theorem call0_v3_apply (r : Fin 4096) :
    val_main_call0_v3 (F := Ideal) (ix1 r) = BitVec.ofNat 32 (4096 + r.val) := by
  rw [val_main_call0_v3_apply, val_main_call0_v2_apply, val_main_call0_c_apply, val_main_call0_v1_apply]
  exact addi_ofNat 4096 r.val

theorem call0_v8_apply (r : Fin 4096) : val_main_call0_v8 (F := Ideal) (ix1 r) = BitVec.ofNat 32 r.val := by
  rw [val_main_call0_v8_apply, val_main_call0_v5_apply, val_main_call0_v0_apply, val_main_call0_v4_apply,
    val_main_call0_c_0_apply]
  show Scalar.select (IntOp.cmpi .slt (BitVec.ofNat 32 r.val) 0#32) _ _ = _
  rw [cmpi_slt_ofNat_zero r.val (by have := r.isLt; omega), select_zero]

theorem call0_v13_apply (r : Fin 4096) :
    val_main_call0_v13 (F := Ideal) (ix1 r) = BitVec.ofNat 32 (4096 + r.val) := by
  rw [val_main_call0_v13_apply, val_main_call0_v10_apply, call0_v3_apply, val_main_call0_v9_apply,
    val_main_call0_c_2_apply, cmpi_slt_ofNat_zero (4096 + r.val) (by have := r.isLt; omega), select_zero]

theorem call0_v16_row (r : Fin 4096) :
    val_main_call0_v16 (F := Ideal) (ix2 r (0 : Fin 2)) = BitVec.ofNat 32 r.val := by
  unfold val_main_call0_v16
  refine (concat_cols_left (n := 4096) _ _ _ r).trans ?_
  have hi : idx_main_call0_v14 (ix2 r (0 : Fin 1)) = ix1 r := by
    funext a; match a with | ⟨0, _⟩ => rfl
  rw [val_main_call0_v14_apply, hi, call0_v8_apply]

theorem call0_v16_col (r : Fin 4096) :
    val_main_call0_v16 (F := Ideal) (ix2 r (1 : Fin 2)) = BitVec.ofNat 32 (4096 + r.val) := by
  unfold val_main_call0_v16
  refine (concat_cols_right (n := 4096) _ _ _ r).trans ?_
  have hi : idx_main_call0_v15 (ix2 r (0 : Fin 1)) = ix1 r := by
    funext a; match a with | ⟨0, _⟩ => rfl
  rw [val_main_call0_v15_apply, hi, call0_v13_apply]

/-! ## The lower off-diagonal's start indices: row `r + 4096`, column `r` -/

theorem call1_v3_apply (r : Fin 4096) :
    val_main_call1_v3 (F := Ideal) (ix1 r) = BitVec.ofNat 32 (4096 + r.val) := by
  rw [val_main_call1_v3_apply, val_main_call1_v2_apply, val_main_call1_c_apply, val_main_call1_v1_apply]
  exact addi_ofNat 4096 r.val

theorem call1_v8_apply (r : Fin 4096) :
    val_main_call1_v8 (F := Ideal) (ix1 r) = BitVec.ofNat 32 (4096 + r.val) := by
  rw [val_main_call1_v8_apply, val_main_call1_v5_apply, call1_v3_apply, val_main_call1_v4_apply,
    val_main_call1_c_0_apply, cmpi_slt_ofNat_zero (4096 + r.val) (by have := r.isLt; omega), select_zero]

theorem call1_v13_apply (r : Fin 4096) : val_main_call1_v13 (F := Ideal) (ix1 r) = BitVec.ofNat 32 r.val := by
  rw [val_main_call1_v13_apply, val_main_call1_v10_apply, val_main_call1_v0_apply, val_main_call1_v9_apply,
    val_main_call1_c_2_apply]
  show Scalar.select (IntOp.cmpi .slt (BitVec.ofNat 32 r.val) 0#32) _ _ = _
  rw [cmpi_slt_ofNat_zero r.val (by have := r.isLt; omega), select_zero]

theorem call1_v16_row (r : Fin 4096) :
    val_main_call1_v16 (F := Ideal) (ix2 r (0 : Fin 2)) = BitVec.ofNat 32 (4096 + r.val) := by
  unfold val_main_call1_v16
  refine (concat_cols_left (n := 4096) _ _ _ r).trans ?_
  have hi : idx_main_call1_v14 (ix2 r (0 : Fin 1)) = ix1 r := by
    funext a; match a with | ⟨0, _⟩ => rfl
  rw [val_main_call1_v14_apply, hi, call1_v8_apply]

theorem call1_v16_col (r : Fin 4096) :
    val_main_call1_v16 (F := Ideal) (ix2 r (1 : Fin 2)) = BitVec.ofNat 32 r.val := by
  unfold val_main_call1_v16
  refine (concat_cols_right (n := 4096) _ _ _ r).trans ?_
  have hi : idx_main_call1_v15 (ix2 r (0 : Fin 1)) = ix1 r := by
    funext a; match a with | ⟨0, _⟩ => rfl
  rw [val_main_call1_v15_apply, hi, call1_v13_apply]

/-! ## The gathers -/

/-- The printed dimension numbers are the two-column pick's. -/
theorem gather_eq_pick :
    gather_S8192x8192_S4096x2_S4096_n_01_n_n_01_1_11
      = pickDims 8192 8192 4096 gather_S8192x8192_S4096x2_S4096_n_01_n_n_01_1_11_wf := rfl

/-- The upper off-diagonal: entry `r` is the similarity of rows `r` and `r + 4096`. -/
theorem v19_apply (x0 x1 : Arg) (r : Fin 4096) :
    val_main_v19 (F := Ideal) x0 x1 (ix1 r)
      = Cert.Spec.simRef x0 x1 ⟨r.val, by have := r.isLt; omega⟩ ⟨r.val + 4096, by have := r.isLt; omega⟩ := by
  have hr := r.isLt
  unfold val_main_v19
  rw [gather_eq_pick]
  refine (gather_pick_apply (N := 8192) (M := 8192) (R := 4096) (by decide) (by decide) _ _ _ r).trans ?_
  refine Eq.trans (congrArg _ ?_) (v18_apply x0 x1 ⟨r.val, by omega⟩ ⟨r.val + 4096, by omega⟩)
  funext a
  match a with
  | ⟨0, _⟩ =>
    refine Fin.ext ?_
    show min (val_main_call0_v16 (F := Ideal) (ix2 r (0 : Fin 2))).toInt.toNat (8192 - 1) = r.val
    rw [call0_v16_row, toInt_toNat_ofNat r.val (by omega)]; omega
  | ⟨1, _⟩ =>
    refine Fin.ext ?_
    show min (val_main_call0_v16 (F := Ideal) (ix2 r (1 : Fin 2))).toInt.toNat (8192 - 1) = r.val + 4096
    rw [call0_v16_col, toInt_toNat_ofNat (4096 + r.val) (by omega)]; omega

/-- The lower off-diagonal: entry `r` is the similarity of rows `r + 4096` and `r`. -/
theorem v20_apply (x0 x1 : Arg) (r : Fin 4096) :
    val_main_v20 (F := Ideal) x0 x1 (ix1 r)
      = Cert.Spec.simRef x0 x1 ⟨r.val + 4096, by have := r.isLt; omega⟩ ⟨r.val, by have := r.isLt; omega⟩ := by
  have hr := r.isLt
  unfold val_main_v20
  rw [gather_eq_pick]
  refine (gather_pick_apply (N := 8192) (M := 8192) (R := 4096) (by decide) (by decide) _ _ _ r).trans ?_
  refine Eq.trans (congrArg _ ?_) (v18_apply x0 x1 ⟨r.val + 4096, by omega⟩ ⟨r.val, by omega⟩)
  funext a
  match a with
  | ⟨0, _⟩ =>
    refine Fin.ext ?_
    show min (val_main_call1_v16 (F := Ideal) (ix2 r (0 : Fin 2))).toInt.toNat (8192 - 1) = r.val + 4096
    rw [call1_v16_row, toInt_toNat_ofNat (4096 + r.val) (by omega)]; omega
  | ⟨1, _⟩ =>
    refine Fin.ext ?_
    show min (val_main_call1_v16 (F := Ideal) (ix2 r (1 : Fin 2))).toInt.toNat (8192 - 1) = r.val
    rw [call1_v16_col, toInt_toNat_ofNat r.val (by omega)]; omega

/-! ## The positives -/

/-- The two off-diagonals laid end to end: at row `R`, the similarity of `R` and its partner. -/
theorem v21_apply (x0 x1 : Arg) (R : Fin 8192) :
    val_main_v21 (F := Ideal) x0 x1 (ix1 R) = Cert.Spec.simRef x0 x1 R (Cert.Spec.partner R) := by
  have hR := R.isLt
  unfold val_main_v21
  by_cases h : R.val < 4096
  · refine (concat_vec_left (n1 := 4096) (n2 := 4096) (n := 8192) _ _ _ R h).trans ?_
    rw [v19_apply]
    unfold Cert.Spec.partner
    rw [dif_pos h]
  · refine (concat_vec_right (n1 := 4096) (n2 := 4096) (n := 8192) _ _ _ R (by omega) (by omega)).trans ?_
    rw [v20_apply]
    unfold Cert.Spec.partner
    rw [dif_neg h]
    refine congrArg (fun A => Cert.Spec.simRef x0 x1 A _) (Fin.ext ?_)
    show R.val - 4096 + 4096 = R.val
    omega

end Cert.ReferenceIdeal.RefValue

end
-- ==== Proof.RefRead.lean ====
import proofs.«107862_j71090298683407_2_alg».proof.Defs
import proofs.«107862_j71090298683407_2_alg».proof.Proof.Gen.ReferenceIdeal.Run
import proofs.«107862_j71090298683407_2_alg».proof.Proof.Gen.ReferenceIdeal.Read
import proofs.«107862_j71090298683407_2_alg».proof.Proof.RefDiag
import Idealize.ShloMosaic.Lib.ValueIdx
import Idealize.ShloMosaic.Lib.ValueLayout
import Idealize.ShloMosaic.Lib.Pipeline.Value
import Idealize.ShloMosaic.PureOps.Ideal.Laws

/-!
# The reference's result, read index by index

Row `R`'s numerator is `exp (positive / ½)`, the positive read off the similarity matrix at `R`'s partner column; its
denominator sums `exp (similarity / ½)` over every column, each term times `1 − [R = C]`; the result is the sum over
the rows of `− log (numerator / denominator)`, divided by the row count. That is the specification's `lossRef`.
-/

noncomputable section

open scoped BigOperators

namespace Cert.ReferenceIdeal.RefValue

open Cert.ReferenceIdeal Cert.ReferenceIdeal.Gen Cert.ReferenceIdeal.Read Idealize.ShloMosaic
  Idealize.ShloMosaic.ValueIdx Cert.RefLib

/-- Row `R`'s numerator. -/
theorem v24_apply (x0 x1 : Arg) (R : Fin 8192) :
    val_main_v24 (F := Ideal) x0 x1 (ix1 R)
      = Ideal.exp (Ideal.div (Cert.Spec.simRef x0 x1 R (Cert.Spec.partner R)) Cert.Spec.half) := by
  rw [val_main_v24_apply, val_main_v23_apply, val_main_v22_apply, val_main_cst_3_apply, v21_apply]
  rfl

/-- The mask: `1` less the float of the bit "row number equals column number". -/
theorem v32_apply (R C : Fin 8192) :
    val_main_v32 (F := Ideal) (ix2 R C) = Cert.Spec.one - (if R = C then (1 : EReal) else 0) := by
  have hR := R.isLt
  have hC := C.isLt
  rw [val_main_v32_apply, val_main_v31_apply, val_main_cst_4_apply, val_main_v30_apply, val_main_v29_apply,
    val_main_v28_apply, val_main_v25_apply, val_main_v27_apply, val_main_c_apply, val_main_v26_apply]
  show Ideal.ofBits .f32 0x3F800000#32
      - FloatOps.uitofp (F := Ideal) .f32
          (IntOp.cmpi .eq (IntOp.addi (BitVec.ofNat 32 R.val) (BitVec.ofNat 32 0)) (BitVec.ofNat 32 C.val)) = _
  rw [addi_ofNat R.val 0, Nat.add_zero, uitofp_cmpi_eq R.val C.val (by omega) (by omega)]
  by_cases h : R = C
  · subst h; rw [if_pos rfl, if_pos rfl]
  · rw [if_neg h, if_neg (fun e => h (Fin.ext e))]

/-- Entry `(R, C)` of the masked exponentials. -/
theorem v36_apply (x0 x1 : Arg) (R C : Fin 8192) :
    val_main_v36 (F := Ideal) x0 x1 (ix2 R C)
      = (Cert.Spec.one - (if R = C then (1 : EReal) else 0))
          * Ideal.exp (Ideal.div (Cert.Spec.simRef x0 x1 R C) Cert.Spec.half) := by
  rw [val_main_v36_apply, v32_apply, val_main_v35_apply, val_main_v34_apply, val_main_v33_apply,
    val_main_cst_5_apply, v18_apply]
  rfl

/-- Row `R`'s denominator. -/
theorem v37_apply (x0 x1 : Arg) (R : Fin 8192) :
    val_main_v37 (F := Ideal) x0 x1 (ix1 R) = Cert.Spec.denomRef x0 x1 R := by
  rw [val_main_v37_apply, val_main_cst_6_apply]
  show Ideal.ofBits .f32 0x00000000#32 + _ = _
  rw [Ideal.ofBits_zero_f32, zero_add]
  unfold Cert.Spec.denomRef
  refine Finset.sum_congr rfl fun C _ => ?_
  have hi : idx_main_v37 (ix1 R) C = ix2 R C := by
    funext a; match a with | ⟨0, _⟩ => rfl | ⟨1, _⟩ => rfl
  rw [hi, v36_apply]

/-- Row `R`'s term of the loss. -/
theorem v40_apply (x0 x1 : Arg) (R : Fin 8192) :
    val_main_v40 (F := Ideal) x0 x1 (ix1 R)
      = -(Ideal.log (Ideal.div (Ideal.exp (Ideal.div (Cert.Spec.simRef x0 x1 R (Cert.Spec.partner R)) Cert.Spec.half))
            (Cert.Spec.denomRef x0 x1 R))) := by
  rw [val_main_v40_apply, val_main_v39_apply, val_main_v38_apply, v24_apply, v37_apply]
  rfl

/-- The reference's result is the specification's `lossRef` of its two arguments. -/
theorem ref_eq (x0 x1 : (⟨Cert.ReferenceIdeal.S4096x2048, .f32⟩ : BufTy).Contents (Elt Ideal)) :
    Cert.ReferenceIdeal.Read.val_main_v42 (F := Ideal) x0 x1 = fun _ => Cert.Spec.lossRef x0 x1 := by
  funext i
  have hs : ∑ j : S8192.Idx, val_main_v40 (F := Ideal) x0 x1 j
      = ∑ R : Fin 8192, val_main_v40 (F := Ideal) x0 x1 (ix1 R) := sum_idx1 (n := 8192) _
  rw [val_main_v42_apply, val_main_v41_apply, val_main_cst_7_apply, val_main_cst_8_apply, hs]
  show Ideal.div (Ideal.ofBits .f32 0x00000000#32 + _) (Ideal.ofBits .f32 0x46000000#32) = _
  rw [Ideal.ofBits_zero_f32, zero_add]
  unfold Cert.Spec.lossRef
  refine congrArg (fun s => Ideal.div s Cert.Spec.cnt) (Finset.sum_congr rfl fun R _ => ?_)
  exact v40_apply x0 x1 R

end Cert.ReferenceIdeal.RefValue

end
-- ==== Proof.RefFinite.lean ====
import proofs.«107862_j71090298683407_2_alg».proof.Defs
import proofs.«107862_j71090298683407_2_alg».proof.Proof.Gen.Pre_finite_inputs
import proofs.«107862_j71090298683407_2_alg».proof.Proof.Spec
import Idealize.ShloMosaic.Lib.ValueIdx
import Idealize.ShloMosaic.Lib.ReduceAll

/-!
# From the precondition to "every entry of both arguments is a real number"

The precondition says that the conjunction over all entries of `|x| < +∞`, taken for each of the two argument
matrices, is the bit `1`. A conjunction that is `1` met only `1`s, so every entry's absolute value lies strictly
below `+∞`; an extended real with that property is neither `+∞` nor `−∞`, hence a real number.
-/

namespace Cert.Proof.Finite

open Idealize.ShloMosaic Idealize.SL.Sem

/-- The scalar shape has a single index. -/
instance : Subsingleton Cert.Pre_finite_inputs.S_.Idx := ⟨fun a b => funext fun d => d.elim0⟩

/-- An extended real whose absolute value compares strictly below the f32 pattern of `+∞` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- If the conjunction over every entry of `|x| < +∞` is the bit `1`, every entry of `x` is a real number. -/
theorem isReal_of_all [Cert.Pre_finite_inputs.Facts] (x : Cert.Spec.Mat)
    (h : Host.reduce IntOp.andi
        (cmpf CmpFPredicate.olt (Host.absf (F := Ideal) (φ := .f32) x)
          (broadcastInDim Pre_finite_inputs.S4096x2048 ![] Cert.Pre_finite_inputs.Facts.bcast_S_S4096x2048
            (constant (F := Ideal) Pre_finite_inputs.S_ FTy.f32 0x7F800000#32)))
        (constantI Pre_finite_inputs.S_ 1 1#1) Cert.Pre_finite_inputs.Facts.reducesTo_S4096x2048_S_d0_1
        Cert.Pre_finite_inputs.Facts.h_S_ ValueIdx.ix0 = 1#1) : Cert.Spec.IsReal x := by
  intro i
  have hi := Host.reduce_andi_all _ _ _ _ _ h i
  exact real_of_abs_lt (x i) hi

/-- Under the precondition both argument matrices hold real numbers only, on every device. -/
theorem isReal_of_pre [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
      Cert.Spec.IsReal (m ((c.tc : Thread Cert.KernelIdeal.nD Cert.KernelIdeal.τ).loc Cert.KernelIdeal.main_arg0)) ∧ Cert.Spec.IsReal (m ((c.tc : Thread Cert.KernelIdeal.nD Cert.KernelIdeal.τ).loc Cert.KernelIdeal.main_arg1)) := by
  have h0 := congrFun (h c) ValueIdx.ix0
  dsimp only [Cert.Pre_finite_inputs.fn] at h0
  obtain ⟨ha, hb⟩ := IntOp.andi_eq_one.1 h0
  exact ⟨isReal_of_all _ ha, isReal_of_all _ hb⟩

end Cert.Proof.Finite
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.Bridge.lean ====
import proofs.«107862_j71090298683407_2_alg».proof.Proof.Spec
import proofs.«107862_j71090298683407_2_alg».proof.Proof.LibERealSum
import Idealize.ShloMosaic.PureOps.Ideal
import Idealize.ShloMosaic.PureOps.Ideal.Laws
import Mathlib

/-!
# The reference's arrangement of the contrastive loss equals the kernel's, on real arguments

Both arrangements normalize each row of the two argument matrices by its Euclidean norm clamped below by a
positive constant, stack the 8192 unit rows, and average over the rows `log (denominator) − 2 · positive`.
They differ in three ways, and each difference disappears once every quantity is known to be a real number.

* The order of the stacked rows. The kernel interleaves tiles of 256 rows of `x_i` and of `x_j`; the reference
  puts all of `x_i` above all of `x_j`. A permutation `σ` of the 8192 row indices carries one order to the other,
  and every sum over rows is invariant under it.
* The diagonal of the denominator. The kernel leaves the diagonal term out; the reference multiplies every
  exponential by `1 − [R = C]`. On the diagonal this is `0 · e`, which is `0` because `e` is a real; off it
  the factor is `1`.
* The row term. The reference takes `− log (exp (p / ½) / D)`; for a real `p` and a positive real `D` this is
  `log D − 2 p`, the kernel's term.

The division of the outer sum by the row count is the same operation on both sides and is never evaluated.
-/

noncomputable section

open scoped BigOperators

namespace Cert.Spec

open Idealize.ShloMosaic Idealize.ShloMosaic.ValueIdx

namespace Bridge

/-! ## The literals

Each word is read once: `2`, `1/2`, `1` and `8192` exactly; of the clamp only that it is a positive real. -/

theorem two_eq : two = ((2 : ℝ) : EReal) := by
  simp [Ideal.ofBits, Ideal.ieee, -EReal.coe_mul]; norm_num

theorem half_eq : half = ((1 / 2 : ℝ) : EReal) := by
  simp [Ideal.ofBits, Ideal.ieee, -EReal.coe_mul]; norm_num

theorem one_eq : one = ((1 : ℝ) : EReal) := by
  simp [Ideal.ofBits, Ideal.ieee, -EReal.coe_mul]; norm_num

theorem cnt_eq : cnt = ((8192 : ℝ) : EReal) := by
  simp [Ideal.ofBits, Ideal.ieee, -EReal.coe_mul]; norm_num

theorem eps_pos_real : ∃ e : ℝ, 0 < e ∧ eps = (e : EReal) := by
  refine ⟨(2 ^ 23 + 834764 : ℕ) * (2 : ℝ) ^ (87 - 127 - 23 : ℤ), by positivity, ?_⟩
  simp [Ideal.ofBits, Ideal.ieee, -EReal.coe_mul]

/-! ## Every intermediate quantity of a real argument is a real number -/

/-- The coercion of the reals into the extended reals commutes with `max`. -/
theorem coe_max_real (a b : ℝ) : ((max a b : ℝ) : EReal) = max (a : EReal) (b : EReal) :=
  EReal.coe_strictMono.monotone.map_max

/-- A row's sum of squares is a nonnegative real. -/
theorem sqnorm_real {x : Mat} (hx : IsReal x) (n : Fin 4096) :
    ∃ s : ℝ, 0 ≤ s ∧ (∑ d : Fin 2048, x (ix2 n d) * x (ix2 n d)) = (s : EReal) := by
  choose a ha using hx
  refine ⟨∑ d : Fin 2048, a (ix2 n d) * a (ix2 n d),
    Finset.sum_nonneg (fun d _ => mul_self_nonneg _), ?_⟩
  rw [← Cert.Lib.sum_coe]
  refine Finset.sum_congr rfl (fun d _ => ?_)
  rw [ha, EReal.coe_mul]

/-- A row's clamped norm is a positive real: the larger of a nonnegative real and the positive clamp. -/
theorem clampNorm_pos_real {x : Mat} (hx : IsReal x) (n : Fin 4096) :
    ∃ c : ℝ, 0 < c ∧ clampNorm x n = (c : EReal) := by
  obtain ⟨s, hs, hsum⟩ := sqnorm_real hx n
  obtain ⟨e, he, heps⟩ := eps_pos_real
  refine ⟨max (Real.sqrt s) e, lt_max_of_lt_right he, ?_⟩
  unfold clampNorm
  rw [hsum, heps, Ideal.sqrt_coe, if_neg (not_lt.2 hs), coe_max_real]

/-- An entry of a normalized row is a real: a real divided by a positive real. -/
theorem unit_real {x : Mat} (hx : IsReal x) (n : Fin 4096) (d : Fin 2048) :
    ∃ r : ℝ, unit x n d = (r : EReal) := by
  obtain ⟨c, hc, hcn⟩ := clampNorm_pos_real hx n
  obtain ⟨a, ha⟩ := hx (ix2 n d)
  refine ⟨a * (1 / c), ?_⟩
  unfold unit
  rw [hcn, Ideal.div_coe hc.ne', ha, EReal.coe_mul]

/-- The reference's stacked rows are real. -/
theorem zRef_real {xi xj : Mat} (hi : IsReal xi) (hj : IsReal xj) (R : Fin 8192) (d : Fin 2048) :
    ∃ r : ℝ, zRef xi xj R d = (r : EReal) := by
  unfold zRef
  split
  · exact unit_real hi _ d
  · exact unit_real hj _ d

/-! ## The two row orders -/

/-- The reference's row index of the kernel's row `R`. -/
def fwd (R : Fin 8192) : Fin 8192 :=
  if R.val % 512 < 256 then ⟨256 * (R.val / 512) + R.val % 256, by omega⟩
  else ⟨4096 + (256 * (R.val / 512) + R.val % 256), by omega⟩

/-- The kernel's row index of the reference's row `r`. -/
def bwd (r : Fin 8192) : Fin 8192 :=
  if h : r.val < 4096 then ⟨512 * (r.val / 256) + r.val % 256, by omega⟩
  else ⟨512 * ((r.val - 4096) / 256) + 256 + (r.val - 4096) % 256, by omega⟩

theorem fwd_val_lo (R : Fin 8192) (h : R.val % 512 < 256) :
    (fwd R).val = 256 * (R.val / 512) + R.val % 256 := by
  unfold fwd; rw [if_pos h]

theorem fwd_val_hi (R : Fin 8192) (h : ¬ R.val % 512 < 256) :
    (fwd R).val = 4096 + (256 * (R.val / 512) + R.val % 256) := by
  unfold fwd; rw [if_neg h]

theorem bwd_val_lo (r : Fin 8192) (h : r.val < 4096) :
    (bwd r).val = 512 * (r.val / 256) + r.val % 256 := by
  unfold bwd; rw [dif_pos h]

theorem bwd_val_hi (r : Fin 8192) (h : ¬ r.val < 4096) :
    (bwd r).val = 512 * ((r.val - 4096) / 256) + 256 + (r.val - 4096) % 256 := by
  unfold bwd; rw [dif_neg h]

/-- The row permutation from the kernel's tile-by-tile order to the reference's half-by-half order. -/
def σ : Fin 8192 ≃ Fin 8192 where
  toFun := fwd
  invFun := bwd
  left_inv R := by
    apply Fin.ext
    have hR := R.isLt
    by_cases h : R.val % 512 < 256
    · have h1 := fwd_val_lo R h
      have h2 : (fwd R).val < 4096 := by omega
      rw [bwd_val_lo _ h2, h1]; omega
    · have h1 := fwd_val_hi R h
      have h2 : ¬ (fwd R).val < 4096 := by omega
      rw [bwd_val_hi _ h2, h1]; omega
  right_inv r := by
    apply Fin.ext
    have hr := r.isLt
    by_cases h : r.val < 4096
    · have h1 := bwd_val_lo r h
      have h2 : (bwd r).val % 512 < 256 := by omega
      rw [fwd_val_lo _ h2, h1]; omega
    · have h1 := bwd_val_hi r h
      have h2 : ¬ (bwd r).val % 512 < 256 := by omega
      rw [fwd_val_hi _ h2, h1]; omega

theorem σ_val_lo (R : Fin 8192) (h : R.val % 512 < 256) : (σ R).val = (srcRow R).val := fwd_val_lo R h

theorem σ_val_hi (R : Fin 8192) (h : ¬ R.val % 512 < 256) : (σ R).val = 4096 + (srcRow R).val :=
  fwd_val_hi R h

/-- A row of the upper half of the reference's stack is a normalized row of `x_i`. -/
theorem zRef_lo (xi xj : Mat) (r : Fin 8192) (n : Fin 4096) (h : r.val = n.val) (d : Fin 2048) :
    zRef xi xj r d = unit xi n d := by
  have hn := n.isLt
  have h1 : r.val < 4096 := by omega
  unfold zRef
  rw [dif_pos h1]
  exact congrArg (fun m => unit xi m d) (Fin.ext h)

/-- A row of the lower half of the reference's stack is a normalized row of `x_j`. -/
theorem zRef_hi (xi xj : Mat) (r : Fin 8192) (n : Fin 4096) (h : r.val = 4096 + n.val) (d : Fin 2048) :
    zRef xi xj r d = unit xj n d := by
  have h1 : ¬ r.val < 4096 := by omega
  unfold zRef
  rw [dif_neg h1]
  exact congrArg (fun m => unit xj m d) (Fin.ext (by show r.val - 4096 = n.val; omega))

/-- The kernel's stack is the reference's, rows permuted. -/
theorem z_eq (xi xj : Mat) (R : Fin 8192) (d : Fin 2048) : z xi xj R d = zRef xi xj (σ R) d := by
  unfold z
  by_cases h : R.val % 512 < 256
  · rw [if_pos h, zRef_lo xi xj (σ R) (srcRow R) (σ_val_lo R h)]
  · rw [if_neg h, zRef_hi xi xj (σ R) (srcRow R) (σ_val_hi R h)]

/-- Hence so are the similarities. -/
theorem simOf_eq (xi xj : Mat) (R C : Fin 8192) :
    simOf (zMat xi xj) R C = simRef xi xj (σ R) (σ C) := by
  unfold simOf simRef
  refine Finset.sum_congr rfl (fun d _ => ?_)
  show z xi xj R d * z xi xj C d = _
  rw [z_eq, z_eq]

theorem partner_val_lo (r : Fin 8192) (h : r.val < 4096) : (partner r).val = r.val + 4096 := by
  unfold partner; rw [dif_pos h]

theorem partner_val_hi (r : Fin 8192) (h : ¬ r.val < 4096) : (partner r).val = r.val - 4096 := by
  unfold partner; rw [dif_neg h]

/-- A row's positive pair is the reference's similarity of the row with its partner row; in the lower half the
    two factors of each product appear in the other order. -/
theorem pos_eq (xi xj : Mat) (R : Fin 8192) : pos xi xj R = simRef xi xj (σ R) (partner (σ R)) := by
  unfold pos simRef
  refine Finset.sum_congr rfl (fun d _ => ?_)
  have hn := (srcRow R).isLt
  by_cases h : R.val % 512 < 256
  · have h1 := σ_val_lo R h
    have h2 : (σ R).val < 4096 := by omega
    have h3 := partner_val_lo (σ R) h2
    rw [zRef_lo xi xj (σ R) (srcRow R) h1, zRef_hi xi xj (partner (σ R)) (srcRow R) (by omega)]
  · have h1 := σ_val_hi R h
    have h2 : ¬ (σ R).val < 4096 := by omega
    have h3 := partner_val_hi (σ R) h2
    rw [zRef_hi xi xj (σ R) (srcRow R) h1, zRef_lo xi xj (partner (σ R)) (srcRow R) (by omega), mul_comm]

/-! ## Similarities and denominators as real numbers -/

/-- With real stacked rows `u`, a similarity is the real inner product. -/
theorem simRef_coe {xi xj : Mat} (u : Fin 8192 → Fin 2048 → ℝ)
    (hu : ∀ R d, zRef xi xj R d = (u R d : EReal)) (R C : Fin 8192) :
    simRef xi xj R C = ((∑ d : Fin 2048, u R d * u C d : ℝ) : EReal) := by
  unfold simRef
  rw [← Cert.Lib.sum_coe]
  refine Finset.sum_congr rfl (fun d _ => ?_)
  rw [hu, hu, EReal.coe_mul]

/-- Dividing a real by the literal one half is multiplying it by the literal two. -/
theorem div_half (s : ℝ) : Ideal.div (s : EReal) half = ((s * 2 : ℝ) : EReal) := by
  rw [half_eq, Ideal.div_coe (by norm_num), ← EReal.coe_mul]
  congr 1
  norm_num

/-- One term of the reference's masked sum: the factor `1 − [R = C]` keeps the exponential off the diagonal and
    kills it (a real, so `0 · e = 0`) on it. -/
theorem ref_term (s : ℝ) (R C : Fin 8192) :
    (one - (if R = C then (1 : EReal) else 0)) * Ideal.exp (Ideal.div (s : EReal) half)
      = if C = R then 0 else Ideal.exp ((s : EReal) * two) := by
  rw [div_half, two_eq, ← EReal.coe_mul, Ideal.exp_coe, one_eq]
  by_cases h : R = C
  · rw [if_pos h, if_pos h.symm, ← EReal.coe_one, ← EReal.coe_sub, sub_self, EReal.coe_zero, zero_mul]
  · rw [if_neg h, if_neg (Ne.symm h), ← EReal.coe_zero, ← EReal.coe_sub, sub_zero, EReal.coe_one, one_mul]

/-- The reference's denominator in the kernel's form. -/
theorem denomRef_eq {xi xj : Mat} (s : Fin 8192 → Fin 8192 → ℝ)
    (hs : ∀ R C, simRef xi xj R C = (s R C : EReal)) (R : Fin 8192) :
    denomRef xi xj R = ∑ C : Fin 8192, if C = R then 0 else Ideal.exp ((s R C : EReal) * two) := by
  unfold denomRef
  refine Finset.sum_congr rfl (fun C _ => ?_)
  rw [hs, ref_term]

/-- The kernel's denominator of row `R` is the reference's of row `σ R`: the same terms, summed in the other order. -/
theorem denom_eq {xi xj : Mat} (s : Fin 8192 → Fin 8192 → ℝ)
    (hs : ∀ R C, simRef xi xj R C = (s R C : EReal)) (R : Fin 8192) :
    denom xi xj R = denomRef xi xj (σ R) := by
  rw [denomRef_eq s hs,
    ← Equiv.sum_comp σ (fun C' => if C' = σ R then (0 : EReal) else Ideal.exp ((s (σ R) C' : EReal) * two))]
  unfold denom denomOf
  refine Finset.sum_congr rfl (fun C _ => ?_)
  rw [simOf_eq, hs]
  by_cases h : C = R
  · rw [if_pos h, if_pos (congrArg σ h)]
  · rw [if_neg h, if_neg (fun h' => h (σ.injective h'))]

/-- A denominator is a positive real: 8191 positive terms and one zero. -/
theorem denomRef_pos_real {xi xj : Mat} (s : Fin 8192 → Fin 8192 → ℝ)
    (hs : ∀ R C, simRef xi xj R C = (s R C : EReal)) (R : Fin 8192) :
    ∃ D : ℝ, 0 < D ∧ denomRef xi xj R = (D : EReal) := by
  refine ⟨∑ C : Fin 8192, if C = R then 0 else Real.exp (s R C * 2), ?_, ?_⟩
  · obtain ⟨C0, hC0⟩ : ∃ C0 : Fin 8192, C0 ≠ R := by
      by_cases h0 : R.val = 0
      · exact ⟨⟨1, by omega⟩, fun h => by
          have h' : 1 = R.val := congrArg Fin.val h
          omega⟩
      · exact ⟨⟨0, by omega⟩, fun h => by
          have h' : 0 = R.val := congrArg Fin.val h
          omega⟩
    refine Finset.sum_pos' (fun C _ => ?_) ⟨C0, Finset.mem_univ _, ?_⟩
    · split_ifs
      · exact le_rfl
      · exact (Real.exp_pos _).le
    · rw [if_neg hC0]; exact Real.exp_pos _
  · rw [denomRef_eq s hs, ← Cert.Lib.sum_coe]
    refine Finset.sum_congr rfl (fun C _ => ?_)
    split_ifs
    · rfl
    · rw [two_eq, ← EReal.coe_mul, Ideal.exp_coe]

/-! ## One row of the loss -/

/-- `− log (e^{p / ½} / D) = log D − 2 p` for a real `p` and a positive real `D`. -/
theorem row_term (p D : ℝ) (hD : 0 < D) :
    -(Ideal.log (Ideal.div (Ideal.exp (Ideal.div (p : EReal) half)) (D : EReal)))
      = Ideal.log (D : EReal) - (p : EReal) * two := by
  have hq : 0 < Real.exp (p * 2) * (1 / D) := mul_pos (Real.exp_pos _) (one_div_pos.2 hD)
  rw [div_half, Ideal.exp_coe, Ideal.div_coe hD.ne', ← EReal.coe_mul, Ideal.log_coe, Ideal.log_coe,
    if_neg (not_le.2 hD), if_neg (not_le.2 hq), two_eq, ← EReal.coe_mul, ← EReal.coe_sub, ← EReal.coe_neg]
  congr 1
  rw [Real.log_mul (Real.exp_pos _).ne' (one_div_pos.2 hD).ne', Real.log_exp, one_div, Real.log_inv]
  ring

end Bridge

open Bridge

/-! ## The two losses -/

/-- On real arguments the reference's arrangement of the loss and the kernel's are the same extended real:
    row by row the terms agree (`row_term` with the denominators and positives matched through `σ`), and the
    sum over the rows does not depend on their order. -/
theorem loss_eq (xi xj : Mat) (hi : IsReal xi) (hj : IsReal xj) : lossRef xi xj = loss xi xj := by
  choose u hu using (fun R d => zRef_real hi hj R d)
  have hs : ∀ R C, simRef xi xj R C = ((∑ d : Fin 2048, u R d * u C d : ℝ) : EReal) := simRef_coe u hu
  unfold lossRef loss
  congr 1
  rw [← Equiv.sum_comp σ (fun R' => -(Ideal.log (Ideal.div (Ideal.exp (Ideal.div
    (simRef xi xj R' (partner R')) half)) (denomRef xi xj R'))))]
  refine Finset.sum_congr rfl (fun R _ => ?_)
  rw [denom_eq _ hs R, pos_eq]
  obtain ⟨D, hD, hDeq⟩ := denomRef_pos_real _ hs (σ R)
  rw [hs, hDeq]
  exact row_term _ D hD

end Cert.Spec

end
-- ==== Proof.lean ====
import proofs.«107862_j71090298683407_2_alg».proof.Defs
import proofs.«107862_j71090298683407_2_alg».proof.Proof.Gen.Kernel
import proofs.«107862_j71090298683407_2_alg».proof.Proof.Gen.KernelIdeal
import proofs.«107862_j71090298683407_2_alg».proof.Proof.Gen.ReferenceIdeal
import proofs.«107862_j71090298683407_2_alg».proof.Proof.Gen.Pre_finite_inputs
import proofs.«107862_j71090298683407_2_alg».proof.Proof.Gen.ReferenceIdeal.Run
import proofs.«107862_j71090298683407_2_alg».proof.Proof.Gen.ReferenceIdeal.Read
import proofs.«107862_j71090298683407_2_alg».proof.Proof.Kernel.Frame
import proofs.«107862_j71090298683407_2_alg».proof.Proof.KernelIdeal.Frame
import proofs.«107862_j71090298683407_2_alg».proof.Proof.Value.KernelValue
import proofs.«107862_j71090298683407_2_alg».proof.Proof.RefRead
import proofs.«107862_j71090298683407_2_alg».proof.Proof.RefFinite
import proofs.«107862_j71090298683407_2_alg».proof.Proof.Bridge
import Idealize.ShloMosaic.Adequacy
import Idealize.ShloMosaic.Init

/-!
# The certificate's claim

Both kernel programs run region by region (the normalizing region, the accumulating region whose two input windows
read one array, the host operations), which gives their frames. The reference is host operations only, and its frame
is its run with the result dropped. The idealization rewrote nothing. For the value: at the ideal instance the kernel
ends at the contrastive loss in its own arrangement (rows laid out tile by tile, the diagonal masked by a select,
`log denominator − 2 · positive`), the reference at the same loss in its arrangement (the two halves stacked, the
diagonal masked by a factor, `− log (exp (positive / ½) / denominator)`); over real inputs, which the precondition
gives, the two arrangements are one number: the rows are a permutation of each other, every denominator is a positive
real, and `− log (eᵖ / D) = log D − p`.
-/

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, both idealized programs end at the loss of the kernel's arguments: the kernel
    by its run read region by region, the reference by its generated run read operation by operation and the equality
    of the two arrangements over the real inputs the precondition gives. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨hi, hj⟩ := Cert.Proof.Finite.isReal_of_pre m hpre c
  rw [Cert.ReferenceIdeal.Read.val_main_v42_eq, Cert.ReferenceIdeal.RefValue.ref_eq, (hagree c).1, (hagree c).2,
    Cert.Spec.loss_eq _ _ hi hj]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
